-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S16x10x256 : Shape := ⟨3, ![16, 10, 256]⟩
abbrev S1x1x256 : Shape := ⟨3, ![1, 1, 256]⟩
abbrev S256 : Shape := ⟨1, ![256]⟩
abbrev S256x256 : Shape := ⟨2, ![256, 256]⟩
abbrev S768x256 : Shape := ⟨2, ![768, 256]⟩
abbrev S768 : Shape := ⟨1, ![768]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S16x10x256 : S_.BroadcastsInDim S16x10x256 (![] : Fin 0 → Fin S16x10x256.rank)
  reducesTo_S16x10x256_S_d0_1_2 : S16x10x256.ReducesTo [0, 1, 2] S_
  bcast_S_S1x1x256 : S_.BroadcastsInDim S1x1x256 (![] : Fin 0 → Fin S1x1x256.rank)
  reducesTo_S1x1x256_S_d0_1_2 : S1x1x256.ReducesTo [0, 1, 2] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part5 {F : FTy → Type} [FloatOps F] (main_v83 : IVec S_ 1) (main_v84 : FVec F S768 .f32) (main_cst_32 : FVec F S_ .f32) : IVec S_ 1 :=
  let main_v85 : FVec F S768 .f32 := broadcastInDim S768 ![] bcast_S_S768 main_cst_32
  let main_v86 : IVec S768 1 := cmpf .olt main_v84 main_v85
  let main_c_33 : IVec S_ 1 := constantI S_ 1 1#1
  let main_v87 : IVec S_ 1 := (fun x v => Host.reduce IntOp.andi x v reducesTo_S768_S_d0 h_S_) main_v86 main_c_33
  let main_v88 : IVec S_ 1 := andi main_v83 main_v87
  main_v88

def fn_part4 {F : FTy → Type} [FloatOps F] (main_arg14 : FVec F S768x256 .f32) (main_arg15 : FVec F S768x256 .f32) (main_arg16 : FVec F S768 .f32) (main_arg17 : FVec F S768 .f32) (main_v63 : IVec S_ 1) (main_v67 : IVec S_ 1) : IVec S_ 1 :=
  let main_v68 : IVec S_ 1 := andi main_v63 main_v67
  let main_v69 : FVec F S768x256 .f32 := Host.absf main_arg14
  let main_cst_26 : FVec F S_ .f32 := constant S_ .f32 0x7F800000#32
  let main_v70 : FVec F S768x256 .f32 := broadcastInDim S768x256 ![] bcast_S_S768x256 main_cst_26
  let main_v71 : IVec S768x256 1 := cmpf .olt main_v69 main_v70
  let main_c_27 : IVec S_ 1 := constantI S_ 1 1#1
  let main_v72 : IVec S_ 1 := (fun x v => Host.reduce IntOp.andi x v reducesTo_S768x256_S_d0_1 h_S_) main_v71 main_c_27
  let main_v73 : IVec S_ 1 := andi main_v68 main_v72
  let main_v74 : FVec F S768x256 .f32 := Host.absf main_arg15
  let main_cst_28 : FVec F S_ .f32 := constant S_ .f32 0x7F800000#32
  let main_v75 : FVec F S768x256 .f32 := broadcastInDim S768x256 ![] bcast_S_S768x256 main_cst_28
  let main_v76 : IVec S768x256 1 := cmpf .olt main_v74 main_v75
  let main_c_29 : IVec S_ 1 := constantI S_ 1 1#1
  let main_v77 : IVec S_ 1 := (fun x v => Host.reduce IntOp.andi x v reducesTo_S768x256_S_d0_1 h_S_) main_v76 main_c_29
  let main_v78 : IVec S_ 1 := andi main_v73 main_v77
  let main_v79 : FVec F S768 .f32 := Host.absf main_arg16
  let main_cst_30 : FVec F S_ .f32 := constant S_ .f32 0x7F800000#32
  let main_v80 : FVec F S768 .f32 := broadcastInDim S768 ![] bcast_S_S768 main_cst_30
  let main_v81 : IVec S768 1 := cmpf .olt main_v79 main_v80
  let main_c_31 : IVec S_ 1 := constantI S_ 1 1#1
  let main_v82 : IVec S_ 1 := (fun x v => Host.reduce IntOp.andi x v reducesTo_S768_S_d0 h_S_) main_v81 main_c_31
  let main_v83 : IVec S_ 1 := andi main_v78 main_v82
  let main_v84 : FVec F S768 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x256 .f32) (main_arg13 : FVec F S256 .f32) (main_arg14 : FVec F S768x256 .f32) (main_arg15 : FVec F S768x256 .f32) (main_arg16 : FVec F S768 .f32) (main_arg17 : FVec F S768 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg12
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S768x256 .f32) (main_arg15 : FVec F S768x256 .f32) (main_arg16 : FVec F S768 .f32) (main_arg17 : FVec F S768 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S768x256 .f32) (main_arg15 : FVec F S768x256 .f32) (main_arg16 : FVec F S768 .f32) (main_arg17 : FVec F S768 .f32) (main_v13 : IVec S_ 1) (main_v16 : IVec S1x1x256 1) : IVec S_ 1 :=
  let main_c_5 : IVec S_ 1 := constantI S_ 1 1#1
  let main_v17 : IVec S_ 1 := (fun x v => Host.reduce IntOp.andi x v reducesTo_S1x1x256_S_d0_1_2 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16x8192x256 .f32) (main_arg1 : FVec F S16x10x256 .f32) (main_arg2 : FVec F S1x1x256 .f32) (main_arg3 : FVec F S1x1x256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256x256 .f32) (main_arg11 : FVec F S256 .f32) (main_arg12 : FVec F S256x256 .f32) (main_arg13 : FVec F S256 .f32) (main_arg14 : FVec F S768x256 .f32) (main_arg15 : FVec F S768x256 .f32) (main_arg16 : FVec F S768 .f32) (main_arg17 : FVec F S768 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S16x10x256 .f32 := Host.absf main_arg1
  let main_cst_0 : FVec F S_ .f32 := constant S_ .f32 0x7F800000#32
  let main_v5 : FVec F S16x10x256 .f32 := broadcastInDim S16x10x256 ![] bcast_S_S16x10x256 main_cst_0
  let main_v6 : IVec S16x10x256 1 := cmpf .olt main_v4 main_v5
  let main_c_1 : IVec S_ 1 := constantI S_ 1 1#1
  let main_v7 : IVec S_ 1 := (fun x v => Host.reduce IntOp.andi x v reducesTo_S16x10x256_S_d0_1_2 h_S_) main_v6 main_c_1
  let main_v8 : IVec S_ 1 := andi main_v3 main_v7
  let main_v9 : FVec F S1x1x256 .f32 := Host.absf main_arg2
  let main_cst_2 : FVec F S_ .f32 := constant S_ .f32 0x7F800000#32
  let main_v10 : FVec F S1x1x256 .f32 := broadcastInDim S1x1x256 ![] bcast_S_S1x1x256 main_cst_2
  let main_v11 : IVec S1x1x256 1 := cmpf .olt main_v9 main_v10
  let main_c_3 : IVec S_ 1 := constantI S_ 1 1#1
  let main_v12 : IVec S_ 1 := (fun x v => Host.reduce IntOp.andi x v reducesTo_S1x1x256_S_d0_1_2 h_S_) main_v11 main_c_3
  let main_v13 : IVec S_ 1 := andi main_v8 main_v12
  let main_v14 : FVec F S1x1x256 .f32 := Host.absf main_arg3
  let main_cst_4 : FVec F S_ .f32 := constant S_ .f32 0x7F800000#32
  let main_v15 : FVec F S1x1x256 .f32 := broadcastInDim S1x1x256 ![] bcast_S_S1x1x256 main_cst_4
  let main_v16 : IVec S1x1x256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16x8192x256 : Shape := ⟨3, ![16, 8192, 256]⟩
abbrev S16x10x256 : Shape := ⟨3, ![16, 10, 256]⟩
abbrev S1x1x256 : Shape := ⟨3, ![1, 1, 256]⟩
abbrev S256 : Shape := ⟨1, ![256]⟩
abbrev S256x256 : Shape := ⟨2, ![256, 256]⟩
abbrev S768x256 : Shape := ⟨2, ![768, 256]⟩
abbrev S768 : Shape := ⟨1, ![768]⟩
abbrev S1x2048x256 : Shape := ⟨3, ![1, 2048, 256]⟩
abbrev S1x10x256 : Shape := ⟨3, ![1, 10, 256]⟩
abbrev S8192x256 : Shape := ⟨2, ![8192, 256]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S10x256 : Shape := ⟨2, ![10, 256]⟩
abbrev S10 : Shape := ⟨1, ![10]⟩
abbrev S10x1 : Shape := ⟨2, ![10, 1]⟩
abbrev S10x8192 : Shape := ⟨2, ![10, 8192]⟩
abbrev S8192 : Shape := ⟨1, ![8192]⟩
abbrev S1x8192 : Shape := ⟨2, ![1, 8192]⟩
abbrev S10x768 : Shape := ⟨2, ![10, 768]⟩
abbrev S1x768 : Shape := ⟨2, ![1, 768]⟩

abbrev nBuf : Space → Nat
  | .hbm => 24
  | .vmem => 22
  | .smem => 0
  | _ => 0

abbrev bufTy : (tb : Table) → Fin (tcTables nBuf tb) → BufTy
  | .hbm, ⟨0, _⟩ => ⟨S16x8192x256, .f32⟩
  | .hbm, ⟨1, _⟩ => ⟨S16x10x256, .f32⟩
  | .hbm, ⟨2, _⟩ => ⟨S1x1x256, .f32⟩
  | .hbm, ⟨3, _⟩ => ⟨S1x1x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S768x256, .f32⟩
  | .hbm, ⟨15, _⟩ => ⟨S768x256, .f32⟩
  | .hbm, ⟨16, _⟩ => ⟨S768, .f32⟩
  | .hbm, ⟨17, _⟩ => ⟨S768, .f32⟩
  | .hbm, ⟨18, _⟩ => ⟨S1x1x256, .f32⟩
  | .hbm, ⟨19, _⟩ => ⟨S16x10x256, .f32⟩
  | .hbm, ⟨20, _⟩ => ⟨S16x10x256, .f32⟩
  | .hbm, ⟨21, _⟩ => ⟨S16x10x256, .f32⟩
  | .hbm, ⟨22, _⟩ => ⟨S16x10x256, .f32⟩
  | .hbm, ⟨23, _⟩ => ⟨S16x10x256, .f32⟩
  | .local _ .vmem, ⟨0, _⟩ => ⟨S1x2048x256, .f32⟩
  | .local _ .vmem, ⟨1, _⟩ => ⟨S1x2048x256, .f32⟩
  | .local _ .vmem, ⟨2, _⟩ => ⟨S1x10x256, .f32⟩
  | .local _ .vmem, ⟨3, _⟩ => ⟨S1x10x256, .f32⟩
  | .local _ .vmem, ⟨4, _⟩ => ⟨S256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S256x256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256x256, .f32⟩
  | .local _ .vmem, ⟨13, _⟩ => ⟨S256, .f32⟩
  | .local _ .vmem, ⟨14, _⟩ => ⟨S768x256, .f32⟩
  | .local _ .vmem, ⟨15, _⟩ => ⟨S768x256, .f32⟩
  | .local _ .vmem, ⟨16, _⟩ => ⟨S768, .f32⟩
  | .local _ .vmem, ⟨17, _⟩ => ⟨S768, .f32⟩
  | .local _ .vmem, ⟨18, _⟩ => ⟨S1x10x256, .f32⟩
  | .local _ .vmem, ⟨19, _⟩ => ⟨S1x10x256, .f32⟩
  | .local _ .vmem, ⟨20, _⟩ => ⟨S8192x256, .bf16⟩
  | .local _ .vmem, ⟨21, _⟩ => ⟨S8192x256, .bf16⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v43 : BitVec 32 := Scalar.muli arg1 c2048_i32
  v43
def k0_off1 (i : grid0.Coords) : Fin 2 → Nat :=
  let arg1 : BitVec 32 := BitVec.ofNat 32 (i 1).val
  let c2048_i32 : BitVec 32 := 2048#32
  let v43 : BitVec 32 := Scalar.muli arg1 c2048_i32
  let v44 : BitVec 32 := v43
  let v46 : Index := Scalar.indexCast v44
  let c0_16 : Index := 0#32
  ![v46.toNat, 0]
def k0_cond1 (i : grid0.Coords) : BitVec 1 :=
  let arg1 : BitVec 32 := BitVec.ofNat 32 (i 1).val
  let c3_i32 : BitVec 32 := 3#32
  let v55 : BitVec 1 := Scalar.cmpi .eq arg1 c3_i32
  let v56 : BitVec 32 := Scalar.extui v55
  let c0_i32 : BitVec 32 := 0#32
  let v57 : BitVec 1 := Scalar.cmpi .ne v56 c0_i32
  v57

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x10x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S768x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S768x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S768 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x10x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

class Facts₀ : Prop where
  bcast_S1x1x256_S16x10x256_0_1_2 : S1x1x256.BroadcastsInDim S16x10x256 (![0, 1, 2] : Fin 3 → Fin S16x10x256.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  reduces_S2048x256_S2048 : S2048x256.Reduces [1] S2048
  shapeCasts_S2048_S2048x1 : S2048.ShapeCasts S2048x1
  broadcasts_S2048x1_S2048x256 : S2048x1.Broadcasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  h_S2048x256 : 0 < S2048x256.numel
  shapeCasts_S2048x256_S2048x256 : S2048x256.ShapeCasts S2048x256
  inb_S768x256_S768x256_0_0 : ∀ a, (![0, 0] : Fin 2 → Nat) a + S768x256.size a ≤ S768x256.size a
  h_S768x256 : 0 < S768x256.numel
  inb_S768_S768_0 : ∀ a, (![0] : Fin 1 → Nat) a + S768.size a ≤ S768.size a
  h_S768 : 0 < S768.numel
  inb_S1x10x256_S1x10x256_0_0_0 : ∀ a, (![0, 0, 0] : Fin 3 → Nat) a + S1x10x256.size a ≤ S1x10x256.size a
  h_S1x10x256 : 0 < S1x10x256.numel
  shapeCasts_S1x10x256_S10x256 : S1x10x256.ShapeCasts S10x256
  reduces_S10x256_S10 : S10x256.Reduces [1] S10
  shapeCasts_S10_S10x1 : S10.ShapeCasts S10x1
  broadcasts_S10x1_S10x256 : S10x1.Broadcasts S10x256
  broadcasts_S1x256_S10x256 : S1x256.Broadcasts S10x256
  inb_S8192x256_S8192x256_0_0 : ∀ a, (![0, 0] : Fin 2 → Nat) a + S8192x256.size a ≤ S8192x256.size a
  h_S8192x256 : 0 < S8192x256.numel
  reduces_S10x8192_S8192 : S10x8192.Reduces [0] S8192
  shapeCasts_S8192_S1x8192 : S8192.ShapeCasts S1x8192
  broadcasts_S1x8192_S10x8192 : S1x8192.Broadcasts S10x8192
  shapeCasts_S768_S1x768 : S768.ShapeCasts S1x768
  broadcasts_S1x768_S10x768 : S1x768.Broadcasts S10x768
  slices_S10x768_o0_0_S10x256 : S10x768.Slices ![0, 0] S10x256
  slices_S10x768_o0_256_S10x256 : S10x768.Slices ![0, 256] S10x256
  slices_S10x768_o0_512_S10x256 : S10x768.Slices ![0, 512] S10x256
  shapeCasts_S10x256_S1x10x256 : S10x256.ShapeCasts S1x10x256
  dot_S2048x256_S256x256_S2048x256_1_1_0_0_n_n_wf : DotDims.WF S2048x256 S256x256 S2048x256 [1] [1] [0] [0] [] []
  dot_S10x256_S256x256_S10x256_1_1_0_0_n_n_wf : DotDims.WF S10x256 S256x256 S10x256 [1] [1] [0] [0] [] []
  dot_S10x256_S8192x256_S10x8192_1_1_0_0_n_n_wf : DotDims.WF S10x256 S8192x256 S10x8192 [1] [1] [0] [0] [] []
  dot_S10x8192_S8192x256_S10x256_1_0_0_1_n_n_wf : DotDims.WF S10x8192 S8192x256 S10x256 [1] [0] [0] [1] [] []
  dot_S10x256_S768x256_S10x768_1_1_0_0_n_n_wf : DotDims.WF S10x256 S768x256 S10x768 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S2048x256.size a ≤ S8192x256.size a
  k0_off1_packedbf16 : ∀ i : grid0.Coords, (Rect.unit (s := S8192x256) (k0_off1 i) S2048x256.size (k0_off1_inb i)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S16x8192x256.size a
  hwx0_0 : ∀ i : grid0.Coords, EltTy.bits .f32 = 32 ∨ (Rect.block (s := S16x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x10x256.size a ≤ S16x10x256.size a
  hwx0_1 : ∀ i : grid0.Coords, EltTy.bits .f32 = 32 ∨ (Rect.block (s := S16x10x256) S1x10x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S768x256.size a ≤ S768x256.size a
  hwx0_12 : ∀ i : grid0.Coords, EltTy.bits .f32 = 32 ∨ (Rect.block (s := S768x256) S768x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S768x256.size a ≤ S768x256.size a
  hwx0_13 : ∀ i : grid0.Coords, EltTy.bits .f32 = 32 ∨ (Rect.block (s := S768x256) S768x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S768.size a ≤ S768.size a
  hwx0_14 : ∀ i : grid0.Coords, EltTy.bits .f32 = 32 ∨ (Rect.block (s := S768) S768.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S768.size a ≤ S768.size a
  hwx0_15 : ∀ i : grid0.Coords, EltTy.bits .f32 = 32 ∨ (Rect.block (s := S768) S768.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x10x256.size a ≤ S16x10x256.size a
  hwx0_16 : ∀ i : grid0.Coords, EltTy.bits .f32 = 32 ∨ (Rect.block (s := S16x10x256) S1x10x256.size (cc0_transform_16 i) (hinb0_16 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S10x256_S256x256_S10x256_1_1_0_0_n_n : DotDims S10x256 S256x256 S10x256 where
  lhsContracting := [1]
  rhsContracting := [1]
  lhsNonContracting := [0]
  rhsNonContracting := [0]
  lhsBatch := []
  rhsBatch := []
  wf := dot_S10x256_S256x256_S10x256_1_1_0_0_n_n_wf
def dot_S10x256_S8192x256_S10x8192_1_1_0_0_n_n : DotDims S10x256 S8192x256 S10x8192 where
  lhsContracting := [1]
  rhsContracting := [1]
  lhsNonContracting := [0]
  rhsNonContracting := [0]
  lhsBatch := []
  rhsBatch := []
  wf := dot_S10x256_S8192x256_S10x8192_1_1_0_0_n_n_wf
def dot_S10x8192_S8192x256_S10x256_1_0_0_1_n_n : DotDims S10x8192 S8192x256 S10x256 where
  lhsContracting := [1]
  rhsContracting := [0]
  lhsNonContracting := [0]
  rhsNonContracting := [1]
  lhsBatch := []
  rhsBatch := []
  wf := dot_S10x8192_S8192x256_S10x256_1_0_0_1_n_n_wf
def dot_S10x256_S768x256_S10x768_1_1_0_0_n_n : DotDims S10x256 S768x256 S10x768 where
  lhsContracting := [1]
  rhsContracting := [1]
  lhsNonContracting := [0]
  rhsNonContracting := [0]
  lhsBatch := []
  rhsBatch := []
  wf := dot_S10x256_S768x256_S10x768_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x10x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S768x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S768x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S768.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S768.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x10x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond1 i == 1#1) | ⟨_ + 17, h⟩ => absurd h (Nat.not_lt.2 (Nat.le_add_left _ _))

class Facts : Prop extends Facts₀ where

variable [Facts]
-- ==== ReferenceIdeal.lean ====
abbrev S16x8192x256 : Shape := ⟨3, ![16, 8192, 256]⟩
abbrev S16x10x256 : Shape := ⟨3, ![16, 10, 256]⟩
abbrev S1x1x256 : Shape := ⟨3, ![1, 1, 256]⟩
abbrev S256 : Shape := ⟨1, ![256]⟩
abbrev S256x256 : Shape := ⟨2, ![256, 256]⟩
abbrev S768x256 : Shape := ⟨2, ![768, 256]⟩
abbrev S768 : Shape := ⟨1, ![768]⟩
abbrev S_ : Shape := ⟨0, ![]⟩
abbrev S16x8192 : Shape := ⟨2, ![16, 8192]⟩
abbrev S16x8192x1 : Shape := ⟨3, ![16, 8192, 1]⟩
abbrev S16x10 : Shape := ⟨2, ![16, 10]⟩
abbrev S16x10x1 : Shape := ⟨3, ![16, 10, 1]⟩
abbrev S16x10x8192 : Shape := ⟨3, ![16, 10, 8192]⟩
abbrev S16x1x8192 : Shape := ⟨3, ![16, 1, 8192]⟩
abbrev S16x10x768 : Shape := ⟨3, ![16, 10, 768]⟩
abbrev S1x1x768 : Shape := ⟨3, ![1, 1, 768]⟩

abbrev nBuf : Space → Nat
  | .hbm => 339
  | .vmem => 0
  | .smem => 0
  | _ => 0

abbrev hbmTy0_0 (i : Nat) : BufTy := match i % 128 with
  | 0 => ⟨S16x8192x256, .f32⟩
  | 1 => ⟨S16x10x256, .f32⟩
  | 2 => ⟨S1x1x256, .f32⟩
  | 3 => ⟨S1x1x256, .f32⟩
  | 4 => ⟨S256, .f32⟩
  | 5 => ⟨S256, .f32⟩
  | 6 => ⟨S256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x256, .f32⟩
  | 13 => ⟨S256, .f32⟩
  | 14 => ⟨S768x256, .f32⟩
  | 15 => ⟨S768x256, .f32⟩
  | 16 => ⟨S768, .f32⟩
  | 17 => ⟨S768, .f32⟩
  | 18 => ⟨S_, .f32⟩
  | 19 => ⟨S16x8192, .f32⟩
  | 20 => ⟨S16x8192x1, .f32⟩
  | 21 => ⟨S_, .f32⟩
  | 22 => ⟨S16x8192x1, .f32⟩
  | 23 => ⟨S16x8192x1, .f32⟩
  | 24 => ⟨S16x8192x256, .f32⟩
  | 25 => ⟨S16x8192x256, .f32⟩
  | 26 => ⟨S16x8192x256, .f32⟩
  | 27 => ⟨S_, .f32⟩
  | 28 => ⟨S16x8192, .f32⟩
  | 29 => ⟨S16x8192x1, .f32⟩
  | 30 => ⟨S_, .f32⟩
  | 31 => ⟨S16x8192x1, .f32⟩
  | 32 => ⟨S16x8192x1, .f32⟩
  | 33 => ⟨S16x8192x256, .f32⟩
  | 34 => ⟨S16x8192x256, .f32⟩
  | 35 => ⟨S_, .f32⟩
  | 36 => ⟨S16x8192x1, .f32⟩
  | 37 => ⟨S16x8192x1, .f32⟩
  | 38 => ⟨S16x8192x1, .f32⟩
  | 39 => ⟨S16x8192x256, .f32⟩
  | 40 => ⟨S16x8192x256, .f32⟩
  | 41 => ⟨S1x1x256, .f32⟩
  | 42 => ⟨S16x8192x256, .f32⟩
  | 43 => ⟨S16x8192x256, .f32⟩
  | 44 => ⟨S1x1x256, .f32⟩
  | 45 => ⟨S16x8192x256, .f32⟩
  | 46 => ⟨S16x8192x256, .f32⟩
  | 47 => ⟨S1x1x256, .f32⟩
  | 48 => ⟨S16x10x256, .f32⟩
  | 49 => ⟨S16x10x256, .f32⟩
  | 50 => ⟨S16x10x256, .f32⟩
  | 51 => ⟨S16x10x256, .f32⟩
  | 52 => ⟨S16x8192x256, .f32⟩
  | 53 => ⟨S1x1x256, .f32⟩
  | 54 => ⟨S16x8192x256, .f32⟩
  | 55 => ⟨S16x8192x256, .f32⟩
  | 56 => ⟨S16x8192x256, .f32⟩
  | 57 => ⟨S1x1x256, .f32⟩
  | 58 => ⟨S16x8192x256, .f32⟩
  | 59 => ⟨S16x8192x256, .f32⟩
  | 60 => ⟨S_, .f32⟩
  | 61 => ⟨S16x10, .f32⟩
  | 62 => ⟨S16x10x1, .f32⟩
  | 63 => ⟨S_, .f32⟩
  | 64 => ⟨S16x10x1, .f32⟩
  | 65 => ⟨S16x10x1, .f32⟩
  | 66 => ⟨S16x10x256, .f32⟩
  | 67 => ⟨S16x10x256, .f32⟩
  | 68 => ⟨S16x10x256, .f32⟩
  | 69 => ⟨S_, .f32⟩
  | 70 => ⟨S16x10, .f32⟩
  | 71 => ⟨S16x10x1, .f32⟩
  | 72 => ⟨S_, .f32⟩
  | 73 => ⟨S16x10x1, .f32⟩
  | 74 => ⟨S16x10x1, .f32⟩
  | 75 => ⟨S16x10x256, .f32⟩
  | 76 => ⟨S16x10x256, .f32⟩
  | 77 => ⟨S_, .f32⟩
  | 78 => ⟨S16x10x1, .f32⟩
  | 79 => ⟨S16x10x1, .f32⟩
  | 80 => ⟨S16x10x1, .f32⟩
  | 81 => ⟨S16x10x256, .f32⟩
  | 82 => ⟨S16x10x256, .f32⟩
  | 83 => ⟨S1x1x256, .f32⟩
  | 84 => ⟨S16x10x256, .f32⟩
  | 85 => ⟨S16x10x256, .f32⟩
  | 86 => ⟨S1x1x256, .f32⟩
  | 87 => ⟨S16x10x256, .f32⟩
  | 88 => ⟨S16x10x256, .f32⟩
  | 89 => ⟨S16x10x256, .f32⟩
  | 90 => ⟨S1x1x256, .f32⟩
  | 91 => ⟨S16x10x256, .f32⟩
  | 92 => ⟨S16x10x256, .f32⟩
  | 93 => ⟨S16x10x8192, .f32⟩
  | 94 => ⟨S_, .f32⟩
  | 95 => ⟨S16x8192, .f32⟩
  | 96 => ⟨S_, .f32⟩
  | 97 => ⟨S16x8192, .f32⟩
  | 98 => ⟨S16x8192, .f32⟩
  | 99 => ⟨S16x1x8192, .f32⟩
  | 100 => ⟨S16x10x8192, .f32⟩
  | 101 => ⟨S16x10x8192, .f32⟩
  | 102 => ⟨S16x10x8192, .f32⟩
  | 103 => ⟨S_, .f32⟩
  | 104 => ⟨S16x8192, .f32⟩
  | 105 => ⟨S16x1x8192, .f32⟩
  | 106 => ⟨S16x10x8192, .f32⟩
  | 107 => ⟨S16x10x8192, .f32⟩
  | 108 => ⟨S_, .f32⟩
  | 109 => ⟨S16x10x8192, .f32⟩
  | 110 => ⟨S16x10x8192, .f32⟩
  | 111 => ⟨S16x10x256, .f32⟩
  | 112 => ⟨S16x10x768, .f32⟩
  | 113 => ⟨S1x1x768, .f32⟩
  | 114 => ⟨S16x10x768, .f32⟩
  | 115 => ⟨S16x10x768, .f32⟩
  | 116 => ⟨S16x10x768, .f32⟩
  | 117 => ⟨S1x1x768, .f32⟩
  | 118 => ⟨S16x10x768, .f32⟩
  | 119 => ⟨S16x10x768, .f32⟩
  | 120 => ⟨S16x10x256, .f32⟩
  | 121 => ⟨S16x10x256, .f32⟩
  | 122 => ⟨S16x10x256, .f32⟩
  | 123 => ⟨S16x10x256, .f32⟩
  | 124 => ⟨S16x10x256, .f32⟩
  | 125 => ⟨S16x10x256, .f32⟩
  | 126 => ⟨S16x10x256, .f32⟩
  | 127 => ⟨S16x10x256, .f32⟩
  | _ => ⟨S16x8192x256, .f32⟩

abbrev hbmTy0_1 (i : Nat) : BufTy := match i % 128 with
  | 0 => ⟨S16x10x256, .f32⟩
  | 1 => ⟨S_, .f32⟩
  | 2 => ⟨S16x10x256, .f32⟩
  | 3 => ⟨S16x10x256, .f32⟩
  | 4 => ⟨S_, .f32⟩
  | 5 => ⟨S16x10x256, .f32⟩
  | 6 => ⟨S16x10x256, .f32⟩
  | 7 => ⟨S16x10x256, .f32⟩
  | 8 => ⟨S16x10x256, .f32⟩
  | 9 => ⟨S16x10x256, .f32⟩
  | 10 => ⟨S_, .f32⟩
  | 11 => ⟨S16x10x256, .f32⟩
  | 12 => ⟨S16x10x256, .f32⟩
  | 13 => ⟨S_, .f32⟩
  | 14 => ⟨S16x10x256, .f32⟩
  | 15 => ⟨S16x10x256, .f32⟩
  | 16 => ⟨S16x10x256, .f32⟩
  | 17 => ⟨S16x10x256, .f32⟩
  | 18 => ⟨S16x10x256, .f32⟩
  | 19 => ⟨S_, .f32⟩
  | 20 => ⟨S16x10x256, .f32⟩
  | 21 => ⟨S16x10x256, .f32⟩
  | 22 => ⟨S16x10x256, .f32⟩
  | 23 => ⟨S16x10x256, .f32⟩
  | 24 => ⟨S16x10x256, .f32⟩
  | 25 => ⟨S_, .f32⟩
  | 26 => ⟨S16x10, .f32⟩
  | 27 => ⟨S16x10x1, .f32⟩
  | 28 => ⟨S_, .f32⟩
  | 29 => ⟨S16x10x1, .f32⟩
  | 30 => ⟨S16x10x1, .f32⟩
  | 31 => ⟨S16x10x256, .f32⟩
  | 32 => ⟨S16x10x256, .f32⟩
  | 33 => ⟨S16x10x256, .f32⟩
  | 34 => ⟨S_, .f32⟩
  | 35 => ⟨S16x10, .f32⟩
  | 36 => ⟨S16x10x1, .f32⟩
  | 37 => ⟨S_, .f32⟩
  | 38 => ⟨S16x10x1, .f32⟩
  | 39 => ⟨S16x10x1, .f32⟩
  | 40 => ⟨S16x10x256, .f32⟩
  | 41 => ⟨S16x10x256, .f32⟩
  | 42 => ⟨S_, .f32⟩
  | 43 => ⟨S16x10x1, .f32⟩
  | 44 => ⟨S16x10x1, .f32⟩
  | 45 => ⟨S16x10x1, .f32⟩
  | 46 => ⟨S16x10x256, .f32⟩
  | 47 => ⟨S16x10x256, .f32⟩
  | 48 => ⟨S1x1x256, .f32⟩
  | 49 => ⟨S16x10x256, .f32⟩
  | 50 => ⟨S16x10x256, .f32⟩
  | 51 => ⟨S1x1x256, .f32⟩
  | 52 => ⟨S16x10x256, .f32⟩
  | 53 => ⟨S16x10x256, .f32⟩
  | 54 => ⟨S16x10x256, .f32⟩
  | 55 => ⟨S1x1x256, .f32⟩
  | 56 => ⟨S16x10x256, .f32⟩
  | 57 => ⟨S16x10x256, .f32⟩
  | 58 => ⟨S16x10x8192, .f32⟩
  | 59 => ⟨S_, .f32⟩
  | 60 => ⟨S16x8192, .f32⟩
  | 61 => ⟨S_, .f32⟩
  | 62 => ⟨S16x8192, .f32⟩
  | 63 => ⟨S16x8192, .f32⟩
  | 64 => ⟨S16x1x8192, .f32⟩
  | 65 => ⟨S16x10x8192, .f32⟩
  | 66 => ⟨S16x10x8192, .f32⟩
  | 67 => ⟨S16x10x8192, .f32⟩
  | 68 => ⟨S_, .f32⟩
  | 69 => ⟨S16x8192, .f32⟩
  | 70 => ⟨S16x1x8192, .f32⟩
  | 71 => ⟨S16x10x8192, .f32⟩
  | 72 => ⟨S16x10x8192, .f32⟩
  | 73 => ⟨S_, .f32⟩
  | 74 => ⟨S16x10x8192, .f32⟩
  | 75 => ⟨S16x10x8192, .f32⟩
  | 76 => ⟨S16x10x256, .f32⟩
  | 77 => ⟨S16x10x768, .f32⟩
  | 78 => ⟨S1x1x768, .f32⟩
  | 79 => ⟨S16x10x768, .f32⟩
  | 80 => ⟨S16x10x768, .f32⟩
  | 81 => ⟨S16x10x768, .f32⟩
  | 82 => ⟨S1x1x768, .f32⟩
  | 83 => ⟨S16x10x768, .f32⟩
  | 84 => ⟨S16x10x768, .f32⟩
  | 85 => ⟨S16x10x256, .f32⟩
  | 86 => ⟨S16x10x256, .f32⟩
  | 87 => ⟨S16x10x256, .f32⟩
  | 88 => ⟨S16x10x256, .f32⟩
  | 89 => ⟨S16x10x256, .f32⟩
  | 90 => ⟨S16x10x256, .f32⟩
  | 91 => ⟨S16x10x256, .f32⟩
  | 92 => ⟨S16x10x256, .f32⟩
  | 93 => ⟨S16x10x256, .f32⟩
  | 94 => ⟨S_, .f32⟩
  | 95 => ⟨S16x10x256, .f32⟩
  | 96 => ⟨S16x10x256, .f32⟩
  | 97 => ⟨S_, .f32⟩
  | 98 => ⟨S16x10x256, .f32⟩
  | 99 => ⟨S16x10x256, .f32⟩
  | 100 => ⟨S16x10x256, .f32⟩
  | 101 => ⟨S16x10x256, .f32⟩
  | 102 => ⟨S16x10x256, .f32⟩
  | 103 => ⟨S_, .f32⟩
  | 104 => ⟨S16x10x256, .f32⟩
  | 105 => ⟨S16x10x256, .f32⟩
  | 106 => ⟨S_, .f32⟩
  | 107 => ⟨S16x10x256, .f32⟩
  | 108 => ⟨S16x10x256, .f32⟩
  | 109 => ⟨S16x10x256, .f32⟩
  | 110 => ⟨S16x10x256, .f32⟩
  | 111 => ⟨S16x10x256, .f32⟩
  | 112 => ⟨S_, .f32⟩
  | 113 => ⟨S16x10x256, .f32⟩
  | 114 => ⟨S16x10x256, .f32⟩
  | 115 => ⟨S16x10x256, .f32⟩
  | 116 => ⟨S16x10x256, .f32⟩
  | 117 => ⟨S16x10x256, .f32⟩
  | 118 => ⟨S_, .f32⟩
  | 119 => ⟨S16x10, .f32⟩
  | 120 => ⟨S16x10x1, .f32⟩
  | 121 => ⟨S_, .f32⟩
  | 122 => ⟨S16x10x1, .f32⟩
  | 123 => ⟨S16x10x1, .f32⟩
  | 124 => ⟨S16x10x256, .f32⟩
  | 125 => ⟨S16x10x256, .f32⟩
  | 126 => ⟨S16x10x256, .f32⟩
  | 127 => ⟨S_, .f32⟩
  | _ => ⟨S16x8192x256, .f32⟩

abbrev hbmTy0_2 (i : Nat) : BufTy := match i % 128 with
  | 0 => ⟨S16x10, .f32⟩
  | 1 => ⟨S16x10x1, .f32⟩
  | 2 => ⟨S_, .f32⟩
  | 3 => ⟨S16x10x1, .f32⟩
  | 4 => ⟨S16x10x1, .f32⟩
  | 5 => ⟨S16x10x256, .f32⟩
  | 6 => ⟨S16x10x256, .f32⟩
  | 7 => ⟨S_, .f32⟩
  | 8 => ⟨S16x10x1, .f32⟩
  | 9 => ⟨S16x10x1, .f32⟩
  | 10 => ⟨S16x10x1, .f32⟩
  | 11 => ⟨S16x10x256, .f32⟩
  | 12 => ⟨S16x10x256, .f32⟩
  | 13 => ⟨S1x1x256, .f32⟩
  | 14 => ⟨S16x10x256, .f32⟩
  | 15 => ⟨S16x10x256, .f32⟩
  | 16 => ⟨S1x1x256, .f32⟩
  | 17 => ⟨S16x10x256, .f32⟩
  | 18 => ⟨S16x10x256, .f32⟩
  | 19 => ⟨S16x10x256, .f32⟩
  | 20 => ⟨S1x1x256, .f32⟩
  | 21 => ⟨S16x10x256, .f32⟩
  | 22 => ⟨S16x10x256, .f32⟩
  | 23 => ⟨S16x10x8192, .f32⟩
  | 24 => ⟨S_, .f32⟩
  | 25 => ⟨S16x8192, .f32⟩
  | 26 => ⟨S_, .f32⟩
  | 27 => ⟨S16x8192, .f32⟩
  | 28 => ⟨S16x8192, .f32⟩
  | 29 => ⟨S16x1x8192, .f32⟩
  | 30 => ⟨S16x10x8192, .f32⟩
  | 31 => ⟨S16x10x8192, .f32⟩
  | 32 => ⟨S16x10x8192, .f32⟩
  | 33 => ⟨S_, .f32⟩
  | 34 => ⟨S16x8192, .f32⟩
  | 35 => ⟨S16x1x8192, .f32⟩
  | 36 => ⟨S16x10x8192, .f32⟩
  | 37 => ⟨S16x10x8192, .f32⟩
  | 38 => ⟨S_, .f32⟩
  | 39 => ⟨S16x10x8192, .f32⟩
  | 40 => ⟨S16x10x8192, .f32⟩
  | 41 => ⟨S16x10x256, .f32⟩
  | 42 => ⟨S16x10x768, .f32⟩
  | 43 => ⟨S1x1x768, .f32⟩
  | 44 => ⟨S16x10x768, .f32⟩
  | 45 => ⟨S16x10x768, .f32⟩
  | 46 => ⟨S16x10x768, .f32⟩
  | 47 => ⟨S1x1x768, .f32⟩
  | 48 => ⟨S16x10x768, .f32⟩
  | 49 => ⟨S16x10x768, .f32⟩
  | 50 => ⟨S16x10x256, .f32⟩
  | 51 => ⟨S16x10x256, .f32⟩
  | 52 => ⟨S16x10x256, .f32⟩
  | 53 => ⟨S16x10x256, .f32⟩
  | 54 => ⟨S16x10x256, .f32⟩
  | 55 => ⟨S16x10x256, .f32⟩
  | 56 => ⟨S16x10x256, .f32⟩
  | 57 => ⟨S16x10x256, .f32⟩
  | 58 => ⟨S16x10x256, .f32⟩
  | 59 => ⟨S_, .f32⟩
  | 60 => ⟨S16x10x256, .f32⟩
  | 61 => ⟨S16x10x256, .f32⟩
  | 62 => ⟨S_, .f32⟩
  | 63 => ⟨S16x10x256, .f32⟩
  | 64 => ⟨S16x10x256, .f32⟩
  | 65 => ⟨S16x10x256, .f32⟩
  | 66 => ⟨S16x10x256, .f32⟩
  | 67 => ⟨S16x10x256, .f32⟩
  | 68 => ⟨S_, .f32⟩
  | 69 => ⟨S16x10x256, .f32⟩
  | 70 => ⟨S16x10x256, .f32⟩
  | 71 => ⟨S_, .f32⟩
  | 72 => ⟨S16x10x256, .f32⟩
  | 73 => ⟨S16x10x256, .f32⟩
  | 74 => ⟨S16x10x256, .f32⟩
  | 75 => ⟨S16x10x256, .f32⟩
  | 76 => ⟨S16x10x256, .f32⟩
  | 77 => ⟨S_, .f32⟩
  | 78 => ⟨S16x10x256, .f32⟩
  | 79 => ⟨S16x10x256, .f32⟩
  | 80 => ⟨S16x10x256, .f32⟩
  | 81 => ⟨S16x10x256, .f32⟩
  | 82 => ⟨S16x10x256, .f32⟩
  | _ => ⟨S16x8192x256, .f32⟩

abbrev hbmTy (i : Nat) : BufTy := match i / 128 with
  | 0 => hbmTy0_0 i
  | 1 => hbmTy0_1 i
  | 2 => hbmTy0_2 i
  | _ => ⟨S16x8192x256, .f32⟩

abbrev bufTy : (tb : Table) → Fin (tcTables nBuf tb) → BufTy
  | .hbm, ⟨i, _⟩ => hbmTy i
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_4 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_6 : Ref sig .tc := ⟨.hbm, 69, rfl⟩
abbrev main_v44 : Ref sig .tc := ⟨.hbm, 70, rfl⟩
abbrev main_v45 : Ref sig .tc := ⟨.hbm, 71, rfl⟩
abbrev main_cst_7 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_cst_10 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_13 : Ref sig .tc := ⟨.hbm, 129, rfl⟩
abbrev main_v97 : Ref sig .tc := ⟨.hbm, 130, rfl⟩
abbrev main_v98 : Ref sig .tc := ⟨.hbm, 131, rfl⟩
abbrev main_cst_14 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_15 : Ref sig .tc := ⟨.hbm, 138, rfl⟩
abbrev main_v104 : Ref sig .tc := ⟨.hbm, 139, rfl⟩
abbrev main_v105 : Ref sig .tc := ⟨.hbm, 140, rfl⟩
abbrev main_cst_16 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_cst_17 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_18 : Ref sig .tc := ⟨.hbm, 153, rfl⟩
abbrev main_v116 : Ref sig .tc := ⟨.hbm, 154, rfl⟩
abbrev main_v117 : Ref sig .tc := ⟨.hbm, 155, rfl⟩
abbrev main_cst_19 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_20 : Ref sig .tc := ⟨.hbm, 162, rfl⟩
abbrev main_v123 : Ref sig .tc := ⟨.hbm, 163, rfl⟩
abbrev main_v124 : Ref sig .tc := ⟨.hbm, 164, rfl⟩
abbrev main_cst_21 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_22 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_cst_23 : Ref sig .tc := ⟨.hbm, 187, rfl⟩
abbrev main_v145 : Ref sig .tc := ⟨.hbm, 188, rfl⟩
abbrev main_cst_24 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_25 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_26 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_cst_27 : Ref sig .tc := ⟨.hbm, 222, rfl⟩
abbrev main_v176 : Ref sig .tc := ⟨.hbm, 223, rfl⟩
abbrev main_v177 : Ref sig .tc := ⟨.hbm, 224, rfl⟩
abbrev main_cst_28 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_cst_29 : Ref sig .tc := ⟨.hbm, 231, rfl⟩
abbrev main_v183 : Ref sig .tc := ⟨.hbm, 232, rfl⟩
abbrev main_v184 : Ref sig .tc := ⟨.hbm, 233, rfl⟩
abbrev main_cst_30 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_31 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_cst_32 : Ref sig .tc := ⟨.hbm, 246, rfl⟩
abbrev main_v195 : Ref sig .tc := ⟨.hbm, 247, rfl⟩
abbrev main_v196 : Ref sig .tc := ⟨.hbm, 248, rfl⟩
abbrev main_cst_33 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_cst_34 : Ref sig .tc := ⟨.hbm, 255, rfl⟩
abbrev main_v202 : Ref sig .tc := ⟨.hbm, 256, rfl⟩
abbrev main_v203 : Ref sig .tc := ⟨.hbm, 257, rfl⟩
abbrev main_cst_35 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_cst_36 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_cst_37 : Ref sig .tc := ⟨.hbm, 280, rfl⟩
abbrev main_v224 : Ref sig .tc := ⟨.hbm, 281, rfl⟩
abbrev main_cst_38 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_cst_39 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_cst_40 : Ref sig .tc := ⟨.hbm, 294, rfl⟩
abbrev main_v235 : Ref sig .tc := ⟨.hbm, 295, rfl⟩
abbrev main_v236 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_v252 : Ref sig .tc := ⟨.hbm, 312, rfl⟩
abbrev main_v253 : Ref sig .tc := ⟨.hbm, 313, rfl⟩
abbrev main_v254 : Ref sig .tc := ⟨.hbm, 314, rfl⟩
abbrev main_cst_41 : Ref sig .tc := ⟨.hbm, 315, rfl⟩
abbrev main_v255 : Ref sig .tc := ⟨.hbm, 316, rfl⟩
abbrev main_v256 : Ref sig .tc := ⟨.hbm, 317, rfl⟩
abbrev main_cst_42 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_cst_43 : Ref sig .tc := ⟨.hbm, 324, rfl⟩
abbrev main_v262 : Ref sig .tc := ⟨.hbm, 325, rfl⟩
abbrev main_v263 : Ref sig .tc := ⟨.hbm, 326, rfl⟩
abbrev main_cst_44 : Ref sig .tc := ⟨.hbm, 327, rfl⟩
abbrev main_v264 : Ref sig .tc := ⟨.hbm, 328, rfl⟩
abbrev main_v265 : Ref sig .tc := ⟨.hbm, 329, rfl⟩
abbrev main_v266 : Ref sig .tc := ⟨.hbm, 330, rfl⟩
abbrev main_v267 : Ref sig .tc := ⟨.hbm, 331, rfl⟩
abbrev main_v268 : Ref sig .tc := ⟨.hbm, 332, rfl⟩
abbrev main_cst_45 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩

abbrev nD : Nat := 1
abbrev τ : Topo := Topo.v7x

variable {F : FTy → Type} [FloatOps F]

class Facts₀ : Prop where
  reducesTo_S16x8192x256_S16x8192_d2 : S16x8192x256.ReducesTo [2] S16x8192
  h_S_ : 0 < S_.numel
  bcast_S16x8192_S16x8192x1_0_1 : S16x8192.BroadcastsInDim S16x8192x1 (![0, 1] : Fin 2 → Fin S16x8192x1.rank)
  bcast_S_S16x8192x1 : S_.BroadcastsInDim S16x8192x1 (![] : Fin 0 → Fin S16x8192x1.rank)
  bcast_S16x8192x1_S16x8192x256_0_1_2 : S16x8192x1.BroadcastsInDim S16x8192x256 (![0, 1, 2] : Fin 3 → Fin S16x8192x256.rank)
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  bcast_S1x1x256_S16x10x256_0_1_2 : S1x1x256.BroadcastsInDim S16x10x256 (![0, 1, 2] : Fin 3 → Fin S16x10x256.rank)
  reducesTo_S16x10x256_S16x10_d2 : S16x10x256.ReducesTo [2] S16x10
  bcast_S16x10_S16x10x1_0_1 : S16x10.BroadcastsInDim S16x10x1 (![0, 1] : Fin 2 → Fin S16x10x1.rank)
  bcast_S_S16x10x1 : S_.BroadcastsInDim S16x10x1 (![] : Fin 0 → Fin S16x10x1.rank)
  bcast_S16x10x1_S16x10x256_0_1_2 : S16x10x1.BroadcastsInDim S16x10x256 (![0, 1, 2] : Fin 3 → Fin S16x10x256.rank)
  reducesTo_S16x10x8192_S16x8192_d1 : S16x10x8192.ReducesTo [1] S16x8192
  bcast_S_S16x8192 : S_.BroadcastsInDim S16x8192 (![] : Fin 0 → Fin S16x8192.rank)
  bcast_S16x8192_S16x1x8192_0_2 : S16x8192.BroadcastsInDim S16x1x8192 (![0, 2] : Fin 2 → Fin S16x1x8192.rank)
  bcast_S16x1x8192_S16x10x8192_0_1_2 : S16x1x8192.BroadcastsInDim S16x10x8192 (![0, 1, 2] : Fin 3 → Fin S16x10x8192.rank)
  bcast_S_S16x10x8192 : S_.BroadcastsInDim S16x10x8192 (![] : Fin 0 → Fin S16x10x8192.rank)
  bcast_S768_S1x1x768_2 : S768.BroadcastsInDim S1x1x768 (![2] : Fin 1 → Fin S1x1x768.rank)
  bcast_S1x1x768_S16x10x768_0_1_2 : S1x1x768.BroadcastsInDim S16x10x768 (![0, 1, 2] : Fin 3 → Fin S16x10x768.rank)
  slices_S16x10x768_S16x10x256_0_0_0 : S16x10x768.Slices ![0, 0, 0] S16x10x256
  slices_S16x10x768_S16x10x256_0_0_256 : S16x10x768.Slices ![0, 0, 256] S16x10x256
  slices_S16x10x768_S16x10x256_0_0_512 : S16x10x768.Slices ![0, 0, 512] S16x10x256
  bcast_S_S16x10x256 : S_.BroadcastsInDim S16x10x256 (![] : Fin 0 → Fin S16x10x256.rank)
  dot_S16x8192x256_S256x256_S16x8192x256_2_1_01_0_n_n_wf : DotDims.WF S16x8192x256 S256x256 S16x8192x256 [2] [1] [0, 1] [0] [] []
  dot_S16x10x256_S256x256_S16x10x256_2_1_01_0_n_n_wf : DotDims.WF S16x10x256 S256x256 S16x10x256 [2] [1] [0, 1] [0] [] []
  dot_S16x10x256_S16x8192x256_S16x10x8192_2_2_1_1_0_0_wf : DotDims.WF S16x10x256 S16x8192x256 S16x10x8192 [2] [2] [1] [1] [0] [0]
  dot_S16x10x8192_S16x8192x256_S16x10x256_2_1_1_2_0_0_wf : DotDims.WF S16x10x8192 S16x8192x256 S16x10x256 [2] [1] [1] [2] [0] [0]
  dot_S16x10x256_S768x256_S16x10x768_2_1_01_0_n_n_wf : DotDims.WF S16x10x256 S768x256 S16x10x768 [2] [1] [0, 1] [0] [] []

variable [Facts₀]

def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf
def dot_S16x10x256_S256x256_S16x10x256_2_1_01_0_n_n : DotDims S16x10x256 S256x256 S16x10x256 where
  lhsContracting := [2]
  rhsContracting := [1]
  lhsNonContracting := [0, 1]
  rhsNonContracting := [0]
  lhsBatch := []
  rhsBatch := []
  wf := dot_S16x10x256_S256x256_S16x10x256_2_1_01_0_n_n_wf
def dot_S16x10x256_S16x8192x256_S16x10x8192_2_2_1_1_0_0 : DotDims S16x10x256 S16x8192x256 S16x10x8192 where
  lhsContracting := [2]
  rhsContracting := [2]
  lhsNonContracting := [1]
  rhsNonContracting := [1]
  lhsBatch := [0]
  rhsBatch := [0]
  wf := dot_S16x10x256_S16x8192x256_S16x10x8192_2_2_1_1_0_0_wf
def dot_S16x10x8192_S16x8192x256_S16x10x256_2_1_1_2_0_0 : DotDims S16x10x8192 S16x8192x256 S16x10x256 where
  lhsContracting := [2]
  rhsContracting := [1]
  lhsNonContracting := [1]
  rhsNonContracting := [2]
  lhsBatch := [0]
  rhsBatch := [0]
  wf := dot_S16x10x8192_S16x8192x256_S16x10x256_2_1_1_2_0_0_wf
def dot_S16x10x256_S768x256_S16x10x768_2_1_01_0_n_n : DotDims S16x10x256 S768x256 S16x10x768 where
  lhsContracting := [2]
  rhsContracting := [1]
  lhsNonContracting := [0, 1]
  rhsNonContracting := [0]
  lhsBatch := []
  rhsBatch := []
  wf := dot_S16x10x256_S768x256_S16x10x768_2_1_01_0_n_n_wf

class Facts : Prop extends Facts₀ where

variable [Facts]
-- ==== Proof.KRuns0Bits.lean ====
/-
  What the two runs of the kernel's body share: the one branch condition of the body (the last tile of a batch), decided
  over the grid; where the output window is idle; the staging memrefs the pipeline passes at a point; the two scratch
  buffers (keys and values of the current batch) as whole memrefs; and the region invariant with the scratch buffers
  spelled out.
-/
import proofs.«115225_j9758165696697_2_alg».proof.Proof.Gen.Kernel.Frame
import proofs.«115225_j9758165696697_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's one branch: this point is the last of its batch's four tiles. -/
abbrev cond0_0 (i : grid0.Coords) : Prop := k0_cond1 i = 1#1
/-- It holds exactly at the points 3, 7, 11, …: decided over the grid. -/
theorem hcond0_0 : ∀ t : Fin cfg0.N, cond0_0 (grid0.coords t) ↔ t.val % 4 = 3 :=
  (by decide +kernel : ∀ t : Fin grid0.N, cond0_0 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
/-- Away from a batch's last tile the body stores nothing into the output block, and the block is not written back. -/
theorem idleAt0_16_A : ∀ t : Fin cfg0.N, ¬cond0_0 (grid0.coords t) → cfg0.idle 16 (grid0.coords t) = true := by decide +kernel
theorem noFlush0_16_A : ∀ t : Fin cfg0.N, ¬cond0_0 (grid0.coords t) → (cfg0.win 16).flush t = false := by decide +kernel
/-- At a batch's last tile the output block is stored. -/
theorem liveAt0_16_B : ∀ t : Fin cfg0.N, cond0_0 (grid0.coords t) → cfg0.idle 16 (grid0.coords t) = false := by decide +kernel

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x10x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x10x256 .f32 := win0_16.stage (cfg0.slots t 16)
abbrev hs0_16 (t : Fin cfg0.N) : (ms0_16 t).IsWhole := hstage0_16 ((cfg0.slots t 16).cast nbuf0_16)
/-- The two scratch buffers: the keys and the values of the current batch. -/
abbrev scM0_0 : Memref sig .tc .vmem S8192x256 .bf16 := Memref.whole cc0_scratch0
abbrev scM0_1 : Memref sig .tc .vmem S8192x256 .bf16 := Memref.whole cc0_scratch1

/-- The region invariant of the launch, the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.KRunABits.lean ====
/-
  The body's run away from the last tile of a batch.  On whole staging memrefs holding the input blocks, the output
  block's buffer (untouched here) and the two scratch buffers at given contents, the body runs to its end: it normalises
  the tile's 2048 feature rows, projects them to keys and values, and stores the two tiles into the scratch buffers at
  the tile's row offset; nothing else is written.  What each scratch buffer ends with is stated as the list of pieces
  the run finds written over what the buffer held.
-/
import proofs.«115225_j9758165696697_2_alg».proof.Proof.KRuns0Bits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (hc0 : ¬cond0_0 i)
    (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16) :
    Σ' (LS0 : List (View.Piece (Elt F) S8192x256 .bf16)), { LS1 : List (View.Piece (Elt F) S8192x256 .bf16) //
      ∀ (xi16 : Vec F S1x10x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xi16 ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xi16 ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun xi16 E K => ?run⟩
  case run =>
    simp only [cc0__fused_kernel_eq_skeleton]; unfold cc0__fused_kernel_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hfs0; obtain rfl := harg20.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [HS0]
    · iexact HS0
    iexact HS1

end Cert.Kernel.Hand

end
-- ==== Proof.KRunBBits.lean ====
/-
  The body's run at the LAST tile of a batch.  On whole staging memrefs holding the input blocks, the output block's
  buffer at anything, and the two scratch buffers at given contents, the body runs to its end: it normalises the tile's
  2048 feature rows, projects them to keys and values, stores the two tiles into the scratch buffers at the tile's row
  offset, and then — the keys and values of the whole batch being in the scratch buffers — runs the three iterations of
  slot attention and stores the new slots into the output block.  What each buffer ends with is stated as the list of
  pieces the run finds written over what the buffer held.
-/
import proofs.«115225_j9758165696697_2_alg».proof.Proof.KRunABits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (hc0 : cond0_0 i)
    (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16) :
    Σ' (L16 : List (View.Piece (Elt F) S1x10x256 .f32)) (LS0 : List (View.Piece (Elt F) S8192x256 .bf16)), { LS1 : List (View.Piece (Elt F) S8192x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__fused_kernel_eq_skeleton]; unfold cc0__fused_kernel_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hfs0; obtain rfl := harg20.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; iexact H16
    isplitl [HS0]
    · iexact HS0
    iexact HS1

end Cert.Kernel.Hand

end
-- ==== Proof.KTileDefsBits.lean ====
/-
  The key tile and the value tile the kernel's body stores, as functions of the vectors the body loads.

  The body normalises the feature block, rounds it, multiplies it with the rounded key (value) weights contracting
  the lanes of both, adds the bias row, rounds, and stores the result into the key (value) scratch.  The two
  definitions compose the generated payload functions in the order the body does, so that each stored tile is,
  syntactically, one of these terms.
-/
import proofs.«115225_j9758165696697_2_alg».proof.Proof.Gen.Kernel.Skeleton

noncomputable section

namespace Cert.Kernel.Hand

open Idealize.ShloMosaic Cert.Kernel Cert.Kernel.Gen

variable {F : FTy → Type} [FloatOps F]

/-- The key tile: the feature block x0, the normalisation's scale nw and shift nb, the key weights kw and bias kb. -/
def kTileK (x0 : Vec F S1x2048x256 .f32) (nw nb : Vec F S256 .f32) (kw : Vec F S256x256 .f32)
    (kb : Vec F S256 .f32) : FVec F S2048x256 .bf16 :=
  k0_pay1 (k0_pay28 x0 nw nb kw kb)

/-- The value tile: the same normalised block against the value weights vw and bias vb. -/
def kTileV (x0 : Vec F S1x2048x256 .f32) (nw nb : Vec F S256 .f32) (vw : Vec F S256x256 .f32)
    (vb : Vec F S256 .f32) : FVec F S2048x256 .bf16 :=
  k0_pay2 (k0_pay29 x0 nw nb vw) vb

end Cert.Kernel.Hand

end
-- ==== Proof.KOutDefsBits.lean ====
/-
  The value the kernel's last grid step writes to the result block, as one term over the vectors it reads.

  The body reads the second normalisation's scale and shift, the query map, the two gate maps with their biases and
  the initial slots once, and reads the stored key rows and value rows anew in each of its three rounds.  Each named
  payload of the generated skeleton is a function of the values read before it; composing the payloads in the order
  the skeleton's parts hand their results on gives the stored value as a function of the fifteen vectors read.
-/
import proofs.«115225_j9758165696697_2_alg».proof.Proof.Gen.Kernel.Skeleton

noncomputable section

namespace Cert.Kernel.Hand

open Idealize.ShloMosaic Cert.Kernel Cert.Kernel.Gen

variable {F : FTy → Type} [FloatOps F]

/-- The stored result block as a function of the vectors read: the initial slots x1, the second normalisation's
    scale n2w and shift n2b, the query map qw with bias qb, the gate maps wih, whh with biases bih, bhh, and the
    key rows and value rows as read in the first (k1, v1), second (k2, v2) and third (k3, v3) round. -/
def kOut (x1 : Vec F S1x10x256 .f32) (n2w n2b : Vec F S256 .f32) (qw : Vec F S256x256 .f32) (qb : Vec F S256 .f32)
    (wih whh : Vec F S768x256 .f32) (bih bhh : Vec F S768 .f32)
    (k1 v1 k2 v2 k3 v3 : Vec F S8192x256 .bf16) : FVec F S1x10x256 .f32 :=
  k0_pay3
    (k0_pay19 n2w n2b (k0_pay4 qw) qb (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay22 (k0_pay5 wih) bih (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2))
    (k0_pay23 (k0_pay5 wih) bih (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2))
    (k0_pay24 n2w n2b (k0_pay4 qw) qb (k0_pay6 whh) bhh (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay25 n2w n2b (k0_pay4 qw) qb (k0_pay6 whh) bhh (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay26 n2w n2b (k0_pay4 qw) qb (k0_pay5 wih) (k0_pay6 whh) bih bhh (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)

end Cert.Kernel.Hand

end
-- ==== Proof.KPiecesBits.lean ====
/-
  The pieces the two runs of the body find written, named.  Each scratch buffer ends with ONE piece over what it held:
  the point's key (value) tile at the tile's rows.  At a batch's last tile the output block ends with ONE piece, the
  whole block: the three iterations applied to the loaded blocks, the keys and values being what each scratch buffer
  reads after its tile was stored.  A load through the whole-shape rectangle of a memref held at contents that read X
  reads X.
-/
import proofs.«115225_j9758165696697_2_alg».proof.Proof.KRunBBits
import proofs.«115225_j9758165696697_2_alg».proof.Proof.KTileDefsBits
import proofs.«115225_j9758165696697_2_alg».proof.Proof.KOutDefsBits
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

section
variable (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16)

/-- Away from the last tile: the key scratch gets the key tile. -/
theorem runA_K (hc0 : ¬cond0_0 i) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).1
      = [⟨Rect.unit (s := S8192x256) (k0_off1 i) S2048x256.size (k0_off1_inb i), kTileK x0 x2 x3 x4 x5⟩] := by
  unfold kernelRunA; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- Away from the last tile: the value scratch gets the value tile. -/
theorem runA_V (hc0 : ¬cond0_0 i) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.1
      = [⟨Rect.unit (s := S8192x256) (k0_off1 i) S2048x256.size (k0_off1_inb i), kTileV x0 x2 x3 x6 x7⟩] := by
  unfold kernelRunA; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the key scratch gets the key tile. -/
theorem runB_K (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.1
      = [⟨Rect.unit (s := S8192x256) (k0_off1 i) S2048x256.size (k0_off1_inb i), kTileK x0 x2 x3 x4 x5⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the value scratch gets the value tile. -/
theorem runB_V (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.2.1
      = [⟨Rect.unit (s := S8192x256) (k0_off1 i) S2048x256.size (k0_off1_inb i), kTileV x0 x2 x3 x6 x7⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the output block gets the three iterations on what the scratch buffers then read. -/
theorem runB_out (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).1
      = [⟨Rect.unit (s := S1x10x256) ![0, 0, 0] S1x10x256.size inb_S1x10x256_S1x10x256_0_0_0,
          kOut x1 x8 x9 x10 x11 x12 x13 x14 x15
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

end

end Cert.Kernel.Hand

end
-- ==== Proof.KDataBits.lean ====
/-
  What the kernel's buffers hold, as functions of the argument arrays.  A grid point t stands for batch t / 4 and tile
  t % 4.  The key (value) tile of point t is the body's projection of that point's 2048 feature rows.  The keys (values)
  of a whole batch are its four tiles one under the other: row y of the 8192 belongs to tile y / 2048, at row y % 2048
  there.  At a batch's last tile the output block is the body's three iterations on that batch's initial slots against
  the whole batch's keys and values.
-/
import proofs.«115225_j9758165696697_2_alg».proof.Proof.Gen.Kernel.Frame
import proofs.«115225_j9758165696697_2_alg».proof.Proof.KTileDefsBits
import proofs.«115225_j9758165696697_2_alg».proof.Proof.KOutDefsBits
import Idealize.ShloMosaic.Lib.ValueIdx

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The key tile the body computes at point `t`. -/
def Kat (c : Dev nD) (t : Fin cfg0.N) : FVec F S2048x256 .bf16 :=
  kTileK (iblk m c 0 t) (iblk m c 2 t) (iblk m c 3 t) (iblk m c 4 t) (iblk m c 5 t)

/-- The value tile the body computes at point `t`. -/
def Vat (c : Dev nD) (t : Fin cfg0.N) : FVec F S2048x256 .bf16 :=
  kTileV (iblk m c 0 t) (iblk m c 2 t) (iblk m c 3 t) (iblk m c 6 t) (iblk m c 7 t)

/-- Row `y` of a batch's 8192 rows, within its tile: row `y % 2048`, the same column. -/
def rowIn (y : S8192x256.Idx) : S2048x256.Idx :=
  ValueIdx.ix2 (⟨(y 0).val % 2048, Nat.mod_lt _ (by norm_num)⟩ : Fin 2048) (⟨(y 1).val, (y 1).isLt⟩ : Fin 256)

/-- The point, in the batch of point `t`, whose tile holds row `y`: tile `y / 2048`. -/
def tileAt (t : Fin cfg0.N) (y : S8192x256.Idx) : Fin cfg0.N :=
  ⟨t.val - t.val % 4 + (y 0).val / 2048, by
    have hN : t.val < 64 := lt_of_lt_of_eq t.isLt (show cfg0.N = 64 from N_0)
    have hy : (y 0).val < 8192 := (y 0).isLt
    have : cfg0.N = 64 := N_0
    omega⟩

/-- The keys of the whole batch of point `t`. -/
def Kfull (c : Dev nD) (t : Fin cfg0.N) : Vec F S8192x256 .bf16 := fun y => Kat m c (tileAt t y) (rowIn y)

/-- The values of the whole batch of point `t`. -/
def Vfull (c : Dev nD) (t : Fin cfg0.N) : Vec F S8192x256 .bf16 := fun y => Vat m c (tileAt t y) (rowIn y)

/-- The output block the body stores at point `t` (a batch's last tile): three iterations of slot attention from the
    batch's initial slots against the batch's keys and values. -/
def outAt (c : Dev nD) (t : Fin cfg0.N) : Vec F S1x10x256 .f32 :=
  kOut (iblk m c 1 t) (iblk m c 8 t) (iblk m c 9 t) (iblk m c 10 t) (iblk m c 11 t) (iblk m c 12 t) (iblk m c 13 t)
    (iblk m c 14 t) (iblk m c 15 t) (Kfull m c t) (Vfull m c t) (Kfull m c t) (Vfull m c t) (Kfull m c t) (Vfull m c t)

end Cert.Kernel.Hand

end
-- ==== Proof.KFrameBits.lean ====
/-
  The proof data of the one pipeline and its body obligation, with the two scratch buffers tracked.

  Between grid points the key and the value scratch buffers carry the tiles of the current batch stored so far.  The
  region invariant before point n + 1 says: the scratch buffers hold SOME contents that, on the rows of tiles 0 … n % 4,
  are the key and value tiles the body computes at those tiles' points (rows of later tiles may hold anything: the
  first tile of a batch overwrites only its own rows).  The body at point t keeps this: it stores tile t % 4 over its
  rows and leaves the others.  At a batch's last tile all 8192 rows are covered, so what the three iterations load is
  the whole batch's keys and values, and the output block is a function of the argument arrays alone.  Away from the
  last tile the output block's buffer is handed back as it was (the window is idle and not written back).
-/
import proofs.«115225_j9758165696697_2_alg».proof.Proof.KPiecesBits
import proofs.«115225_j9758165696697_2_alg».proof.Proof.KDataBits
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's row offset into the scratch buffers: 2048 times the tile number. Decided over the grid. -/
theorem off_eq : ∀ t : Fin cfg0.N, k0_off1 (grid0.coords t) = ![2048 * (t.val % 4), 0] :=
  (by decide +kernel : ∀ t : Fin grid0.N, k0_off1 (grid0.coords t) = ![2048 * (t.val % 4), 0])

/-- One slab of 2048 whole rows stored at row 2048 * q over contents e: a row of tile q reads the slab at the row
    within the tile, any other row reads e. -/
theorem slab_read {mr : Memref sig .tc .vmem S8192x256 .bf16} (h : mr.IsWhole) (e : Vec F S8192x256 .bf16)
    {off : Fin 2 → ℕ} (inb : ∀ a : Fin 2, off a + S2048x256.size a ≤ S8192x256.size a) (w : FVec F S2048x256 .bf16)
    (q : ℕ) (hoff : off = ![2048 * q, 0]) (y : S8192x256.Idx) :
    mr.view.read (Elt F) (mr.view.writes (Elt F) (h.unread e)
        [(⟨Rect.unit (s := S8192x256) off S2048x256.size inb, w⟩ : View.Piece (Elt F) S8192x256 .bf16)]) y
      = if (y 0).val / 2048 = q then w (rowIn y) else e y := by
  by_cases hq : (y 0).val / 2048 = q
  · rw [if_pos hq]
    exact View.read_writes_cons_rows_of_mem mr.view (h.unread e) inb w [] y (rowIn y) hoff
      (by show (y 0).val = 2048 * q + (y 0).val % 2048; omega) rfl
  · rw [if_neg hq, View.read_writes_cons_rows_of_not_mem mr.view (h.unread e) inb w [] y hoff (W := 2048) rfl
      (by omega), View.writes_nil]
    exact congrFun (h.read_unread e) y

/-- What the scratch buffers hold after point n: on the rows of the tiles stored so far in point n's batch, the key
    and value tiles of those tiles' points. -/
def InvS (c : Dev nD) (n : ℕ) (hn : n < cfg0.N) (eK eV : Vec F S8192x256 .bf16) : Prop :=
  ∀ y : S8192x256.Idx, (y 0).val / 2048 ≤ n % 4 →
    eK y = Kat m c (tileAt ⟨n, hn⟩ y) (rowIn y) ∧ eV y = Vat m c (tileAt ⟨n, hn⟩ y) (rowIn y)

/-- The body keeps it: storing point t's tiles over contents that held the earlier tiles of the batch. -/
theorem inv_step (c : Dev nD) (t : Fin cfg0.N) (eK eV : Vec F S8192x256 .bf16)
    (hprev : ∀ h0 : t.val % 4 ≠ 0, InvS m c (t.val - 1) (lt_of_le_of_lt (Nat.sub_le _ _) t.isLt) eK eV)
    {mK mV : Memref sig .tc .vmem S8192x256 .bf16} (hK : mK.IsWhole) (hV : mV.IsWhole) :
    InvS m c t.val t.isLt
      (mK.view.read (Elt F) (mK.view.writes (Elt F) (hK.unread eK)
        [(⟨Rect.unit (s := S8192x256) (k0_off1 (grid0.coords t)) S2048x256.size (k0_off1_inb (grid0.coords t)), Kat m c t⟩ : View.Piece (Elt F) S8192x256 .bf16)]))
      (mV.view.read (Elt F) (mV.view.writes (Elt F) (hV.unread eV)
        [(⟨Rect.unit (s := S8192x256) (k0_off1 (grid0.coords t)) S2048x256.size (k0_off1_inb (grid0.coords t)), Vat m c t⟩ : View.Piece (Elt F) S8192x256 .bf16)])) := by
  intro y hy
  have hN : t.val < 64 := lt_of_lt_of_eq t.isLt (show cfg0.N = 64 from N_0)
  rw [slab_read hK eK _ _ (t.val % 4) (off_eq t) y, slab_read hV eV _ _ (t.val % 4) (off_eq t) y]
  by_cases hq : (y 0).val / 2048 = t.val % 4
  · rw [if_pos hq, if_pos hq]
    have ht : tileAt (⟨t.val, t.isLt⟩ : Fin cfg0.N) y = t := Fin.ext (by
      show t.val - t.val % 4 + (y 0).val / 2048 = t.val
      omega)
    rw [ht]
    exact ⟨rfl, rfl⟩
  · rw [if_neg hq, if_neg hq]
    have h4 : t.val % 4 ≠ 0 := by omega
    have hp := hprev h4 y (by omega)
    have ht : tileAt (⟨t.val - 1, lt_of_le_of_lt (Nat.sub_le _ _) t.isLt⟩ : Fin cfg0.N) y
        = tileAt (⟨t.val, t.isLt⟩ : Fin cfg0.N) y := Fin.ext (by
      show t.val - 1 - (t.val - 1) % 4 + (y 0).val / 2048 = t.val - t.val % 4 + (y 0).val / 2048
      omega)
    rw [ht] at hp
    exact hp

/-- At a batch's last tile the invariant pins every row: the contents are the batch's keys and values. -/
theorem inv_full (c : Dev nD) (t : Fin cfg0.N) (ht : t.val % 4 = 3) (eK eV : Vec F S8192x256 .bf16)
    (h : InvS m c t.val t.isLt eK eV) : eK = Kfull m c t ∧ eV = Vfull m c t := by
  have hy : ∀ y : S8192x256.Idx, (y 0).val / 2048 ≤ t.val % 4 := fun y => by
    have : (y 0).val < 8192 := (y 0).isLt
    omega
  exact ⟨funext fun y => (h y (hy y)).1, funext fun y => (h y (hy y)).2⟩

/-- The region invariant before position n: at the start the launch's (every scratch at anything); afterwards the two
    scratch buffers at contents that hold the tiles stored so far, and the generator register at some state. -/
def PhiS (c : Dev nD) : (n : ℕ) → n ≤ cfg0.N → sProp 𝕄
  | 0, _ => Pipeline.ΦA spec0 c
  | n + 1, hn => iprop(iprop(∃ eK eV, iprop(⌜InvS m c n hn eK eV⌝ ∗ owns (c : Thread nD τ) scM0_0 fullShare eK ∗ owns (c : Thread nD τ) scM0_1 fullShare eV)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ eK eV, iprop(⌜InvS m c n hn eK eV⌝ ∗ owns (c : Thread nD τ) scM0_0 fullShare eK ∗ owns (c : Thread nD τ) scM0_1 fullShare eV)) ∗ (∃ r, prngReg c r)) := rfl

theorem PhiS_pos (c : Dev nD) (n : ℕ) (h : n ≤ cfg0.N) (hz : n ≠ 0) :
    PhiS m c n h = iprop(iprop(∃ eK eV, iprop(⌜InvS m c (n - 1) (by omega) eK eV⌝ ∗ owns (c : Thread nD τ) scM0_0 fullShare eK ∗ owns (c : Thread nD τ) scM0_1 fullShare eV)) ∗ (∃ r, prngReg c r)) := by
  cases n with
  | zero => exact absurd rfl hz
  | succ n => rfl

/-- The proof data: the arrays as the region finds them; after the body each input's buffer at its block and the
    output's at the block the body stores at a batch's last tile; the tracking invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end Cert.Kernel.Hand

end
-- ==== Proof.KBodyBits.lean ====
/-
  The body obligation at every grid point, the frame run, and the frame.

  At a point away from its batch's last tile the run of the body stores the point's key and value tiles over what the
  scratch buffers held; with the invariant of the point before this gives the invariant of this point.  At a batch's
  last tile the same, and the output block ends at the three iterations applied to the loaded blocks and to what the
  scratch buffers then read — by the invariant the whole batch's keys and values.  The launch hands the region its
  scratch buffers at anything (the first point of a batch needs nothing of them) and takes them back at anything.
-/
import proofs.«115225_j9758165696697_2_alg».proof.Proof.KFrameBits

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole output block leaves its payload, whatever the buffer held. -/
theorem read_whole_piece {mr : Memref sig .tc .vmem S1x10x256 .f32} (f : mr.view.ty.Contents (Elt F)) (w : S1x10x256.Idx → Elt F .f32) :
    mr.view.read (Elt F) (mr.view.writes (Elt F) f
      [(⟨Rect.unit (s := S1x10x256) ![0, 0, 0] S1x10x256.size inb_S1x10x256_S1x10x256_0_0_0, w⟩ : View.Piece (Elt F) S1x10x256 .f32)]) = w := by
  rw [View.read_writes_eq_canon _ _ _ (fun y => ⟨_, List.mem_singleton_self _,
    View.mem_set_unit_zero hz3 inb_S1x10x256_S1x10x256_0_0_0 y⟩), View.canon_unit_zero hz3]

set_option maxHeartbeats 3000000 in
/-- The body at a batch's last tile. -/
theorem body_last (c : Dev nD) (t : Fin cfg0.N) (h0 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hc : cond0_0 (grid0.coords t) := (hcond0_0 t).mpr h0
  rw [show (dats m 0 c).leavesExact 16 t = owns (c : Thread nD τ) (ms0_16 t) fullShare ((dats m 0 c).after 16 t) from by
    unfold Dat.leavesExact; rw [liveAt0_16_B t hc], after0_16]
  have hz : t.val ≠ 0 := by omega
  rw [PhiS_castSucc m c t, PhiS_pos m c _ _ hz]
  iintro ⟨⟨⟨%eK, %eV, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun _ => hI
  iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  iintro ⟨H0, H1, H2, H3, H4, H5, H6, H7, H8, H9, H10, H11, H12, H13, H14, H15, ⟨%e16, H16⟩, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runB_K, runB_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr; swap; · iexact H16
  ipureintro
  simp only [runB_out]
  rw [read_whole_piece]
  have hfull := inv_full m c t h0 _ _ (inv_step m c t eK eV hprev (mK := scM0_0) (mV := scM0_1) (Memref.isWhole_whole _) (Memref.isWhole_whole _))
  unfold outAt
  rw [← hfull.1, ← hfull.2]
  rfl

set_option maxHeartbeats 3000000 in
/-- The body at the very first point: the scratch buffers hold anything. -/
theorem body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hnc : ¬cond0_0 (grid0.coords t) := fun h => absurd ((hcond0_0 t).mp h) (by omega)
  rw [Dat.leavesExact_idle (dats m 0 c) 16 t (idleAt0_16_A t hnc) (noFlush0_16_A t hnc)]
  rw [PhiS_castSucc m c t, PhiS_zero m c _ _ hz, PhiA0_eq]
  iintro ⟨⟨⟨⟨%eK, HS0⟩, ⟨%eV, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun h => absurd (by omega) h
  iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hnc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runA_K, runA_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 3000000 in
/-- The body at a later point that is not a batch's last tile. -/
theorem body_mid (c : Dev nD) (t : Fin cfg0.N) (h0 : ¬t.val % 4 = 3) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hnc : ¬cond0_0 (grid0.coords t) := fun h => h0 ((hcond0_0 t).mp h)
  rw [Dat.leavesExact_idle (dats m 0 c) 16 t (idleAt0_16_A t hnc) (noFlush0_16_A t hnc)]
  rw [PhiS_castSucc m c t, PhiS_pos m c _ _ hz]
  iintro ⟨⟨⟨%eK, %eV, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun _ => hI
  iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hnc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runA_K, runA_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 3
  · exact body_last m c t h0
  · by_cases hz : t.val = 0
    · exact body_first m c t hz
    · exact body_mid m c t h0 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%eK, %eV, %hI, HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.Kernel.Hand

end
-- ==== Proof.ClaimFrameBits.lean ====
/-
  The kernel's frame at the word level: every weakly fair execution terminates without a fault and leaves each of the
  eighteen argument arrays as it found it.  The launch's frame does not depend on what the float operations compute,
  so it is the same argument as at the exact instance, read at bit patterns.
-/
import proofs.«115225_j9758165696697_2_alg».proof.Defs
import proofs.«115225_j9758165696697_2_alg».proof.Proof.Gen.Kernel
import proofs.«115225_j9758165696697_2_alg».proof.Proof.Gen.Pre_finite_inputs
import proofs.«115225_j9758165696697_2_alg».proof.Proof.KBodyBits

noncomputable section

namespace Cert.Proof.Claims

open Idealize.ShloMosaic Idealize.ShloMosaic.TcCoe Idealize.SL.Sem

/-- The kernel runs and its arguments end unchanged. -/
theorem frame_p : Cert.frame_Kernel := fun m ρ _ => Cert.Kernel.Hand.frame (F := Bits) m ρ

end Cert.Proof.Claims

end
-- ==== Proof.KRuns0.lean ====
/-
  What the two runs of the kernel's body share: the one branch condition of the body (the last tile of a batch), decided
  over the grid; where the output window is idle; the staging memrefs the pipeline passes at a point; the two scratch
  buffers (keys and values of the current batch) as whole memrefs; and the region invariant with the scratch buffers
  spelled out.
-/
import proofs.«115225_j9758165696697_2_alg».proof.Proof.Gen.KernelIdeal.Frame
import proofs.«115225_j9758165696697_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's one branch: this point is the last of its batch's four tiles. -/
abbrev cond0_0 (i : grid0.Coords) : Prop := k0_cond1 i = 1#1
/-- It holds exactly at the points 3, 7, 11, …: decided over the grid. -/
theorem hcond0_0 : ∀ t : Fin cfg0.N, cond0_0 (grid0.coords t) ↔ t.val % 4 = 3 :=
  (by decide +kernel : ∀ t : Fin grid0.N, cond0_0 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
/-- Away from a batch's last tile the body stores nothing into the output block, and the block is not written back. -/
theorem idleAt0_16_A : ∀ t : Fin cfg0.N, ¬cond0_0 (grid0.coords t) → cfg0.idle 16 (grid0.coords t) = true := by decide +kernel
theorem noFlush0_16_A : ∀ t : Fin cfg0.N, ¬cond0_0 (grid0.coords t) → (cfg0.win 16).flush t = false := by decide +kernel
/-- At a batch's last tile the output block is stored. -/
theorem liveAt0_16_B : ∀ t : Fin cfg0.N, cond0_0 (grid0.coords t) → cfg0.idle 16 (grid0.coords t) = false := by decide +kernel

abbrev ms0_0 (t : Fin cfg0.N) : Memref sig .tc .vmem S1x2048x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x10x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S768x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S768x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S768 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x10x256 .f32 := win0_16.stage (cfg0.slots t 16)
abbrev hs0_16 (t : Fin cfg0.N) : (ms0_16 t).IsWhole := hstage0_16 ((cfg0.slots t 16).cast nbuf0_16)
/-- The two scratch buffers: the keys and the values of the current batch. -/
abbrev scM0_0 : Memref sig .tc .vmem S8192x256 .bf16 := Memref.whole cc0_scratch0
abbrev scM0_1 : Memref sig .tc .vmem S8192x256 .bf16 := Memref.whole cc0_scratch1

/-- The region invariant of the launch, the scratch buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/-
  The body's run away from the last tile of a batch.  On whole staging memrefs holding the input blocks, the output
  block's buffer (untouched here) and the two scratch buffers at given contents, the body runs to its end: it normalises
  the tile's 2048 feature rows, projects them to keys and values, and stores the two tiles into the scratch buffers at
  the tile's row offset; nothing else is written.  What each scratch buffer ends with is stated as the list of pieces
  the run finds written over what the buffer held.
-/
import proofs.«115225_j9758165696697_2_alg».proof.Proof.KRuns0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunA (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (hc0 : ¬cond0_0 i)
    (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16) :
    Σ' (LS0 : List (View.Piece (Elt F) S8192x256 .bf16)), { LS1 : List (View.Piece (Elt F) S8192x256 .bf16) //
      ∀ (xi16 : Vec F S1x10x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xi16 ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare xi16 ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, fun xi16 E K => ?run⟩
  case run =>
    simp only [cc0__fused_kernel_eq_skeleton]; unfold cc0__fused_kernel_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hfs0; obtain rfl := harg20.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [HS0]
    · iexact HS0
    iexact HS1

end Cert.KernelIdeal.Hand

end
-- ==== Proof.KRunB.lean ====
/-
  The body's run at the LAST tile of a batch.  On whole staging memrefs holding the input blocks, the output block's
  buffer at anything, and the two scratch buffers at given contents, the body runs to its end: it normalises the tile's
  2048 feature rows, projects them to keys and values, stores the two tiles into the scratch buffers at the tile's row
  offset, and then — the keys and values of the whole batch being in the scratch buffers — runs the three iterations of
  slot attention and stores the new slots into the output block.  What each buffer ends with is stated as the list of
  pieces the run finds written over what the buffer held.
-/
import proofs.«115225_j9758165696697_2_alg».proof.Proof.KRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRunB (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (hc0 : cond0_0 i)
    (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16) :
    Σ' (L16 : List (View.Piece (Elt F) S1x10x256 .f32)) (LS0 : List (View.Piece (Elt F) S8192x256 .bf16)), { LS1 : List (View.Piece (Elt F) S8192x256 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ owns (c : Thread nD τ) arg19 fullShare xs0 ∗ owns (c : Thread nD τ) arg20 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (arg19.view.loc (c : Thread nD τ) ↦[arg19.view.set]{fullShare} arg19.view.writes (Elt F) (harg19.unread xs0) LS0) ∗ (arg20.view.loc (c : Thread nD τ) ↦[arg20.view.set]{fullShare} arg20.view.writes (Elt F) (harg20.unread xs1) LS1)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__fused_kernel_eq_skeleton]; unfold cc0__fused_kernel_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hfs0; obtain rfl := harg20.eq_unread hfs1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; iexact H16
    isplitl [HS0]
    · iexact HS0
    iexact HS1

end Cert.KernelIdeal.Hand

end
-- ==== Proof.KTileDefs.lean ====
/-
  The key tile and the value tile the kernel's body stores, as functions of the vectors the body loads.

  The body normalises the feature block, rounds it, multiplies it with the rounded key (value) weights contracting
  the lanes of both, adds the bias row, rounds, and stores the result into the key (value) scratch.  The two
  definitions compose the generated payload functions in the order the body does, so that each stored tile is,
  syntactically, one of these terms.
-/
import proofs.«115225_j9758165696697_2_alg».proof.Proof.Gen.KernelIdeal.Skeleton

noncomputable section

namespace Cert.KernelIdeal.Hand

open Idealize.ShloMosaic Cert.KernelIdeal Cert.KernelIdeal.Gen

variable {F : FTy → Type} [FloatOps F]

/-- The key tile: the feature block x0, the normalisation's scale nw and shift nb, the key weights kw and bias kb. -/
def kTileK (x0 : Vec F S1x2048x256 .f32) (nw nb : Vec F S256 .f32) (kw : Vec F S256x256 .f32)
    (kb : Vec F S256 .f32) : FVec F S2048x256 .bf16 :=
  k0_pay1 (k0_pay28 x0 nw nb kw kb)

/-- The value tile: the same normalised block against the value weights vw and bias vb. -/
def kTileV (x0 : Vec F S1x2048x256 .f32) (nw nb : Vec F S256 .f32) (vw : Vec F S256x256 .f32)
    (vb : Vec F S256 .f32) : FVec F S2048x256 .bf16 :=
  k0_pay2 (k0_pay29 x0 nw nb vw) vb

end Cert.KernelIdeal.Hand

end
-- ==== Proof.KOutDefs.lean ====
/-
  The value the kernel's last grid step writes to the result block, as one term over the vectors it reads.

  The body reads the second normalisation's scale and shift, the query map, the two gate maps with their biases and
  the initial slots once, and reads the stored key rows and value rows anew in each of its three rounds.  Each named
  payload of the generated skeleton is a function of the values read before it; composing the payloads in the order
  the skeleton's parts hand their results on gives the stored value as a function of the fifteen vectors read.
-/
import proofs.«115225_j9758165696697_2_alg».proof.Proof.Gen.KernelIdeal.Skeleton

noncomputable section

namespace Cert.KernelIdeal.Hand

open Idealize.ShloMosaic Cert.KernelIdeal Cert.KernelIdeal.Gen

variable {F : FTy → Type} [FloatOps F]

/-- The stored result block as a function of the vectors read: the initial slots x1, the second normalisation's
    scale n2w and shift n2b, the query map qw with bias qb, the gate maps wih, whh with biases bih, bhh, and the
    key rows and value rows as read in the first (k1, v1), second (k2, v2) and third (k3, v3) round. -/
def kOut (x1 : Vec F S1x10x256 .f32) (n2w n2b : Vec F S256 .f32) (qw : Vec F S256x256 .f32) (qb : Vec F S256 .f32)
    (wih whh : Vec F S768x256 .f32) (bih bhh : Vec F S768 .f32)
    (k1 v1 k2 v2 k3 v3 : Vec F S8192x256 .bf16) : FVec F S1x10x256 .f32 :=
  k0_pay3
    (k0_pay19 n2w n2b (k0_pay4 qw) qb (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay22 (k0_pay5 wih) bih (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2))
    (k0_pay23 (k0_pay5 wih) bih (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2))
    (k0_pay24 n2w n2b (k0_pay4 qw) qb (k0_pay6 whh) bhh (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay25 n2w n2b (k0_pay4 qw) qb (k0_pay6 whh) bhh (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)
    (k0_pay26 n2w n2b (k0_pay4 qw) qb (k0_pay5 wih) (k0_pay6 whh) bih bhh (k0_pay17 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) (k0_pay18 (k0_pay5 wih) (k0_pay6 whh) bih bhh (k0_pay15 (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1)) (k0_pay16 n2w n2b (k0_pay4 qw) qb (k0_pay10 (k0_pay8 n2w n2b qw x1) (k0_pay9 qb) k1 v1) (k0_pay13 (k0_pay5 wih) (k0_pay6 whh) bih bhh (k0_pay7 x1) (k0_pay8 n2w n2b qw x1) (k0_pay9 qb) k1 v1) (k0_pay14 (k0_pay5 wih) (k0_pay6 whh) bih bhh (k0_pay7 x1) (k0_pay8 n2w n2b qw x1) (k0_pay9 qb) k1 v1) k2) v2) k3 v3)

end Cert.KernelIdeal.Hand

end
-- ==== Proof.KPieces.lean ====
/-
  The pieces the two runs of the body find written, named.  Each scratch buffer ends with ONE piece over what it held:
  the point's key (value) tile at the tile's rows.  At a batch's last tile the output block ends with ONE piece, the
  whole block: the three iterations applied to the loaded blocks, the keys and values being what each scratch buffer
  reads after its tile was stored.  A load through the whole-shape rectangle of a memref held at contents that read X
  reads X.
-/
import proofs.«115225_j9758165696697_2_alg».proof.Proof.KRunB
import proofs.«115225_j9758165696697_2_alg».proof.Proof.KTileDefs
import proofs.«115225_j9758165696697_2_alg».proof.Proof.KOutDefs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz1 : (![0] : Fin 1 → ℕ) = fun _ => 0 := by funext a; fin_cases a; rfl
theorem hz2 : (![0, 0] : Fin 2 → ℕ) = fun _ => 0 := by funext a; fin_cases a <;> rfl
theorem hz3 : (![0, 0, 0] : Fin 3 → ℕ) = fun _ => 0 := by funext a; fin_cases a <;> rfl

section
variable (c : Dev nD) (i : grid0.Coords) (arg2 : Memref sig .tc .vmem S1x2048x256 .f32) (harg2 : arg2.IsWhole) (arg3 : Memref sig .tc .vmem S1x10x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256x256 .f32) (harg6 : arg6.IsWhole) (arg7 : Memref sig .tc .vmem S256 .f32) (harg7 : arg7.IsWhole) (arg8 : Memref sig .tc .vmem S256x256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x256 .f32) (harg12 : arg12.IsWhole) (arg13 : Memref sig .tc .vmem S256 .f32) (harg13 : arg13.IsWhole) (arg14 : Memref sig .tc .vmem S768x256 .f32) (harg14 : arg14.IsWhole) (arg15 : Memref sig .tc .vmem S768x256 .f32) (harg15 : arg15.IsWhole) (arg16 : Memref sig .tc .vmem S768 .f32) (harg16 : arg16.IsWhole) (arg17 : Memref sig .tc .vmem S768 .f32) (harg17 : arg17.IsWhole) (arg18 : Memref sig .tc .vmem S1x10x256 .f32) (harg18 : arg18.IsWhole) (arg19 : Memref sig .tc .vmem S8192x256 .bf16) (harg19 : arg19.IsWhole) (arg20 : Memref sig .tc .vmem S8192x256 .bf16) (harg20 : arg20.IsWhole) (x0 : Vec F S1x2048x256 .f32) (x1 : Vec F S1x10x256 .f32) (x2 : Vec F S256 .f32) (x3 : Vec F S256 .f32) (x4 : Vec F S256x256 .f32) (x5 : Vec F S256 .f32) (x6 : Vec F S256x256 .f32) (x7 : Vec F S256 .f32) (x8 : Vec F S256 .f32) (x9 : Vec F S256 .f32) (x10 : Vec F S256x256 .f32) (x11 : Vec F S256 .f32) (x12 : Vec F S768x256 .f32) (x13 : Vec F S768x256 .f32) (x14 : Vec F S768 .f32) (x15 : Vec F S768 .f32) (xs0 xs1 : Vec F S8192x256 .bf16)

/-- Away from the last tile: the key scratch gets the key tile. -/
theorem runA_K (hc0 : ¬cond0_0 i) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).1
      = [⟨Rect.unit (s := S8192x256) (k0_off1 i) S2048x256.size (k0_off1_inb i), kTileK x0 x2 x3 x4 x5⟩] := by
  unfold kernelRunA; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- Away from the last tile: the value scratch gets the value tile. -/
theorem runA_V (hc0 : ¬cond0_0 i) :
    (kernelRunA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.1
      = [⟨Rect.unit (s := S8192x256) (k0_off1 i) S2048x256.size (k0_off1_inb i), kTileV x0 x2 x3 x6 x7⟩] := by
  unfold kernelRunA; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the key scratch gets the key tile. -/
theorem runB_K (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.1
      = [⟨Rect.unit (s := S8192x256) (k0_off1 i) S2048x256.size (k0_off1_inb i), kTileK x0 x2 x3 x4 x5⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the value scratch gets the value tile. -/
theorem runB_V (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).2.2.1
      = [⟨Rect.unit (s := S8192x256) (k0_off1 i) S2048x256.size (k0_off1_inb i), kTileV x0 x2 x3 x6 x7⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

/-- At the last tile: the output block gets the three iterations on what the scratch buffers then read. -/
theorem runB_out (hc0 : cond0_0 i) :
    (kernelRunB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 x12 x13 x14 x15 xs0 xs1).1
      = [⟨Rect.unit (s := S1x10x256) ![0, 0, 0] S1x10x256.size inb_S1x10x256_S1x10x256_0_0_0,
          kOut x1 x8 x9 x10 x11 x12 x13 x14 x15
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))
            (arg19.view.read (Elt F) (arg19.view.writes (Elt F) (harg19.unread xs0) [⟨Rect.unit (s := S8192x256) (k0_off1 i) S2048x256.size (k0_off1_inb i), kTileK x0 x2 x3 x4 x5⟩])) (arg20.view.read (Elt F) (arg20.view.writes (Elt F) (harg20.unread xs1) [⟨Rect.unit (s := S8192x256) (k0_off1 i) S2048x256.size (k0_off1_inb i), kTileV x0 x2 x3 x6 x7⟩]))⟩] := by
  unfold kernelRunB; dsimp only; sl_unfold_run_names
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread,
    View.ld_unit_zero (S := S1x2048x256) hz3, View.ld_unit_zero (S := S1x10x256) hz3, View.ld_unit_zero (S := S256) hz1, View.ld_unit_zero (S := S768) hz1, View.ld_unit_zero (S := S256x256) hz2, View.ld_unit_zero (S := S768x256) hz2, View.ld_unit_zero (S := S8192x256) hz2]
  rfl

end

end Cert.KernelIdeal.Hand

end
-- ==== Proof.KData.lean ====
/-
  What the kernel's buffers hold, as functions of the argument arrays.  A grid point t stands for batch t / 4 and tile
  t % 4.  The key (value) tile of point t is the body's projection of that point's 2048 feature rows.  The keys (values)
  of a whole batch are its four tiles one under the other: row y of the 8192 belongs to tile y / 2048, at row y % 2048
  there.  At a batch's last tile the output block is the body's three iterations on that batch's initial slots against
  the whole batch's keys and values.
-/
import proofs.«115225_j9758165696697_2_alg».proof.Proof.Gen.KernelIdeal.Frame
import proofs.«115225_j9758165696697_2_alg».proof.Proof.KTileDefs
import proofs.«115225_j9758165696697_2_alg».proof.Proof.KOutDefs
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The key tile the body computes at point `t`. -/
def Kat (c : Dev nD) (t : Fin cfg0.N) : FVec F S2048x256 .bf16 :=
  kTileK (iblk m c 0 t) (iblk m c 2 t) (iblk m c 3 t) (iblk m c 4 t) (iblk m c 5 t)

/-- The value tile the body computes at point `t`. -/
def Vat (c : Dev nD) (t : Fin cfg0.N) : FVec F S2048x256 .bf16 :=
  kTileV (iblk m c 0 t) (iblk m c 2 t) (iblk m c 3 t) (iblk m c 6 t) (iblk m c 7 t)

/-- Row `y` of a batch's 8192 rows, within its tile: row `y % 2048`, the same column. -/
def rowIn (y : S8192x256.Idx) : S2048x256.Idx :=
  ValueIdx.ix2 (⟨(y 0).val % 2048, Nat.mod_lt _ (by norm_num)⟩ : Fin 2048) (⟨(y 1).val, (y 1).isLt⟩ : Fin 256)

/-- The point, in the batch of point `t`, whose tile holds row `y`: tile `y / 2048`. -/
def tileAt (t : Fin cfg0.N) (y : S8192x256.Idx) : Fin cfg0.N :=
  ⟨t.val - t.val % 4 + (y 0).val / 2048, by
    have hN : t.val < 64 := lt_of_lt_of_eq t.isLt (show cfg0.N = 64 from N_0)
    have hy : (y 0).val < 8192 := (y 0).isLt
    have : cfg0.N = 64 := N_0
    omega⟩

/-- The keys of the whole batch of point `t`. -/
def Kfull (c : Dev nD) (t : Fin cfg0.N) : Vec F S8192x256 .bf16 := fun y => Kat m c (tileAt t y) (rowIn y)

/-- The values of the whole batch of point `t`. -/
def Vfull (c : Dev nD) (t : Fin cfg0.N) : Vec F S8192x256 .bf16 := fun y => Vat m c (tileAt t y) (rowIn y)

/-- The output block the body stores at point `t` (a batch's last tile): three iterations of slot attention from the
    batch's initial slots against the batch's keys and values. -/
def outAt (c : Dev nD) (t : Fin cfg0.N) : Vec F S1x10x256 .f32 :=
  kOut (iblk m c 1 t) (iblk m c 8 t) (iblk m c 9 t) (iblk m c 10 t) (iblk m c 11 t) (iblk m c 12 t) (iblk m c 13 t)
    (iblk m c 14 t) (iblk m c 15 t) (Kfull m c t) (Vfull m c t) (Kfull m c t) (Vfull m c t) (Kfull m c t) (Vfull m c t)

end Cert.KernelIdeal.Hand

end
-- ==== Proof.KFrame.lean ====
/-
  The proof data of the one pipeline and its body obligation, with the two scratch buffers tracked.

  Between grid points the key and the value scratch buffers carry the tiles of the current batch stored so far.  The
  region invariant before point n + 1 says: the scratch buffers hold SOME contents that, on the rows of tiles 0 … n % 4,
  are the key and value tiles the body computes at those tiles' points (rows of later tiles may hold anything: the
  first tile of a batch overwrites only its own rows).  The body at point t keeps this: it stores tile t % 4 over its
  rows and leaves the others.  At a batch's last tile all 8192 rows are covered, so what the three iterations load is
  the whole batch's keys and values, and the output block is a function of the argument arrays alone.  Away from the
  last tile the output block's buffer is handed back as it was (the window is idle and not written back).
-/
import proofs.«115225_j9758165696697_2_alg».proof.Proof.KPieces
import proofs.«115225_j9758165696697_2_alg».proof.Proof.KData
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's row offset into the scratch buffers: 2048 times the tile number. Decided over the grid. -/
theorem off_eq : ∀ t : Fin cfg0.N, k0_off1 (grid0.coords t) = ![2048 * (t.val % 4), 0] :=
  (by decide +kernel : ∀ t : Fin grid0.N, k0_off1 (grid0.coords t) = ![2048 * (t.val % 4), 0])

/-- One slab of 2048 whole rows stored at row 2048 * q over contents e: a row of tile q reads the slab at the row
    within the tile, any other row reads e. -/
theorem slab_read {mr : Memref sig .tc .vmem S8192x256 .bf16} (h : mr.IsWhole) (e : Vec F S8192x256 .bf16)
    {off : Fin 2 → ℕ} (inb : ∀ a : Fin 2, off a + S2048x256.size a ≤ S8192x256.size a) (w : FVec F S2048x256 .bf16)
    (q : ℕ) (hoff : off = ![2048 * q, 0]) (y : S8192x256.Idx) :
    mr.view.read (Elt F) (mr.view.writes (Elt F) (h.unread e)
        [(⟨Rect.unit (s := S8192x256) off S2048x256.size inb, w⟩ : View.Piece (Elt F) S8192x256 .bf16)]) y
      = if (y 0).val / 2048 = q then w (rowIn y) else e y := by
  by_cases hq : (y 0).val / 2048 = q
  · rw [if_pos hq]
    exact View.read_writes_cons_rows_of_mem mr.view (h.unread e) inb w [] y (rowIn y) hoff
      (by show (y 0).val = 2048 * q + (y 0).val % 2048; omega) rfl
  · rw [if_neg hq, View.read_writes_cons_rows_of_not_mem mr.view (h.unread e) inb w [] y hoff (W := 2048) rfl
      (by omega), View.writes_nil]
    exact congrFun (h.read_unread e) y

/-- What the scratch buffers hold after point n: on the rows of the tiles stored so far in point n's batch, the key
    and value tiles of those tiles' points. -/
def InvS (c : Dev nD) (n : ℕ) (hn : n < cfg0.N) (eK eV : Vec F S8192x256 .bf16) : Prop :=
  ∀ y : S8192x256.Idx, (y 0).val / 2048 ≤ n % 4 →
    eK y = Kat m c (tileAt ⟨n, hn⟩ y) (rowIn y) ∧ eV y = Vat m c (tileAt ⟨n, hn⟩ y) (rowIn y)

/-- The body keeps it: storing point t's tiles over contents that held the earlier tiles of the batch. -/
theorem inv_step (c : Dev nD) (t : Fin cfg0.N) (eK eV : Vec F S8192x256 .bf16)
    (hprev : ∀ h0 : t.val % 4 ≠ 0, InvS m c (t.val - 1) (lt_of_le_of_lt (Nat.sub_le _ _) t.isLt) eK eV)
    {mK mV : Memref sig .tc .vmem S8192x256 .bf16} (hK : mK.IsWhole) (hV : mV.IsWhole) :
    InvS m c t.val t.isLt
      (mK.view.read (Elt F) (mK.view.writes (Elt F) (hK.unread eK)
        [(⟨Rect.unit (s := S8192x256) (k0_off1 (grid0.coords t)) S2048x256.size (k0_off1_inb (grid0.coords t)), Kat m c t⟩ : View.Piece (Elt F) S8192x256 .bf16)]))
      (mV.view.read (Elt F) (mV.view.writes (Elt F) (hV.unread eV)
        [(⟨Rect.unit (s := S8192x256) (k0_off1 (grid0.coords t)) S2048x256.size (k0_off1_inb (grid0.coords t)), Vat m c t⟩ : View.Piece (Elt F) S8192x256 .bf16)])) := by
  intro y hy
  have hN : t.val < 64 := lt_of_lt_of_eq t.isLt (show cfg0.N = 64 from N_0)
  rw [slab_read hK eK _ _ (t.val % 4) (off_eq t) y, slab_read hV eV _ _ (t.val % 4) (off_eq t) y]
  by_cases hq : (y 0).val / 2048 = t.val % 4
  · rw [if_pos hq, if_pos hq]
    have ht : tileAt (⟨t.val, t.isLt⟩ : Fin cfg0.N) y = t := Fin.ext (by
      show t.val - t.val % 4 + (y 0).val / 2048 = t.val
      omega)
    rw [ht]
    exact ⟨rfl, rfl⟩
  · rw [if_neg hq, if_neg hq]
    have h4 : t.val % 4 ≠ 0 := by omega
    have hp := hprev h4 y (by omega)
    have ht : tileAt (⟨t.val - 1, lt_of_le_of_lt (Nat.sub_le _ _) t.isLt⟩ : Fin cfg0.N) y
        = tileAt (⟨t.val, t.isLt⟩ : Fin cfg0.N) y := Fin.ext (by
      show t.val - 1 - (t.val - 1) % 4 + (y 0).val / 2048 = t.val - t.val % 4 + (y 0).val / 2048
      omega)
    rw [ht] at hp
    exact hp

/-- At a batch's last tile the invariant pins every row: the contents are the batch's keys and values. -/
theorem inv_full (c : Dev nD) (t : Fin cfg0.N) (ht : t.val % 4 = 3) (eK eV : Vec F S8192x256 .bf16)
    (h : InvS m c t.val t.isLt eK eV) : eK = Kfull m c t ∧ eV = Vfull m c t := by
  have hy : ∀ y : S8192x256.Idx, (y 0).val / 2048 ≤ t.val % 4 := fun y => by
    have : (y 0).val < 8192 := (y 0).isLt
    omega
  exact ⟨funext fun y => (h y (hy y)).1, funext fun y => (h y (hy y)).2⟩

/-- The region invariant before position n: at the start the launch's (every scratch at anything); afterwards the two
    scratch buffers at contents that hold the tiles stored so far, and the generator register at some state. -/
def PhiS (c : Dev nD) : (n : ℕ) → n ≤ cfg0.N → sProp 𝕄
  | 0, _ => Pipeline.ΦA spec0 c
  | n + 1, hn => iprop(iprop(∃ eK eV, iprop(⌜InvS m c n hn eK eV⌝ ∗ owns (c : Thread nD τ) scM0_0 fullShare eK ∗ owns (c : Thread nD τ) scM0_1 fullShare eV)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ eK eV, iprop(⌜InvS m c n hn eK eV⌝ ∗ owns (c : Thread nD τ) scM0_0 fullShare eK ∗ owns (c : Thread nD τ) scM0_1 fullShare eV)) ∗ (∃ r, prngReg c r)) := rfl

theorem PhiS_pos (c : Dev nD) (n : ℕ) (h : n ≤ cfg0.N) (hz : n ≠ 0) :
    PhiS m c n h = iprop(iprop(∃ eK eV, iprop(⌜InvS m c (n - 1) (by omega) eK eV⌝ ∗ owns (c : Thread nD τ) scM0_0 fullShare eK ∗ owns (c : Thread nD τ) scM0_1 fullShare eV)) ∗ (∃ r, prngReg c r)) := by
  cases n with
  | zero => exact absurd rfl hz
  | succ n => rfl

/-- The proof data: the arrays as the region finds them; after the body each input's buffer at its block and the
    output's at the block the body stores at a batch's last tile; the tracking invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => outAt m c t
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

end Cert.KernelIdeal.Hand

end
-- ==== Proof.KBody.lean ====
/-
  The body obligation at every grid point, the frame run, and the frame.

  At a point away from its batch's last tile the run of the body stores the point's key and value tiles over what the
  scratch buffers held; with the invariant of the point before this gives the invariant of this point.  At a batch's
  last tile the same, and the output block ends at the three iterations applied to the loaded blocks and to what the
  scratch buffers then read — by the invariant the whole batch's keys and values.  The launch hands the region its
  scratch buffers at anything (the first point of a batch needs nothing of them) and takes them back at anything.
-/
import proofs.«115225_j9758165696697_2_alg».proof.Proof.KFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One store through the whole output block leaves its payload, whatever the buffer held. -/
theorem read_whole_piece {mr : Memref sig .tc .vmem S1x10x256 .f32} (f : mr.view.ty.Contents (Elt F)) (w : S1x10x256.Idx → Elt F .f32) :
    mr.view.read (Elt F) (mr.view.writes (Elt F) f
      [(⟨Rect.unit (s := S1x10x256) ![0, 0, 0] S1x10x256.size inb_S1x10x256_S1x10x256_0_0_0, w⟩ : View.Piece (Elt F) S1x10x256 .f32)]) = w := by
  rw [View.read_writes_eq_canon _ _ _ (fun y => ⟨_, List.mem_singleton_self _,
    View.mem_set_unit_zero hz3 inb_S1x10x256_S1x10x256_0_0_0 y⟩), View.canon_unit_zero hz3]

set_option maxHeartbeats 3000000 in
/-- The body at a batch's last tile. -/
theorem body_last (c : Dev nD) (t : Fin cfg0.N) (h0 : t.val % 4 = 3) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hc : cond0_0 (grid0.coords t) := (hcond0_0 t).mpr h0
  rw [show (dats m 0 c).leavesExact 16 t = owns (c : Thread nD τ) (ms0_16 t) fullShare ((dats m 0 c).after 16 t) from by
    unfold Dat.leavesExact; rw [liveAt0_16_B t hc], after0_16]
  have hz : t.val ≠ 0 := by omega
  rw [PhiS_castSucc m c t, PhiS_pos m c _ _ hz]
  iintro ⟨⟨⟨%eK, %eV, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun _ => hI
  iapply ((kernelRunB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  iintro ⟨H0, H1, H2, H3, H4, H5, H6, H7, H8, H9, H10, H11, H12, H13, H14, H15, ⟨%e16, H16⟩, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runB_K, runB_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr; swap; · iexact H16
  ipureintro
  simp only [runB_out]
  rw [read_whole_piece]
  have hfull := inv_full m c t h0 _ _ (inv_step m c t eK eV hprev (mK := scM0_0) (mV := scM0_1) (Memref.isWhole_whole _) (Memref.isWhole_whole _))
  unfold outAt
  rw [← hfull.1, ← hfull.2]
  rfl

set_option maxHeartbeats 3000000 in
/-- The body at the very first point: the scratch buffers hold anything. -/
theorem body_first (c : Dev nD) (t : Fin cfg0.N) (hz : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hnc : ¬cond0_0 (grid0.coords t) := fun h => absurd ((hcond0_0 t).mp h) (by omega)
  rw [Dat.leavesExact_idle (dats m 0 c) 16 t (idleAt0_16_A t hnc) (noFlush0_16_A t hnc)]
  rw [PhiS_castSucc m c t, PhiS_zero m c _ _ hz, PhiA0_eq]
  iintro ⟨⟨⟨⟨%eK, HS0⟩, ⟨%eV, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun h => absurd (by omega) h
  iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hnc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runA_K, runA_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

set_option maxHeartbeats 3000000 in
/-- The body at a later point that is not a batch's last tile. -/
theorem body_mid (c : Dev nD) (t : Fin cfg0.N) (h0 : ¬t.val % 4 = 3) (hz : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  have hnc : ¬cond0_0 (grid0.coords t) := fun h => h0 ((hcond0_0 t).mp h)
  rw [Dat.leavesExact_idle (dats m 0 c) 16 t (idleAt0_16_A t hnc) (noFlush0_16_A t hnc)]
  rw [PhiS_castSucc m c t, PhiS_pos m c _ _ hz]
  iintro ⟨⟨⟨%eK, %eV, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  have hprev : ∀ h0 : t.val % 4 ≠ 0, InvS m c (t.val - 1) (lt_of_le_of_lt (Nat.sub_le _ _) t.isLt) eK eV := fun _ => hI
  iapply ((kernelRunA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) hnc (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) eK eV).2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [HS0]; · iexact HS0
  isplitl [HS1]; · iexact HS1
  iintro ⟨H0, H1, H2, H3, H4, H5, H6, H7, H8, H9, H10, H11, H12, H13, H14, H15, H16, HS0, HS1⟩
  isplitl [HS0 HS1 Hg]
  · isplitl [HS0 HS1]
    · iexists _, _
      isplitr
      swap
      · isplitl [HS0]
        · unfold owns; iexists _; isplitr; swap; · iexact HS0
          ipureintro; rfl
        · unfold owns; iexists _; isplitr; swap; · iexact HS1
          ipureintro; rfl
      · ipureintro
        simp only [runA_K, runA_V]
        exact inv_step m c t eK eV hprev (mK := scM0_0) (mV := scM0_1) (Memref.isWhole_whole _) (Memref.isWhole_whole _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexists _; iexact H16

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 4 = 3
  · exact body_last m c t h0
  · by_cases hz : t.val = 0
    · exact body_first m c t hz
    · exact body_mid m c t h0 hz

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: what the scratch buffers hold is forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%eK, %eV, %hI, HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of @main terminates, and every final state has every array of the pipeline at what
    the proof data says and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.Hand

end
-- ==== Proof.ClaimFrameIdeal.lean ====
/-
  The idealized kernel's frame: every weakly fair execution terminates without a fault and leaves each of the
  eighteen argument arrays as it found it.  This is the frame of the whole launch — the grid's points in order, each
  point's body sound against the pipeline's invariant — read at the exact instance.
-/
import proofs.«115225_j9758165696697_2_alg».proof.Defs
import proofs.«115225_j9758165696697_2_alg».proof.Proof.Gen.KernelIdeal
import proofs.«115225_j9758165696697_2_alg».proof.Proof.Gen.Pre_finite_inputs
import proofs.«115225_j9758165696697_2_alg».proof.Proof.KBody

noncomputable section

namespace Cert.Proof.Claims

open Idealize.ShloMosaic Idealize.ShloMosaic.TcCoe Idealize.SL.Sem

/-- The idealized kernel runs and its arguments end unchanged. -/
theorem frame_pi : Cert.frame_KernelIdeal := fun m ρ _ => Cert.KernelIdeal.Hand.frame (F := Ideal) m ρ

end Cert.Proof.Claims

end
-- ==== Proof.ClaimFrameRef.lean ====
/-
  The reference program's frame: every weakly fair execution terminates without a fault and leaves each of the
  eighteen argument arrays as it found it.  The run of the reference states the result array's contents and the
  unchanged arguments together; the frame keeps the second part.
-/
import proofs.«115225_j9758165696697_2_alg».proof.Defs
import proofs.«115225_j9758165696697_2_alg».proof.Proof.Gen.ReferenceIdeal
import proofs.«115225_j9758165696697_2_alg».proof.Proof.Gen.Pre_finite_inputs
import proofs.«115225_j9758165696697_2_alg».proof.Proof.Gen.ReferenceIdeal.Run

noncomputable section

namespace Cert.Proof.Claims

open Idealize.ShloMosaic Idealize.ShloMosaic.TcCoe Idealize.SL.Sem

/-- The reference runs and its arguments end unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.Claims

end
-- ==== Proof.KArray.lean ====
/-
  From the output blocks to the result array.

  The output window's block at point t is rows [t / 4, t / 4 + 1) of the [16, 10, 256] result array, all of its other two
  axes; it is written back exactly at the points t with t % 4 = 3, the last tile of each batch.  So array entry
  (b, n, d) is covered by the one point 4 b + 3, and the array ends holding, at (b, n, d), entry (0, n, d) of what the
  body left in the block at that point.
-/
import proofs.«115225_j9758165696697_2_alg».proof.Proof.Gen.KernelIdeal.Frame
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The point that writes batch b's block back: the batch's last tile. -/
def lastPt (b : Fin 16) : Fin cfg0.N :=
  ⟨4 * b.val + 3, by have h : cfg0.N = 64 := N_0; have := b.isLt; omega⟩

theorem lastPt_val (b : Fin 16) : (lastPt b).val = 4 * b.val + 3 := rfl

/-- An array index within its batch's block: the same last two coordinates under a unit first axis. -/
def inBlk (j : S16x10x256.Idx) : S1x10x256.Idx :=
  ValueIdx.ix3 (0 : Fin 1) (⟨(j 1).val, (j 1).isLt⟩ : Fin 10) (⟨(j 2).val, (j 2).isLt⟩ : Fin 256)

/-- The result array assembled from the blocks the last tiles leave: entry (b, n, d) is entry (0, n, d) of the block at
    point 4 b + 3. -/
def Gout (X : Fin cfg0.N → Vec F S1x10x256 .f32) : S16x10x256.Idx → Elt F .f32 :=
  fun j => X (lastPt (⟨(j 0).val, (j 0).isLt⟩ : Fin 16)) (inBlk j)

/-- The output window's block index at point t, decided over the grid: (t / 4, 0, 0). -/
theorem idx_facts16 : ∀ t : Fin cfg0.N, win0_16.index t (0 : Fin 3) = t.val / 4
    ∧ win0_16.index t (1 : Fin 3) = 0 ∧ win0_16.index t (2 : Fin 3) = 0 :=
  (by decide +kernel : ∀ t : Fin grid0.N, _)

/-- An index of the array is in point t's block iff each coordinate is in the block's range on its axis. -/
theorem mem_blk16 (t : Fin cfg0.N) (i : S16x10x256.Idx) :
    i ∈ ((cfg0.win 16).blk t).view.set
      ↔ ∀ a : Fin 3, win0_16.index t a * S1x10x256.size a ≤ (i a).val
          ∧ (i a).val < win0_16.index t a * S1x10x256.size a + S1x10x256.size a := by
  show i ∈ ((View.whole main_v5).slice (win0_16.rect t)).set ↔ _
  rw [View.set_slice_whole, Rect.mem_set_unit]
  exact Iff.rfl

/-- What a flushing point t writes back is block t of the assembled array. -/
theorem flushed16_eq {c : Dev nD} (dat : Dat τ (Elt F) Unit ℕ (UR sig nD τ) ℕ cfg0 c) (X : Fin cfg0.N → Vec F S1x10x256 .f32)
    (hafter : ∀ t : Fin cfg0.N, t.val % 4 = 3 → dat.after 16 t = X t) (t : Fin cfg0.N)
    (hf : (cfg0.win 16).flush t = true) :
    dat.flushed 16 t = ((cfg0.win 16).blk t).view.read (Elt F) (Gout X) := by
  have h3 : t.val % 4 = 3 := (flush0_16 t).mp hf
  show (cfg0.win 16).cut (grid0.coords t) (dat.after 16 t) = _
  rw [hafter t h3]
  obtain ⟨e0, e1, e2⟩ := idx_facts16 t
  funext j
  show X t j = Gout X (((cfg0.win 16).blk t).view.emb j)
  unfold Gout
  have hj0 : (j 0).val = 0 := by have : (j 0).val < 1 := (j 0).isLt; omega
  have hp : lastPt (⟨((((cfg0.win 16).blk t).view.emb j) 0).val, ((((cfg0.win 16).blk t).view.emb j) 0).isLt⟩ : Fin 16) = t := by
    apply Fin.ext
    show 4 * (win0_16.index t (0 : Fin 3) * 1 + 1 * (j 0).val) + 3 = t.val
    rw [e0, hj0]; omega
  have hb : inBlk (((cfg0.win 16).blk t).view.emb j) = j := by
    funext a; apply Fin.ext
    match a with
    | ⟨0, _⟩ => exact hj0.symm
    | ⟨1, _⟩ => show win0_16.index t (1 : Fin 3) * 10 + 1 * (j 1).val = (j 1).val; rw [e1]; omega
    | ⟨2, _⟩ => show win0_16.index t (2 : Fin 3) * 256 + 1 * (j 2).val = (j 2).val; rw [e2]; omega
  rw [hp, hb]

/-- THE RESULT ARRAY after the run, for any proof data whose output block at the last tiles is X: the array assembled
    from those blocks. -/
theorem arrAt_out {c : Dev nD} (dat : Dat τ (Elt F) Unit ℕ (UR sig nD τ) ℕ cfg0 c) (X : Fin cfg0.N → Vec F S1x10x256 .f32)
    (hafter : ∀ t : Fin cfg0.N, t.val % 4 = 3 → dat.after 16 t = X t) :
    dat.arrAt 16 cfg0.N = Gout X :=
  dat.arrAt_eq_of_cover 16 (Gout X) (flushed16_eq dat X hafter) fun i => by
    have hi0 : (i 0).val < 16 := (i 0).isLt
    have hi1 : (i 1).val < 10 := (i 1).isLt
    have hi2 : (i 2).val < 256 := (i 2).isLt
    obtain ⟨b, hb⟩ : ∃ b : Fin 16, b.val = (i 0).val := ⟨⟨(i 0).val, hi0⟩, rfl⟩
    refine ⟨lastPt b, (flush0_16 _).mpr (by rw [lastPt_val]; omega), ?_⟩
    obtain ⟨e0, e1, e2⟩ := idx_facts16 (lastPt b)
    rw [lastPt_val] at e0
    rw [mem_blk16]
    intro a
    match a with
    | ⟨0, _⟩ =>
      show win0_16.index (lastPt b) (0 : Fin 3) * 1 ≤ (i 0).val
        ∧ (i 0).val < win0_16.index (lastPt b) (0 : Fin 3) * 1 + 1
      rw [e0]; omega
    | ⟨1, _⟩ =>
      show win0_16.index (lastPt b) (1 : Fin 3) * 10 ≤ (i 1).val
        ∧ (i 1).val < win0_16.index (lastPt b) (1 : Fin 3) * 10 + 10
      rw [e1]; omega
    | ⟨2, _⟩ =>
      show win0_16.index (lastPt b) (2 : Fin 3) * 256 ≤ (i 2).val
        ∧ (i 2).val < win0_16.index (lastPt b) (2 : Fin 3) * 256 + 256
      rw [e2]; omega

end Cert.KernelIdeal.Hand

end
-- ==== Proof.KResultOf.lean ====
/-
  The kernel's result array from the frame run.

  The frame run ends with every array of the pipeline at what the proof data says.  The result array is assembled from
  the output blocks the last tiles of the sixteen batches leave: entry (b, n, d) is entry (0, n, d) of the block at
  point 4 b + 3.  So if that block, at a batch's last tile t, is a function R of the batch t / 4 and the entry, the
  result array is R, entry by entry; the argument arrays end as they began.
-/
import proofs.«115225_j9758165696697_2_alg».proof.Proof.KFrame
import proofs.«115225_j9758165696697_2_alg».proof.Proof.KArray
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- A function of batch, slot and lane as the contents of the result array. -/
def resultOf (R : Fin 16 → Fin 10 → Fin 256 → Elt F .f32) : S16x10x256.Idx → Elt F .f32 :=
  fun j => R (⟨(j 0).val, (j 0).isLt⟩ : Fin 16) (⟨(j 1).val, (j 1).isLt⟩ : Fin 10) (⟨(j 2).val, (j 2).isLt⟩ : Fin 256)

/-- The array assembled from the last tiles' output blocks is R when each such block is R of its batch. -/
theorem Gout_eq (c : Dev nD) (R : Fin 16 → Fin 10 → Fin 256 → Elt F .f32)
    (hR : ∀ (t : Fin cfg0.N), t.val % 4 = 3 → ∀ (b : Fin 16), b.val = t.val / 4 → ∀ (n : Fin 10) (d : Fin 256),
      outAt m c t (ix3 (0 : Fin 1) n d) = R b n d) :
    Gout (outAt m c) = resultOf R := by
  funext j
  unfold Gout resultOf inBlk
  exact hR (lastPt ⟨(j 0).val, (j 0).isLt⟩) (by rw [lastPt_val]; omega) ⟨(j 0).val, (j 0).isLt⟩
    (by rw [lastPt_val]; show (j 0).val = (4 * (j 0).val + 3) / 4; omega) _ _

set_option maxHeartbeats 1600000 in
/-- THE VALUE from a frame run: the result array ends at R, the argument arrays as they began. -/
theorem value_of (R : Dev nD → Fin 16 → Fin 10 → Fin 256 → Elt F .f32)
    (hR : ∀ (c : Dev nD) (t : Fin cfg0.N), t.val % 4 = 3 → ∀ (b : Fin 16), b.val = t.val / 4 → ∀ (n : Fin 10) (d : Fin 256),
      outAt m c t (ix3 (0 : Fin 1) n d) = R c b n d)
    (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_v5) = resultOf (R c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 16).trans
        ((arrAt_out (dats m 0 c) (outAt m c) (fun t _ => after0_16 m c t)).trans (Gout_eq m c (R c) (hR c))),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).1 3).trans (((dats m 0 c).arrAt_in 3 rfl _).trans ((A_eq m c 3).trans (V_main_arg5 m c))),
      ((h c).1 8).trans (((dats m 0 c).arrAt_in 8 rfl _).trans ((A_eq m c 8).trans (V_main_arg6 m c))),
      ((h c).1 9).trans (((dats m 0 c).arrAt_in 9 rfl _).trans ((A_eq m c 9).trans (V_main_arg7 m c))),
      ((h c).1 10).trans (((dats m 0 c).arrAt_in 10 rfl _).trans ((A_eq m c 10).trans (V_main_arg8 m c))),
      ((h c).1 11).trans (((dats m 0 c).arrAt_in 11 rfl _).trans ((A_eq m c 11).trans (V_main_arg9 m c))),
      ((h c).1 4).trans (((dats m 0 c).arrAt_in 4 rfl _).trans ((A_eq m c 4).trans (V_main_arg10 m c))),
      ((h c).1 5).trans (((dats m 0 c).arrAt_in 5 rfl _).trans ((A_eq m c 5).trans (V_main_arg11 m c))),
      ((h c).1 6).trans (((dats m 0 c).arrAt_in 6 rfl _).trans ((A_eq m c 6).trans (V_main_arg12 m c))),
      ((h c).1 7).trans (((dats m 0 c).arrAt_in 7 rfl _).trans ((A_eq m c 7).trans (V_main_arg13 m c))),
      ((h c).1 12).trans (((dats m 0 c).arrAt_in 12 rfl _).trans ((A_eq m c 12).trans (V_main_arg14 m c))),
      ((h c).1 13).trans (((dats m 0 c).arrAt_in 13 rfl _).trans ((A_eq m c 13).trans (V_main_arg15 m c))),
      ((h c).1 14).trans (((dats m 0 c).arrAt_in 14 rfl _).trans ((A_eq m c 14).trans (V_main_arg16 m c))),
      ((h c).1 15).trans (((dats m 0 c).arrAt_in 15 rfl _).trans ((A_eq m c 15).trans (V_main_arg17 m c)))⟩) h

end Cert.KernelIdeal.Hand

end
-- ==== Proof.Spec.lean ====
/-
  The mathematics of slot attention on the extended reals, stated once, index by index, for both programs to meet.

  A feature row x (256 numbers) is normalised, (x - mean) * rsqrt(var + eps) * w + b, and mapped linearly to a key row
  and a value row.  Ten slot rows, started at mu + exp(log_sigma) * noise, are updated three times: the slots are
  normalised and mapped to queries; the scores are the products of queries with the 8192 key rows; for each key the
  scores are soft-maxed over the ten slots (the maximum, the exponentials of the differences, their sum, the quotient,
  plus a small constant); the updates are the attention-weighted sums of the value rows; and a gated recurrent cell
  (two logistic gates, a tanh candidate) mixes the previous slots and the updates into the new slots.
  The float literals are kept as the words both programs print.
-/
import Idealize.ShloMosaic.PureOps.Ideal
import Idealize.ShloMosaic.Lib.ValueIdx

noncomputable section

open scoped BigOperators

namespace Cert.Spec

open Idealize.ShloMosaic Idealize.ShloMosaic.ValueIdx

/-- The word for 256, the row length. -/
abbrev c256 : EReal := Ideal.ofBits .f32 0x43800000#32
/-- The normalisation's small constant (the f32 nearest 1e-5). -/
abbrev epsLn : EReal := Ideal.ofBits .f32 0x3727C5AC#32
/-- The attention's small constant (the f32 nearest 1e-7). -/
abbrev epsAt : EReal := Ideal.ofBits .f32 0x33D6BF95#32
/-- The word for one. -/
abbrev one : EReal := Ideal.ofBits .f32 0x3F800000#32
/-- The word for minus infinity, where a maximum starts. -/
abbrev ninf : EReal := Ideal.ofBits .f32 0xFF800000#32

/-- The mean of a row of 256 entries: their sum over the word 256. -/
def mean (x : Fin 256 → EReal) : EReal := Ideal.div (∑ k : Fin 256, x k) c256

/-- The (biased) variance of a row: the mean of the squared deviations. -/
def var (x : Fin 256 → EReal) : EReal :=
  Ideal.div (∑ k : Fin 256, (x k - mean x) * (x k - mean x)) c256

/-- Layer normalisation with a reciprocal square root: (x - mean) * rsqrt (var + eps) * w + b. -/
def lnK (x w b : Fin 256 → EReal) (d : Fin 256) : EReal :=
  (x d - mean x) * Ideal.rsqrt (var x + epsLn) * w d + b d

/-- Layer normalisation with a quotient by a square root: (x - mean) / sqrt (var + eps) * w + b. -/
def lnR (x w b : Fin 256 → EReal) (d : Fin 256) : EReal :=
  Ideal.div (x d - mean x) (Ideal.sqrt (var x + epsLn)) * w d + b d

/-- One output of a linear map: the row times row e of the weight matrix, plus the bias. -/
def lin {K N : ℕ} (x : Fin K → EReal) (W : Fin N → Fin K → EReal) (bias : Fin N → EReal) (e : Fin N) : EReal :=
  (∑ k : Fin K, x k * W e k) + bias e

/-- The three thirds of a row of 768 gate pre-activations. -/
def third0 (d : Fin 256) : Fin 768 := ⟨d.val, by have := d.isLt; omega⟩
def third1 (d : Fin 256) : Fin 768 := ⟨256 + d.val, by have := d.isLt; omega⟩
def third2 (d : Fin 256) : Fin 768 := ⟨512 + d.val, by have := d.isLt; omega⟩

/-- The weights of the iteration, as functions of coordinates. -/
structure Weights where
  n2w : Fin 256 → EReal
  n2b : Fin 256 → EReal
  qw : Fin 256 → Fin 256 → EReal
  qb : Fin 256 → EReal
  wih : Fin 768 → Fin 256 → EReal
  whh : Fin 768 → Fin 256 → EReal
  bih : Fin 768 → EReal
  bhh : Fin 768 → EReal

variable (w : Weights) (Km Vm : Fin 8192 → Fin 256 → EReal)

/-- The queries of the normalised slots. -/
def query (s : Fin 10 → Fin 256 → EReal) (n : Fin 10) (e : Fin 256) : EReal :=
  lin (lnK (s n) w.n2w w.n2b) w.qw w.qb e

/-- The score of slot n against key row j. -/
def score (s : Fin 10 → Fin 256 → EReal) (n : Fin 10) (j : Fin 8192) : EReal :=
  ∑ d : Fin 256, query w s n d * Km j d

/-- The maximum over the ten slots of a column of scores, started (twice) at minus infinity. -/
def colMax (sc : Fin 10 → Fin 8192 → EReal) (j : Fin 8192) : EReal :=
  max ninf ((Finset.univ : Finset (Fin 10)).fold max ninf (fun n => sc n j))

/-- The exponential of a score less its column's maximum. -/
def expo (sc : Fin 10 → Fin 8192 → EReal) (n : Fin 10) (j : Fin 8192) : EReal :=
  Ideal.exp (sc n j - colMax sc j)

/-- The soft-max over the slots, plus the small constant. -/
def attn (sc : Fin 10 → Fin 8192 → EReal) (n : Fin 10) (j : Fin 8192) : EReal :=
  Ideal.div (expo sc n j) (∑ n' : Fin 10, expo sc n' j) + epsAt

/-- The updates: attention-weighted sums of the value rows. -/
def update (s : Fin 10 → Fin 256 → EReal) (n : Fin 10) (d : Fin 256) : EReal :=
  ∑ j : Fin 8192, attn (score w Km s) n j * Vm j d

/-- The gated recurrent cell on one entry: input-side pre-activations gx (of the previous slots), hidden-side gh (of
    the updates); reset and update gates, the candidate, and the mix (1 - z) * candidate + z * update. -/
def cell (gx gh : Fin 768 → EReal) (u : EReal) (d : Fin 256) : EReal :=
  (one - Ideal.logistic (gx (third1 d) + gh (third1 d)))
      * Ideal.tanh (gx (third2 d) + Ideal.logistic (gx (third0 d) + gh (third0 d)) * gh (third2 d))
    + Ideal.logistic (gx (third1 d) + gh (third1 d)) * u

/-- One iteration of slot attention. -/
def step (s : Fin 10 → Fin 256 → EReal) (n : Fin 10) (d : Fin 256) : EReal :=
  cell (fun q => lin (s n) w.wih w.bih q) (fun q => lin (update w Km Vm s n) w.whh w.bhh q) (update w Km Vm s n d) d

/-- Three iterations. -/
def iter3 (s : Fin 10 → Fin 256 → EReal) : Fin 10 → Fin 256 → EReal :=
  step w Km Vm (step w Km Vm (step w Km Vm s))

/-! ## The whole function of the eighteen argument arrays -/

/-- The argument arrays, as functions of their indices. -/
structure Args where
  feat : (⟨3, ![16, 8192, 256]⟩ : Shape).Idx → EReal
  noise : (⟨3, ![16, 10, 256]⟩ : Shape).Idx → EReal
  mu : (⟨3, ![1, 1, 256]⟩ : Shape).Idx → EReal
  ls : (⟨3, ![1, 1, 256]⟩ : Shape).Idx → EReal
  n1w : (⟨1, ![256]⟩ : Shape).Idx → EReal
  n1b : (⟨1, ![256]⟩ : Shape).Idx → EReal
  n2w : (⟨1, ![256]⟩ : Shape).Idx → EReal
  n2b : (⟨1, ![256]⟩ : Shape).Idx → EReal
  qw : (⟨2, ![256, 256]⟩ : Shape).Idx → EReal
  qb : (⟨1, ![256]⟩ : Shape).Idx → EReal
  kw : (⟨2, ![256, 256]⟩ : Shape).Idx → EReal
  kb : (⟨1, ![256]⟩ : Shape).Idx → EReal
  vw : (⟨2, ![256, 256]⟩ : Shape).Idx → EReal
  vb : (⟨1, ![256]⟩ : Shape).Idx → EReal
  wih : (⟨2, ![768, 256]⟩ : Shape).Idx → EReal
  whh : (⟨2, ![768, 256]⟩ : Shape).Idx → EReal
  bih : (⟨1, ![768]⟩ : Shape).Idx → EReal
  bhh : (⟨1, ![768]⟩ : Shape).Idx → EReal

namespace Args

variable (a : Args)

/-- The iteration's weights read off the arrays. -/
def weights : Weights where
  n2w k := a.n2w (ix1 k)
  n2b k := a.n2b (ix1 k)
  qw e k := a.qw (ix2 e k)
  qb e := a.qb (ix1 e)
  wih q k := a.wih (ix2 q k)
  whh q k := a.whh (ix2 q k)
  bih q := a.bih (ix1 q)
  bhh q := a.bhh (ix1 q)

/-- The normalised feature row s of batch b. -/
def normed (b : Fin 16) (s : Fin 8192) (k : Fin 256) : EReal :=
  lnK (fun k' => a.feat (ix3 b s k')) (fun k' => a.n1w (ix1 k')) (fun k' => a.n1b (ix1 k')) k

/-- The key rows of batch b. -/
def keys (b : Fin 16) (s : Fin 8192) (e : Fin 256) : EReal :=
  lin (a.normed b s) (fun e' k => a.kw (ix2 e' k)) (fun e' => a.kb (ix1 e')) e

/-- The value rows of batch b. -/
def vals (b : Fin 16) (s : Fin 8192) (e : Fin 256) : EReal :=
  lin (a.normed b s) (fun e' k => a.vw (ix2 e' k)) (fun e' => a.vb (ix1 e')) e

/-- The initial slots of batch b: mu + exp (log_sigma) * noise. -/
def slots0 (b : Fin 16) (n : Fin 10) (d : Fin 256) : EReal :=
  a.mu (ix3 0 0 d) + Ideal.exp (a.ls (ix3 0 0 d)) * a.noise (ix3 b n d)

/-- The result array: three iterations from the initial slots against the batch's keys and values. -/
def out (b : Fin 16) (n : Fin 10) (d : Fin 256) : EReal :=
  iter3 a.weights (a.keys b) (a.vals b) (a.slots0 b) n d

end Args

end Cert.Spec

end
-- ==== Proof.LibRank3.lean ====
/-
  The host's array operations on rank-3 arrays, read at an entry.

  A sum along the last axis of an `[a, b, c]` array leaves, at `(p, q)`, the initial value plus the sum of the `c`
  entries `(p, q, ·)`.  The host spells `keepdims` and the repetition of a row as `broadcast_in_dim`s: an `[a, b]`
  array placed on the first two axes of `[a, b, 1]`, an `[a, b, 1]` array repeated along the last axis, a length-`c`
  vector placed on the last axis of `[1, 1, c]`, and a `[1, 1, c]` array repeated along the first two axes.  The
  product of an `[a, b, K]` array with an `[N, K]` matrix, both contracted over their last axis, is at `(p, q, e)` the
  sum over `k` of `l[p,q,k] · r[e,k]`; and the square root and the exponential act entry by entry.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.Rank3

open Idealize.ShloMosaic Idealize.ShloMosaic.ValueIdx

/-! ## Sums along the last axis -/

/-- A host reduction's shape fact along the last axis of a rank-3 array is also the lane reduction's. -/
theorem reduces_of_reducesTo {a b c : ℕ} (h' : (⟨3, ![a, b, c]⟩ : Shape).ReducesTo [2] (⟨2, ![a, b]⟩ : Shape)) :
    (⟨3, ![a, b, c]⟩ : Shape).Reduces [2] (⟨2, ![a, b]⟩ : Shape) := ⟨h'.1, Nat.two_pos, h'.2⟩

/-- The position `(p, q)` with the last coordinate `k` put back is the entry `(p, q, k)`. -/
theorem lift_last {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext x; apply Fin.ext
  fin_cases x <;> rfl

/-- The host's float sum along the last axis of an `[a, b, c]` array, at `(p, q)`, is the initial value plus the sum
    of the entries `(p, q, ·)`. -/
theorem hostSumLast_apply {a b c : ℕ} (X : FVec Ideal ⟨3, ![a, b, c]⟩ .f32) (init : FVec Ideal ⟨0, ![]⟩ .f32)
    (h' : (⟨3, ![a, b, c]⟩ : Shape).ReducesTo [2] (⟨2, ![a, b]⟩ : Shape)) (hu : 0 < (⟨0, ![]⟩ : Shape).numel)
    (p : Fin a) (q : Fin b) :
    Host.reduceAdd X init h' hu (ix2 p q) = init ix0 + ∑ k : Fin c, X (ix3 p q k) := by
  have h := reduces_of_reducesTo h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_last h p q k))

/-! ## Broadcasts -/

variable {α : Type}

/-- An `[a, b]` array placed on the first two axes of `[a, b, 1]` reads, at `(p, q, u)`, the array at `(p, q)`. -/
theorem bcast_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- An `[a, b, 1]` array repeated along the last axis of `[a, b, c]` reads, at `(p, q, k)`, the array at `(p, q, 0)`. -/
theorem bcast_ab1_abc_apply {a b c : ℕ} (v : (⟨3, ![a, b, 1]⟩ : Shape).Idx → α)
    (h : (⟨3, ![a, b, 1]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 p q (0 : Fin 1)) := by
  refine broadcastInDim_apply _ h v (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A length-`c` vector placed on the last axis of `[1, 1, c]` reads, at `(u, u', k)`, the vector at `k`. -/
theorem bcast_c_11c_apply {c : ℕ} (v : (⟨1, ![c]⟩ : Shape).Idx → α)
    (h : (⟨1, ![c]⟩ : Shape).BroadcastsInDim ⟨3, ![1, 1, c]⟩ ![2]) (u u' : Fin 1) (k : Fin c) :
    broadcastInDim ⟨3, ![1, 1, c]⟩ ![2] h v (ix3 u u' k) = v (ix1 k) := by
  refine broadcastInDim_apply _ h v (ix3 u u' k) (ix1 k) fun ax => ?_
  match ax with
  | ⟨0, _⟩ =>
    show k.val = if c = 1 then 0 else k.val
    split
    · have := k.isLt; omega
    · rfl

/-- A `[1, 1, c]` array repeated along the first two axes of `[a, b, c]` reads, at `(p, q, k)`, the array at `(0, 0, k)`. -/
theorem bcast_11c_abc_apply {a b c : ℕ} (v : (⟨3, ![1, 1, c]⟩ : Shape).Idx → α)
    (h : (⟨3, ![1, 1, c]⟩ : Shape).BroadcastsInDim ⟨3, ![a, b, c]⟩ ![0, 1, 2]) (p : Fin a) (q : Fin b) (k : Fin c) :
    broadcastInDim ⟨3, ![a, b, c]⟩ ![0, 1, 2] h v (ix3 p q k) = v (ix3 (0 : Fin 1) (0 : Fin 1) k) := by
  refine broadcastInDim_apply _ h v (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A length-`c` vector repeated over every row of `[a, b, c]` (through `[1, 1, c]`) reads, at `(p, q, k)`, the vector
    at `k`. -/
theorem bcast_row_apply {a b c : ℕ} (v : (⟨1, ![c]⟩ : Shape).Idx → α)
    (h1 : (⟨1, ![c]⟩ : Shape).BroadcastsInDim ⟨3, ![1, 1, c]⟩ ![2])
    (h2 : (⟨3, ![1, 1, c]⟩ : Shape).BroadcastsInDim ⟨3, ![a, b, c]⟩ ![0, 1, 2]) (p : Fin a) (q : Fin b) (k : Fin c) :
    broadcastInDim ⟨3, ![a, b, c]⟩ ![0, 1, 2] h2 (broadcastInDim ⟨3, ![1, 1, c]⟩ ![2] h1 v) (ix3 p q k) = v (ix1 k) := by
  rw [bcast_11c_abc_apply, bcast_c_11c_apply]

/-! ## Entry-by-entry host functions -/

/-- The host's square root at an entry. -/
theorem hostSqrt_apply {s : Shape} {φ : FTy} (x : FVec Ideal s φ) (i : s.Idx) : Host.sqrt x i = Ideal.sqrt (x i) := rfl

/-- The host's exponential at an entry. -/
theorem hostExp_apply {s : Shape} {φ : FTy} (x : FVec Ideal s φ) (i : s.Idx) : Host.exp x i = Ideal.exp (x i) := rfl

/-! ## The product of rows with a matrix's rows -/

section Dot

variable {a b K N : ℕ} {φ₁ φ₂ : FTy}

/-- The dimension numbers of an `[a, b, K]` array times an `[N, K]` matrix, both contracted over their last axis. -/
abbrev rowsDims (w : DotDims.WF (⟨3, ![a, b, K]⟩ : Shape) (⟨2, ![N, K]⟩ : Shape) (⟨3, ![a, b, N]⟩ : Shape) [2] [1] [0, 1] [0] [] []) :
    DotDims (⟨3, ![a, b, K]⟩ : Shape) (⟨2, ![N, K]⟩ : Shape) (⟨3, ![a, b, N]⟩ : Shape) :=
  ⟨[2], [1], [0, 1], [0], [], [], w⟩

theorem rows_lhs0 (w : DotDims.WF (⟨3, ![a, b, K]⟩ : Shape) (⟨2, ![N, K]⟩ : Shape) (⟨3, ![a, b, N]⟩ : Shape) [2] [1] [0, 1] [0] [] [])
    (j : (⟨3, ![a, b, N]⟩ : Shape).Idx) (c : (rowsDims w).contr.Idx) : ((rowsDims w).lhsIdx j c 0).val = (j 0).val := by
  unfold DotDims.lhsIdx
  rw [dif_neg (show ¬(0 : Fin (⟨3, ![a, b, K]⟩ : Shape).rank) ∈ (rowsDims w).lhsBatch from List.not_mem_nil),
    dif_pos (show (0 : Fin (⟨3, ![a, b, K]⟩ : Shape).rank) ∈ (rowsDims w).lhsNonContracting from List.mem_cons_self)]
  rfl

theorem rows_lhs1 (w : DotDims.WF (⟨3, ![a, b, K]⟩ : Shape) (⟨2, ![N, K]⟩ : Shape) (⟨3, ![a, b, N]⟩ : Shape) [2] [1] [0, 1] [0] [] [])
    (j : (⟨3, ![a, b, N]⟩ : Shape).Idx) (c : (rowsDims w).contr.Idx) : ((rowsDims w).lhsIdx j c 1).val = (j 1).val := by
  unfold DotDims.lhsIdx
  rw [dif_neg (show ¬(1 : Fin (⟨3, ![a, b, K]⟩ : Shape).rank) ∈ (rowsDims w).lhsBatch from List.not_mem_nil),
    dif_pos (show (1 : Fin (⟨3, ![a, b, K]⟩ : Shape).rank) ∈ (rowsDims w).lhsNonContracting from
      List.mem_cons_of_mem _ (List.mem_singleton.mpr rfl))]
  rfl

theorem rows_lhs2 (w : DotDims.WF (⟨3, ![a, b, K]⟩ : Shape) (⟨2, ![N, K]⟩ : Shape) (⟨3, ![a, b, N]⟩ : Shape) [2] [1] [0, 1] [0] [] [])
    (j : (⟨3, ![a, b, N]⟩ : Shape).Idx) (c : (rowsDims w).contr.Idx) :
    ((rowsDims w).lhsIdx j c 2).val = (c ⟨0, Nat.one_pos⟩).val :=
  (rowsDims w).lhsIdx_val_of_single rfl j c

theorem rows_rhs0 (w : DotDims.WF (⟨3, ![a, b, K]⟩ : Shape) (⟨2, ![N, K]⟩ : Shape) (⟨3, ![a, b, N]⟩ : Shape) [2] [1] [0, 1] [0] [] [])
    (j : (⟨3, ![a, b, N]⟩ : Shape).Idx) (c : (rowsDims w).contr.Idx) : ((rowsDims w).rhsIdx j c 0).val = (j 2).val := by
  unfold DotDims.rhsIdx
  rw [dif_neg (show ¬(0 : Fin (⟨2, ![N, K]⟩ : Shape).rank) ∈ (rowsDims w).rhsBatch from List.not_mem_nil),
    dif_pos (show (0 : Fin (⟨2, ![N, K]⟩ : Shape).rank) ∈ (rowsDims w).rhsNonContracting from List.mem_singleton.mpr rfl)]
  rfl

theorem rows_rhs1 (w : DotDims.WF (⟨3, ![a, b, K]⟩ : Shape) (⟨2, ![N, K]⟩ : Shape) (⟨3, ![a, b, N]⟩ : Shape) [2] [1] [0, 1] [0] [] [])
    (j : (⟨3, ![a, b, N]⟩ : Shape).Idx) (c : (rowsDims w).contr.Idx) :
    ((rowsDims w).rhsIdx j c 1).val = (c ⟨0, Nat.one_pos⟩).val :=
  (rowsDims w).rhsIdx_val_of_single rfl j c

/-- At `(p, q, e)` the product of an `[a, b, K]` array with an `[N, K]` matrix over their last axes is
    `∑ k, l[p,q,k] · r[e,k]`. -/
theorem dot_rows_apply (w : DotDims.WF (⟨3, ![a, b, K]⟩ : Shape) (⟨2, ![N, K]⟩ : Shape) (⟨3, ![a, b, N]⟩ : Shape) [2] [1] [0, 1] [0] [] [])
    (prec : Option ContractPrecision) (sched : HostSchedule)
    (l : FVec Ideal ⟨3, ![a, b, K]⟩ φ₁) (r : FVec Ideal ⟨2, ![N, K]⟩ φ₂) (p : Fin a) (q : Fin b) (e : Fin N) :
    FloatOps.dotGeneral (rowsDims w) prec sched l r (ix3 p q e) = ∑ k : Fin K, l (ix3 p q k) * r (ix2 e k) := by
  rw [Ideal.dotGeneral_apply, ← Equiv.sum_comp (contrEquiv1 (rowsDims w) K rfl rfl).symm]
  refine Finset.sum_congr rfl fun k _ => ?_
  have hk := contrEquiv1_symm_val (rowsDims w) K rfl rfl k
  have el : (rowsDims w).lhsIdx (ix3 p q e) ((contrEquiv1 (rowsDims w) K rfl rfl).symm k) = ix3 p q k :=
    funext fun x => Fin.ext (by
      match x with
      | ⟨0, _⟩ => exact rows_lhs0 w _ _
      | ⟨1, _⟩ => exact rows_lhs1 w _ _
      | ⟨2, _⟩ => exact (rows_lhs2 w _ _).trans hk)
  have er : (rowsDims w).rhsIdx (ix3 p q e) ((contrEquiv1 (rowsDims w) K rfl rfl).symm k) = ix2 e k :=
    funext fun x => Fin.ext (by
      match x with
      | ⟨0, _⟩ => exact rows_rhs0 w _ _
      | ⟨1, _⟩ => exact (rows_rhs1 w _ _).trans hk)
  rw [el, er]

end Dot

end Cert.Lib.Rank3

end
-- ==== Proof.KBlocks.lean ====
/-
  What each input window's block holds, as entries of the argument arrays.

  A grid point t stands for batch t / 4 and tile t % 4.  The feature window's block at t is rows 2048 (t % 4) …
  2048 (t % 4) + 2047 of batch t / 4 of the feature array.  The slot window's block is batch t / 4 of the initial
  slots, which the host computed before the call as mu + exp (log_sigma) * noise, mu and log_sigma repeated over the
  batches and the slots.  Each weight window's block index is zero at every point and its block is the whole array.
-/
import proofs.«115225_j9758165696697_2_alg».proof.Proof.KData
import proofs.«115225_j9758165696697_2_alg».proof.Proof.Spec
import proofs.«115225_j9758165696697_2_alg».proof.Proof.LibRank3
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## The block indices, decided over the grid -/

/-- The feature window's block index at point t is (t / 4, t % 4, 0). -/
theorem index_feat : ∀ t : Fin cfg0.N, win0_0.index t (0 : Fin 3) = t.val / 4 ∧ win0_0.index t (1 : Fin 3) = t.val % 4
    ∧ win0_0.index t (2 : Fin 3) = 0 :=
  (by decide +kernel : ∀ t : Fin grid0.N, _)

/-- The slot window's block index at point t is (t / 4, 0, 0). -/
theorem index_slots : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- Window 2's block index is zero at every point. -/
theorem index_w2 : ∀ t : Fin cfg0.N, win0_2.index t (0 : Fin 1) = 0 :=
  (by decide +kernel : ∀ t : Fin grid0.N, _)

/-- Window 3's block index is zero at every point. -/
theorem index_w3 : ∀ t : Fin cfg0.N, win0_3.index t (0 : Fin 1) = 0 :=
  (by decide +kernel : ∀ t : Fin grid0.N, _)

/-- Window 4's block index is zero at every point. -/
theorem index_w4 : ∀ t : Fin cfg0.N, win0_4.index t (0 : Fin 2) = 0 ∧ win0_4.index t (1 : Fin 2) = 0 :=
  (by decide +kernel : ∀ t : Fin grid0.N, _)

/-- Window 5's block index is zero at every point. -/
theorem index_w5 : ∀ t : Fin cfg0.N, win0_5.index t (0 : Fin 1) = 0 :=
  (by decide +kernel : ∀ t : Fin grid0.N, _)

/-- Window 6's block index is zero at every point. -/
theorem index_w6 : ∀ t : Fin cfg0.N, win0_6.index t (0 : Fin 2) = 0 ∧ win0_6.index t (1 : Fin 2) = 0 :=
  (by decide +kernel : ∀ t : Fin grid0.N, _)

/-- Window 7's block index is zero at every point. -/
theorem index_w7 : ∀ t : Fin cfg0.N, win0_7.index t (0 : Fin 1) = 0 :=
  (by decide +kernel : ∀ t : Fin grid0.N, _)

/-- Window 8's block index is zero at every point. -/
theorem index_w8 : ∀ t : Fin cfg0.N, win0_8.index t (0 : Fin 1) = 0 :=
  (by decide +kernel : ∀ t : Fin grid0.N, _)

/-- Window 9's block index is zero at every point. -/
theorem index_w9 : ∀ t : Fin cfg0.N, win0_9.index t (0 : Fin 1) = 0 :=
  (by decide +kernel : ∀ t : Fin grid0.N, _)

/-- Window 10's block index is zero at every point. -/
theorem index_w10 : ∀ t : Fin cfg0.N, win0_10.index t (0 : Fin 2) = 0 ∧ win0_10.index t (1 : Fin 2) = 0 :=
  (by decide +kernel : ∀ t : Fin grid0.N, _)

/-- Window 11's block index is zero at every point. -/
theorem index_w11 : ∀ t : Fin cfg0.N, win0_11.index t (0 : Fin 1) = 0 :=
  (by decide +kernel : ∀ t : Fin grid0.N, _)

/-- Window 12's block index is zero at every point. -/
theorem index_w12 : ∀ t : Fin cfg0.N, win0_12.index t (0 : Fin 2) = 0 ∧ win0_12.index t (1 : Fin 2) = 0 :=
  (by decide +kernel : ∀ t : Fin grid0.N, _)

/-- Window 13's block index is zero at every point. -/
theorem index_w13 : ∀ t : Fin cfg0.N, win0_13.index t (0 : Fin 2) = 0 ∧ win0_13.index t (1 : Fin 2) = 0 :=
  (by decide +kernel : ∀ t : Fin grid0.N, _)

/-- Window 14's block index is zero at every point. -/
theorem index_w14 : ∀ t : Fin cfg0.N, win0_14.index t (0 : Fin 1) = 0 :=
  (by decide +kernel : ∀ t : Fin grid0.N, _)

/-- Window 15's block index is zero at every point. -/
theorem index_w15 : ∀ t : Fin cfg0.N, win0_15.index t (0 : Fin 1) = 0 :=
  (by decide +kernel : ∀ t : Fin grid0.N, _)

/-! ## The blocks -/

section Blocks

variable {F : FTy → Type} [FloatOps F]
variable (m : (ℓ : Loc nD τ sig) → Buf (Elt F) ℓ)

/-- Row r of the feature block at point t is row 2048 (t % 4) + r of batch t / 4. -/
theorem iblk_feat_apply (c : Dev nD) (t : Fin cfg0.N) (r : Fin 2048) (k : Fin 256) (b : Fin 16) (s : Fin 8192)
    (hb : b.val = t.val / 4) (hs : s.val = 2048 * (t.val % 4) + r.val) :
    (iblk m c 0 t : FVec F S1x2048x256 .f32) (ix3 (0 : Fin 1) r k) = m ((c.tc : Thread nD τ).loc main_arg0) (ix3 b s k) := by
  rw [← V_main_arg0 m c]
  show V m c main_arg0 (((cfg0.win 0).blk t).view.emb (ix3 (0 : Fin 1) r k)) = V m c main_arg0 (ix3 b s k)
  refine congrArg (V m c main_arg0) (funext fun a => Fin.ext ?_)
  obtain ⟨e0, e1, e2⟩ := index_feat t
  match a with
  | ⟨0, _⟩ =>
    show win0_0.index t (0 : Fin 3) * 1 + 1 * 0 = b.val
    omega
  | ⟨1, _⟩ =>
    show win0_0.index t (1 : Fin 3) * 2048 + 1 * r.val = s.val
    omega
  | ⟨2, _⟩ =>
    show win0_0.index t (2 : Fin 3) * 256 + 1 * k.val = k.val
    omega

/-- The slot block at point t is batch t / 4 of the array the host computed before the call. -/
theorem iblk_slots_apply (c : Dev nD) (t : Fin cfg0.N) (n : Fin 10) (d : Fin 256) (b : Fin 16) (hb : b.val = t.val / 4) :
    (iblk m c 1 t : FVec F S1x10x256 .f32) (ix3 (0 : Fin 1) n d) = V m c main_v4 (ix3 b n d) := by
  show V m c main_v4 (((cfg0.win 1).blk t).view.emb (ix3 (0 : Fin 1) n d)) = V m c main_v4 (ix3 b n d)
  refine congrArg (V m c main_v4) (funext fun a => Fin.ext ?_)
  obtain ⟨e0, e1, e2⟩ := index_slots t
  match a with
  | ⟨0, _⟩ =>
    show win0_1.index t (0 : Fin 3) * 1 + 1 * 0 = b.val
    omega
  | ⟨1, _⟩ =>
    show win0_1.index t (1 : Fin 3) * 10 + 1 * n.val = n.val
    omega
  | ⟨2, _⟩ =>
    show win0_1.index t (2 : Fin 3) * 256 + 1 * d.val = d.val
    omega

/-- The array of initial slots as the region finds it: the host's five operations on the argument arrays. -/
theorem V_slots (c : Dev nD) :
    (V m c main_v4 : FVec F S16x10x256 .f32)
      = addf (broadcastInDim S16x10x256 ![0, 1, 2] bcast_S1x1x256_S16x10x256_0_1_2 (m ((c.tc : Thread nD τ).loc main_arg2)))
          (mulf (broadcastInDim S16x10x256 ![0, 1, 2] bcast_S1x1x256_S16x10x256_0_1_2
              (Host.exp (m ((c.tc : Thread nD τ).loc main_arg3))))
            (m ((c.tc : Thread nD τ).loc main_arg1))) := by
  dsimp only [Gen.V, Gen.hostOps0]
  after_results

/-- Window 2's block at every point is the whole of its argument array. -/
theorem iblk_w2_eq (c : Dev nD) (t : Fin cfg0.N) :
    (iblk m c 2 t : FVec F S256 .f32) = m ((c.tc : Thread nD τ).loc main_arg4) := by
  rw [← V_main_arg4 m c]
  funext j
  show V m c main_arg4 (((cfg0.win 2).blk t).view.emb j) = V m c main_arg4 j
  refine congrArg (V m c main_arg4) (funext fun a => Fin.ext ?_)
  have e0 := index_w2 t
  match a with
  | ⟨0, _⟩ =>
    show win0_2.index t (0 : Fin 1) * 256 + 1 * (j 0).val = (j 0).val
    omega

/-- Window 3's block at every point is the whole of its argument array. -/
theorem iblk_w3_eq (c : Dev nD) (t : Fin cfg0.N) :
    (iblk m c 3 t : FVec F S256 .f32) = m ((c.tc : Thread nD τ).loc main_arg5) := by
  rw [← V_main_arg5 m c]
  funext j
  show V m c main_arg5 (((cfg0.win 3).blk t).view.emb j) = V m c main_arg5 j
  refine congrArg (V m c main_arg5) (funext fun a => Fin.ext ?_)
  have e0 := index_w3 t
  match a with
  | ⟨0, _⟩ =>
    show win0_3.index t (0 : Fin 1) * 256 + 1 * (j 0).val = (j 0).val
    omega

/-- Window 4's block at every point is the whole of its argument array. -/
theorem iblk_w4_eq (c : Dev nD) (t : Fin cfg0.N) :
    (iblk m c 4 t : FVec F S256x256 .f32) = m ((c.tc : Thread nD τ).loc main_arg10) := by
  rw [← V_main_arg10 m c]
  funext j
  show V m c main_arg10 (((cfg0.win 4).blk t).view.emb j) = V m c main_arg10 j
  refine congrArg (V m c main_arg10) (funext fun a => Fin.ext ?_)
  obtain ⟨e0, e1⟩ := index_w4 t
  match a with
  | ⟨0, _⟩ =>
    show win0_4.index t (0 : Fin 2) * 256 + 1 * (j 0).val = (j 0).val
    omega
  | ⟨1, _⟩ =>
    show win0_4.index t (1 : Fin 2) * 256 + 1 * (j 1).val = (j 1).val
    omega

/-- Window 5's block at every point is the whole of its argument array. -/
theorem iblk_w5_eq (c : Dev nD) (t : Fin cfg0.N) :
    (iblk m c 5 t : FVec F S256 .f32) = m ((c.tc : Thread nD τ).loc main_arg11) := by
  rw [← V_main_arg11 m c]
  funext j
  show V m c main_arg11 (((cfg0.win 5).blk t).view.emb j) = V m c main_arg11 j
  refine congrArg (V m c main_arg11) (funext fun a => Fin.ext ?_)
  have e0 := index_w5 t
  match a with
  | ⟨0, _⟩ =>
    show win0_5.index t (0 : Fin 1) * 256 + 1 * (j 0).val = (j 0).val
    omega

/-- Window 6's block at every point is the whole of its argument array. -/
theorem iblk_w6_eq (c : Dev nD) (t : Fin cfg0.N) :
    (iblk m c 6 t : FVec F S256x256 .f32) = m ((c.tc : Thread nD τ).loc main_arg12) := by
  rw [← V_main_arg12 m c]
  funext j
  show V m c main_arg12 (((cfg0.win 6).blk t).view.emb j) = V m c main_arg12 j
  refine congrArg (V m c main_arg12) (funext fun a => Fin.ext ?_)
  obtain ⟨e0, e1⟩ := index_w6 t
  match a with
  | ⟨0, _⟩ =>
    show win0_6.index t (0 : Fin 2) * 256 + 1 * (j 0).val = (j 0).val
    omega
  | ⟨1, _⟩ =>
    show win0_6.index t (1 : Fin 2) * 256 + 1 * (j 1).val = (j 1).val
    omega

/-- Window 7's block at every point is the whole of its argument array. -/
theorem iblk_w7_eq (c : Dev nD) (t : Fin cfg0.N) :
    (iblk m c 7 t : FVec F S256 .f32) = m ((c.tc : Thread nD τ).loc main_arg13) := by
  rw [← V_main_arg13 m c]
  funext j
  show V m c main_arg13 (((cfg0.win 7).blk t).view.emb j) = V m c main_arg13 j
  refine congrArg (V m c main_arg13) (funext fun a => Fin.ext ?_)
  have e0 := index_w7 t
  match a with
  | ⟨0, _⟩ =>
    show win0_7.index t (0 : Fin 1) * 256 + 1 * (j 0).val = (j 0).val
    omega

/-- Window 8's block at every point is the whole of its argument array. -/
theorem iblk_w8_eq (c : Dev nD) (t : Fin cfg0.N) :
    (iblk m c 8 t : FVec F S256 .f32) = m ((c.tc : Thread nD τ).loc main_arg6) := by
  rw [← V_main_arg6 m c]
  funext j
  show V m c main_arg6 (((cfg0.win 8).blk t).view.emb j) = V m c main_arg6 j
  refine congrArg (V m c main_arg6) (funext fun a => Fin.ext ?_)
  have e0 := index_w8 t
  match a with
  | ⟨0, _⟩ =>
    show win0_8.index t (0 : Fin 1) * 256 + 1 * (j 0).val = (j 0).val
    omega

/-- Window 9's block at every point is the whole of its argument array. -/
theorem iblk_w9_eq (c : Dev nD) (t : Fin cfg0.N) :
    (iblk m c 9 t : FVec F S256 .f32) = m ((c.tc : Thread nD τ).loc main_arg7) := by
  rw [← V_main_arg7 m c]
  funext j
  show V m c main_arg7 (((cfg0.win 9).blk t).view.emb j) = V m c main_arg7 j
  refine congrArg (V m c main_arg7) (funext fun a => Fin.ext ?_)
  have e0 := index_w9 t
  match a with
  | ⟨0, _⟩ =>
    show win0_9.index t (0 : Fin 1) * 256 + 1 * (j 0).val = (j 0).val
    omega

/-- Window 10's block at every point is the whole of its argument array. -/
theorem iblk_w10_eq (c : Dev nD) (t : Fin cfg0.N) :
    (iblk m c 10 t : FVec F S256x256 .f32) = m ((c.tc : Thread nD τ).loc main_arg8) := by
  rw [← V_main_arg8 m c]
  funext j
  show V m c main_arg8 (((cfg0.win 10).blk t).view.emb j) = V m c main_arg8 j
  refine congrArg (V m c main_arg8) (funext fun a => Fin.ext ?_)
  obtain ⟨e0, e1⟩ := index_w10 t
  match a with
  | ⟨0, _⟩ =>
    show win0_10.index t (0 : Fin 2) * 256 + 1 * (j 0).val = (j 0).val
    omega
  | ⟨1, _⟩ =>
    show win0_10.index t (1 : Fin 2) * 256 + 1 * (j 1).val = (j 1).val
    omega

/-- Window 11's block at every point is the whole of its argument array. -/
theorem iblk_w11_eq (c : Dev nD) (t : Fin cfg0.N) :
    (iblk m c 11 t : FVec F S256 .f32) = m ((c.tc : Thread nD τ).loc main_arg9) := by
  rw [← V_main_arg9 m c]
  funext j
  show V m c main_arg9 (((cfg0.win 11).blk t).view.emb j) = V m c main_arg9 j
  refine congrArg (V m c main_arg9) (funext fun a => Fin.ext ?_)
  have e0 := index_w11 t
  match a with
  | ⟨0, _⟩ =>
    show win0_11.index t (0 : Fin 1) * 256 + 1 * (j 0).val = (j 0).val
    omega

/-- Window 12's block at every point is the whole of its argument array. -/
theorem iblk_w12_eq (c : Dev nD) (t : Fin cfg0.N) :
    (iblk m c 12 t : FVec F S768x256 .f32) = m ((c.tc : Thread nD τ).loc main_arg14) := by
  rw [← V_main_arg14 m c]
  funext j
  show V m c main_arg14 (((cfg0.win 12).blk t).view.emb j) = V m c main_arg14 j
  refine congrArg (V m c main_arg14) (funext fun a => Fin.ext ?_)
  obtain ⟨e0, e1⟩ := index_w12 t
  match a with
  | ⟨0, _⟩ =>
    show win0_12.index t (0 : Fin 2) * 768 + 1 * (j 0).val = (j 0).val
    omega
  | ⟨1, _⟩ =>
    show win0_12.index t (1 : Fin 2) * 256 + 1 * (j 1).val = (j 1).val
    omega

/-- Window 13's block at every point is the whole of its argument array. -/
theorem iblk_w13_eq (c : Dev nD) (t : Fin cfg0.N) :
    (iblk m c 13 t : FVec F S768x256 .f32) = m ((c.tc : Thread nD τ).loc main_arg15) := by
  rw [← V_main_arg15 m c]
  funext j
  show V m c main_arg15 (((cfg0.win 13).blk t).view.emb j) = V m c main_arg15 j
  refine congrArg (V m c main_arg15) (funext fun a => Fin.ext ?_)
  obtain ⟨e0, e1⟩ := index_w13 t
  match a with
  | ⟨0, _⟩ =>
    show win0_13.index t (0 : Fin 2) * 768 + 1 * (j 0).val = (j 0).val
    omega
  | ⟨1, _⟩ =>
    show win0_13.index t (1 : Fin 2) * 256 + 1 * (j 1).val = (j 1).val
    omega

/-- Window 14's block at every point is the whole of its argument array. -/
theorem iblk_w14_eq (c : Dev nD) (t : Fin cfg0.N) :
    (iblk m c 14 t : FVec F S768 .f32) = m ((c.tc : Thread nD τ).loc main_arg16) := by
  rw [← V_main_arg16 m c]
  funext j
  show V m c main_arg16 (((cfg0.win 14).blk t).view.emb j) = V m c main_arg16 j
  refine congrArg (V m c main_arg16) (funext fun a => Fin.ext ?_)
  have e0 := index_w14 t
  match a with
  | ⟨0, _⟩ =>
    show win0_14.index t (0 : Fin 1) * 768 + 1 * (j 0).val = (j 0).val
    omega

/-- Window 15's block at every point is the whole of its argument array. -/
theorem iblk_w15_eq (c : Dev nD) (t : Fin cfg0.N) :
    (iblk m c 15 t : FVec F S768 .f32) = m ((c.tc : Thread nD τ).loc main_arg17) := by
  rw [← V_main_arg17 m c]
  funext j
  show V m c main_arg17 (((cfg0.win 15).blk t).view.emb j) = V m c main_arg17 j
  refine congrArg (V m c main_arg17) (funext fun a => Fin.ext ?_)
  have e0 := index_w15 t
  match a with
  | ⟨0, _⟩ =>
    show win0_15.index t (0 : Fin 1) * 768 + 1 * (j 0).val = (j 0).val
    omega

end Blocks

end Cert.KernelIdeal.Hand

end
-- ==== Proof.LibRowReduce.lean ====
/-
  A matrix reduced along its rows, read at a row.

  Over an `[a, b]` matrix a lane reduction along axis 1 leaves one value per row: the sum of the row's `b`
  entries for `add`, and for `maximumf` the fold of `max` over them from the accumulator's value. The host's
  one-operand reduce with a maximum body reads the same way from its initial value.
-/
import Idealize.ShloMosaic.PureOps.Ideal.Laws
import Idealize.ShloMosaic.Lib.ValueIdx
import Idealize.ShloMosaic.Lib.IdealHost

noncomputable section

namespace Cert.Lib.RowReduce

open Idealize.ShloMosaic Idealize.ShloMosaic.ValueIdx

/-- Row `p` with the column `k` put back is the entry `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A lane sum along axis 1 of an `[a, b]` matrix, at row `p`, is the sum of that row's entries. -/
theorem rowSum_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ X 0x00000000#32 h hφ hacc (ix1 p) = ∑ k : Fin b, X (ix2 p k) :=
  (Ideal.multiReduction_add_single X 0x00000000#32 h hφ hacc (ix1 p)).trans
    (Finset.sum_congr rfl fun k _ => congrArg X (lift_row h p k))

/-- A lane maximum along axis 1 of an `[a, b]` matrix, at row `p`, is the fold of `max` over that row's entries from
    the accumulator's value. -/
theorem rowMax_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0xFF800000#32 : BitVec 32) = 0xFF800000#32) (p : Fin a) :
    multiReduction .maximumf [1] ⟨1, ![a]⟩ X 0xFF800000#32 h hφ hacc (ix1 p)
      = (Finset.univ : Finset (Fin b)).fold max (Ideal.ofBits .f32 0xFF800000#32) (fun k => X (ix2 p k)) :=
  (Ideal.multiReduction_maximumf_single X 0xFF800000#32 h hφ hacc (ix1 p)).trans
    (congrArg (fun f => Finset.fold max (Ideal.ofBits .f32 0xFF800000#32) f (Finset.univ : Finset (Fin b)))
      (funext fun k => congrArg X (lift_row h p k)))

/-- A host reduction's shape fact along axis 1 of a matrix is also the lane reduction's (the reduced shape has an axis). -/
theorem reduces_of_reducesTo {a b : ℕ} (h' : (⟨2, ![a, b]⟩ : Shape).ReducesTo [1] (⟨1, ![a]⟩ : Shape)) :
    (⟨2, ![a, b]⟩ : Shape).Reduces [1] (⟨1, ![a]⟩ : Shape) := ⟨h'.1, Nat.one_pos, h'.2⟩

/-- The host's reduce with a maximum body along axis 1 of an `[a, b]` matrix, at row `p`, is the fold of `max` over that
    row's entries from the initial value. -/
theorem hostRowMax_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduce FloatOps.maximumf X init h' hu (ix1 p)
      = (Finset.univ : Finset (Fin b)).fold max (init ix0) (fun k => X (ix2 p k)) := by
  have h := reduces_of_reducesTo h'
  rw [Host.reduce_eq_fold_single FloatOps.maximumf X init h' h hu]
  have hi : init (Shape.Idx.first hu) = init ix0 := congrArg init (eq_ix0 _)
  rw [hi]
  exact congrArg (fun f => Finset.fold max (init ix0) f (Finset.univ : Finset (Fin b)))
    (funext fun k => congrArg X (lift_row h p k))

/-- The host's float sum along axis 1 of an `[a, b]` matrix, at row `p`, is the initial value plus the sum of that row's
    entries. -/
theorem hostRowSum_apply {a b : ℕ} (X : FVec Ideal ⟨2, ![a, b]⟩ .f32) (init : FVec Ideal ⟨0, ![]⟩ .f32)
    (h' : (⟨2, ![a, b]⟩ : Shape).ReducesTo [1] (⟨1, ![a]⟩ : Shape)) (hu : 0 < (⟨0, ![]⟩ : Shape).numel) (p : Fin a) :
    Host.reduceAdd X init h' hu (ix1 p) = init ix0 + ∑ k : Fin b, X (ix2 p k) := by
  have h := reduces_of_reducesTo h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_row h p k))

end Cert.Lib.RowReduce

end
-- ==== Proof.LibCastBroadcast.lean ====
/-
  A vector laid along one axis of a matrix and repeated along the other, read at an entry.

  A length-`a` vector cast to a column `[a, 1]` and broadcast to `[a, b]` holds, at `(p, c)`, the vector's entry `p`
  (every column is the vector); a length-`b` vector cast to a row `[1, b]` and broadcast to `[a, b]` holds, at `(p, c)`,
  the vector's entry `c` (every row is the vector).
-/
import Idealize.ShloMosaic.Lib.Pipeline.Value
import Idealize.ShloMosaic.Lib.ValueIdx
import Idealize.ShloMosaic.Lib.ValueLayout

noncomputable section

namespace Cert.Lib.CastBroadcast

open Idealize.ShloMosaic Idealize.ShloMosaic.ValueIdx

variable {α : Type}

/-- An `[a]` vector cast to a column `[a, 1]` reads, at `(p, u)`, the vector at `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector as the columns of a matrix: cast to `[a, 1]`, broadcast to `[a, b]`, read at `(p, c)`, it is the vector at `p`. -/
theorem column_apply {a b : ℕ} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (broadcastTo_a1_ab_apply _ h2 p c).trans (shapeCast_a_a1_apply v h1 p 0)

/-- A vector as the rows of a matrix: cast to `[1, b]`, broadcast to `[a, b]`, read at `(p, c)`, it is the vector at `c`. -/
theorem row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

end Cert.Lib.CastBroadcast

end
-- ==== Proof.KTileNorm.lean ====
/-
  The normalised feature block of the kernel's body, read at an entry.

  The body drops the block's leading unit axis, sums each row over its 256 lanes, divides the sums (kept as a column)
  by the word 256, spreads the column of means along the lanes and subtracts it; it squares the deviations, sums and
  divides again for the variances, adds the small constant, takes the reciprocal square root of that column, spreads
  it along the lanes, multiplies, and finally scales and shifts by the two weight rows.  At the entry (r, k) that is
  the specification's layer normalisation of row r of the block, at lane k.
-/
import proofs.«115225_j9758165696697_2_alg».proof.Proof.Gen.KernelIdeal.Skeleton
import proofs.«115225_j9758165696697_2_alg».proof.Proof.Spec
import proofs.«115225_j9758165696697_2_alg».proof.Proof.LibRowReduce
import proofs.«115225_j9758165696697_2_alg».proof.Proof.LibCastBroadcast
import Idealize.ShloMosaic.Lib.ValueIdx
import Idealize.ShloMosaic.Lib.ValueLayout
import Idealize.ShloMosaic.Lib.Pipeline.Value

noncomputable section

open scoped BigOperators

namespace Cert.KernelIdeal.Hand

open Idealize.ShloMosaic Idealize.ShloMosaic.ValueIdx Cert.KernelIdeal Cert.KernelIdeal.Gen

namespace Tile

/-- A reciprocal square root at an index is the reciprocal square root of the element. -/
theorem rsqrt_apply {s : Shape} {φ : FTy} (a : FVec Ideal s φ) (i : s.Idx) : rsqrt a i = Ideal.rsqrt (a i) := rfl

section Columns

variable (X : FVec Ideal S2048x256 .f32)
  (hr : S2048x256.Reduces [1] S2048) (hφ : FTy.f32 = FTy.f32 ∨ FTy.f32 = FTy.bf16)
  (hacc : (0x00000000#32 : BitVec 32) = 0x00000000#32)
  (h1 : S2048.ShapeCasts S2048x1) (h2 : S2048x1.Broadcasts S2048x256)

/-- The column of the rows' lane sums over a constant c, spread along the lanes: at (r, k) it is the sum of row r over c. -/
theorem sumCol_apply (c : EReal) (r : Fin 2048) (k : Fin 256) :
    broadcastTo S2048x256 (divf (shapeCast S2048x1 (multiReduction (F := Ideal) .add [1] S2048 X 0x00000000#32 hr hφ hacc) h1)
        (broadcast S2048x1 c)) h2 (ix2 r k)
      = Ideal.div (∑ k' : Fin 256, X (ix2 r k')) c :=
  (Cert.Lib.CastBroadcast.broadcastTo_a1_ab_apply _ h2 r k).trans
    (congrArg (fun t => Ideal.div t c)
      ((Cert.Lib.CastBroadcast.shapeCast_a_a1_apply _ h1 r 0).trans (Cert.Lib.RowReduce.rowSum_apply X hr hφ hacc r)))

/-- The reciprocal square root of that column plus a constant e, spread along the lanes. -/
theorem rstdCol_apply (c e : EReal) (r : Fin 2048) (k : Fin 256) :
    broadcastTo S2048x256 (rsqrt (addf (divf (shapeCast S2048x1 (multiReduction (F := Ideal) .add [1] S2048 X 0x00000000#32 hr hφ hacc) h1)
        (broadcast S2048x1 c)) (broadcast S2048x1 e))) h2 (ix2 r k)
      = Ideal.rsqrt (Ideal.div (∑ k' : Fin 256, X (ix2 r k')) c + e) :=
  (Cert.Lib.CastBroadcast.broadcastTo_a1_ab_apply _ h2 r k).trans
    (congrArg (fun t => Ideal.rsqrt (Ideal.div t c + e))
      ((Cert.Lib.CastBroadcast.shapeCast_a_a1_apply _ h1 r 0).trans (Cert.Lib.RowReduce.rowSum_apply X hr hφ hacc r)))

/-- The same when the summed matrix is the square of the deviations from the spread column of means: at (r, k) the
    reciprocal square root of (the sum over row r of the squared deviations from the row's mean, over c, plus e). -/
theorem rstdVarCol_apply (c e : EReal) (r : Fin 2048) (k : Fin 256) :
    broadcastTo S2048x256 (rsqrt (addf (divf (shapeCast S2048x1 (multiReduction (F := Ideal) .add [1] S2048
        (mulf
          (subf X (broadcastTo S2048x256 (divf (shapeCast S2048x1 (multiReduction (F := Ideal) .add [1] S2048 X 0x00000000#32 hr hφ hacc) h1)
            (broadcast S2048x1 c)) h2))
          (subf X (broadcastTo S2048x256 (divf (shapeCast S2048x1 (multiReduction (F := Ideal) .add [1] S2048 X 0x00000000#32 hr hφ hacc) h1)
            (broadcast S2048x1 c)) h2)))
        0x00000000#32 hr hφ hacc) h1)
        (broadcast S2048x1 c)) (broadcast S2048x1 e))) h2 (ix2 r k)
      = Ideal.rsqrt (Ideal.div (∑ k' : Fin 256,
          (X (ix2 r k') - Ideal.div (∑ k'' : Fin 256, X (ix2 r k'')) c)
            * (X (ix2 r k') - Ideal.div (∑ k'' : Fin 256, X (ix2 r k'')) c)) c + e) :=
  (rstdCol_apply _ hr hφ hacc h1 h2 c e r k).trans
    (congrArg (fun t => Ideal.rsqrt (Ideal.div t c + e))
      (Finset.sum_congr rfl fun k' _ =>
        congrArg (fun t => (X (ix2 r k') - t) * (X (ix2 r k') - t)) (sumCol_apply X hr hφ hacc h1 h2 c r k')))

end Columns

end Tile

open Tile

/-- The normalised, rounded feature block at (r, k): the layer normalisation of row r of the block at lane k. -/
theorem pay27_apply (x0 : Vec Ideal S1x2048x256 .f32) (nw nb : Vec Ideal S256 .f32) (r : Fin 2048) (k : Fin 256) :
    k0_pay27 (F := Ideal) x0 nw nb (ix2 r k)
      = Cert.Spec.lnK (fun k => x0 (ix3 0 r k)) (fun k => nw (ix1 k)) (fun k => nb (ix1 k)) k := by
  unfold k0_pay27
  simp only [truncf_apply, addf_apply, mulf_apply, subf_apply, Cert.Lib.CastBroadcast.row_apply, shapeCast_1ab_ab_apply]
  rw [sumCol_apply, rstdVarCol_apply]
  simp only [shapeCast_1ab_ab_apply]
  rfl

end Cert.KernelIdeal.Hand

end
-- ==== Proof.LibDotTransposedRhs.lean ====
/-
  The host's product against a transposed right operand at the exact instance, read at an entry.

  For an `M × K` left operand and an `N × K` right operand, both contracted over their last axis, the entry at
  `(a, b)` is the sum over `k` of `l[a,k] · r[b,k]`: on the extended reals the product is the exact sum.
-/
import Idealize.ShloMosaic.Lib.ValueIdx
import Idealize.ShloMosaic.PureOps.Ideal.Laws

noncomputable section

namespace Cert.Lib.DotTransposedRhs

open Idealize.ShloMosaic Idealize.ShloMosaic.ValueIdx

variable {M K N : ℕ} {φ₁ φ₂ : FTy}

theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The `(a, b)` entry of the host's `M × K` by `N × K` product is `∑ k, l[a,k] · r[b,k]`. -/
theorem dotGeneral_transposedRhs_apply (prec : Option ContractPrecision) (sched : HostSchedule)
    (l : FVec Ideal ⟨2, ![M, K]⟩ φ₁) (r : FVec Ideal ⟨2, ![N, K]⟩ φ₂) (a : Fin M) (b : Fin N) :
    FloatOps.dotGeneral (DotDims.transposedRhs M K N) prec sched l r (ix2 a b)
      = ∑ k : Fin K, l (ix2 a k) * r (ix2 b k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun x => Fin.ext (by
      match x with
      | ⟨0, _⟩ => exact lhs_row _ _
      | ⟨1, _⟩ => exact (lhs_col _ _).trans hk)
  have er : (DotDims.transposedRhs M K N).rhsIdx (ix2 a b) ((contrEquiv1 (DotDims.transposedRhs M K N) K rfl rfl).symm k) = ix2 b k :=
    funext fun x => Fin.ext (by
      match x with
      | ⟨0, _⟩ => exact rhs_row _ _
      | ⟨1, _⟩ => exact (rhs_col _ _).trans hk)
  rw [el, er]

end Cert.Lib.DotTransposedRhs

end
-- ==== Proof.KTileMat.lean ====
/-
  The matrix unit's product against a transposed right operand, into a zero accumulator, read at an entry.

  For an M × K left operand and an N × K right operand, both contracted over their last axis, the entry at (a, b) is
  the sum over k of l[a,k] · r[b,k]: on the extended reals the product is the exact sum and the zero accumulator adds
  nothing.
-/
import proofs.«115225_j9758165696697_2_alg».proof.Proof.LibDotTransposedRhs
import Idealize.ShloMosaic.Lib.ValueIdx
import Idealize.ShloMosaic.PureOps.Ideal.Laws

noncomputable section

open scoped BigOperators

namespace Cert.KernelIdeal.Hand.Tile

open Idealize.ShloMosaic Idealize.ShloMosaic.ValueIdx Cert.Lib.DotTransposedRhs

variable {M K N : ℕ} {φ₁ φ₂ : FTy}

/-- The (a, b) entry of the M × K by N × K product into the zero splat is ∑ k, l[a,k] · r[b,k]. -/
theorem matmul_transposedRhs_zero_apply (prec : Option ContractPrecision)
    (l : FVec Ideal ⟨2, ![M, K]⟩ φ₁) (r : FVec Ideal ⟨2, ![N, K]⟩ φ₂) (a : Fin M) (b : Fin N) :
    FloatOps.matmul (DotDims.transposedRhs M K N) prec l r (constant (F := Ideal) ⟨2, ![M, N]⟩ .f32 0x00000000#32) (ix2 a b)
      = ∑ k : Fin K, l (ix2 a k) * r (ix2 b k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun x => Fin.ext (by
      match x with
      | ⟨0, _⟩ => exact lhs_row _ _
      | ⟨1, _⟩ => exact (lhs_col _ _).trans hk)
  have er : (DotDims.transposedRhs M K N).rhsIdx (ix2 a b) ((contrEquiv1 (DotDims.transposedRhs M K N) K rfl rfl).symm k) = ix2 b k :=
    funext fun x => Fin.ext (by
      match x with
      | ⟨0, _⟩ => exact rhs_row _ _
      | ⟨1, _⟩ => exact (rhs_col _ _).trans hk)
  rw [el, er]

end Cert.KernelIdeal.Hand.Tile

end
-- ==== Proof.SpecLaws.lean ====
/-
  Laws of the specification on the extended reals.

  The variance of a row is a sum of squares over the real 256, hence nonnegative (a square is nonnegative on the
  extended reals too: the square of either infinity is plus infinity); with the positive constant added it is
  positive.  At a positive argument v, dividing by sqrt v is multiplying by rsqrt v: for a positive real both are
  the product with the reciprocal of the real root, and at plus infinity both are the product with zero.  So the two
  forms of layer normalisation are one function.
-/
import proofs.«115225_j9758165696697_2_alg».proof.Proof.Spec
import Idealize.ShloMosaic.PureOps.Ideal.Laws

noncomputable section

open scoped BigOperators

namespace Cert.Spec

open Idealize.ShloMosaic

/-- The word 0x00000000 is zero. -/
theorem zero_word : Ideal.ofBits .f32 0x00000000#32 = 0 := Ideal.ofBits_zero_f32

/-- The word for 256 is the real 256. -/
theorem c256_eq : c256 = ((256 : ℝ) : EReal) := by
  simp [c256, Ideal.ofBits, Ideal.ieee]
  rw [← EReal.coe_mul]
  norm_num

/-- The normalisation's constant is a positive real. -/
theorem epsLn_pos : ∃ r : ℝ, 0 < r ∧ epsLn = (r : EReal) := by
  refine ⟨(10995116 : ℝ) * ((2 : ℝ) ^ 40)⁻¹, by positivity, ?_⟩
  simp [epsLn, Ideal.ofBits, Ideal.ieee]

/-- A square is nonnegative on the extended reals. -/
theorem mul_self_nonneg (y : EReal) : 0 ≤ y * y := by
  rw [EReal.mul_nonneg_iff]
  rcases le_total 0 y with h | h
  · exact Or.inl ⟨h, h⟩
  · exact Or.inr ⟨h, h⟩

/-- Division by the word 256 is the product with the real 1/256. -/
theorem div_c256 (a : EReal) : Ideal.div a c256 = a * (((1 : ℝ) / 256 : ℝ) : EReal) := by
  rw [c256_eq, Ideal.div_coe (by norm_num)]

/-- The variance is nonnegative. -/
theorem var_nonneg (x : Fin 256 → EReal) : 0 ≤ var x := by
  rw [var, div_c256]
  refine EReal.mul_nonneg (Finset.sum_nonneg fun k _ => mul_self_nonneg _) ?_
  exact EReal.coe_nonneg.2 (by norm_num)

/-- The variance plus the constant is positive. -/
theorem var_add_eps_pos (x : Fin 256 → EReal) : 0 < var x + epsLn := by
  obtain ⟨r, hr, he⟩ := epsLn_pos
  rw [he]
  calc (0 : EReal) < (r : EReal) := EReal.coe_pos.2 hr
    _ = 0 + (r : EReal) := (zero_add _).symm
    _ ≤ var x + (r : EReal) := add_le_add (var_nonneg x) le_rfl

/-- At a positive argument, dividing by the square root is multiplying by the reciprocal square root. -/
theorem div_sqrt_eq_mul_rsqrt (a v : EReal) (hv : 0 < v) : Ideal.div a (Ideal.sqrt v) = a * Ideal.rsqrt v := by
  induction v using EReal.rec with
  | bot => exact absurd hv (not_lt_bot)
  | top =>
    rw [Ideal.sqrt_top, Ideal.rsqrt_top, Ideal.div, if_neg EReal.top_ne_zero, EReal.inv_top]
  | coe r =>
    have hr : 0 < r := EReal.coe_pos.1 hv
    have hs : Real.sqrt r ≠ 0 := (Real.sqrt_pos.2 hr).ne'
    rw [Ideal.sqrt_coe, Ideal.rsqrt_coe, if_neg (not_lt.2 hr.le), if_neg (not_lt.2 hr.le), if_neg hr.ne',
      Ideal.div_coe hs, one_div]

/-- The two forms of layer normalisation agree. -/
theorem lnR_eq_lnK (x w b : Fin 256 → EReal) (d : Fin 256) : lnR x w b d = lnK x w b d := by
  rw [lnR, lnK, div_sqrt_eq_mul_rsqrt _ _ (var_add_eps_pos x)]

end Cert.Spec

end
-- ==== Proof.KTile.lean ====
/-
  The key tile and the value tile of the kernel's body, read at an entry.

  The normalised block (rounded) is multiplied with the rounded key weights, lanes against lanes, into a zero
  accumulator; the bias row is added; the result is rounded and stored.  On the extended reals the roundings are the
  identity and the product is the exact sum, so the entry (r, e) of the key tile is the specification's linear map of
  the normalised row r at output e.  The value tile is the same with the value weights and bias.
-/
import proofs.«115225_j9758165696697_2_alg».proof.Proof.KTileDefs
import proofs.«115225_j9758165696697_2_alg».proof.Proof.KTileNorm
import proofs.«115225_j9758165696697_2_alg».proof.Proof.KTileMat
import proofs.«115225_j9758165696697_2_alg».proof.Proof.SpecLaws

noncomputable section

open scoped BigOperators

namespace Cert.KernelIdeal.Hand

open Idealize.ShloMosaic Idealize.ShloMosaic.ValueIdx Cert.KernelIdeal Cert.KernelIdeal.Gen

open Tile

/-- The body's contraction of a 2048 × 256 block with a 256 × 256 matrix contracts the last axis of both. -/
theorem Tile.dot_eq : dot_S2048x256_S256x256_S2048x256_1_1_0_0_n_n = DotDims.transposedRhs 2048 256 256 := rfl

variable (x0 : Vec Ideal S1x2048x256 .f32) (nw nb : Vec Ideal S256 .f32)

/-- The keys before the last rounding, at (r, e): the linear map of the normalised row r, with its bias. -/
theorem pay28_apply (kw : Vec Ideal S256x256 .f32) (kb : Vec Ideal S256 .f32) (r : Fin 2048) (e : Fin 256) :
    k0_pay28 (F := Ideal) x0 nw nb kw kb (ix2 r e)
      = Cert.Spec.lin (Cert.Spec.lnK (fun k => x0 (ix3 0 r k)) (fun k => nw (ix1 k)) (fun k => nb (ix1 k)))
          (fun e' k => kw (ix2 e' k)) (fun e' => kb (ix1 e')) e := by
  unfold k0_pay28
  simp only [matmul, addf_apply, Cert.Lib.CastBroadcast.row_apply]
  rw [dot_eq, matmul_transposedRhs_zero_apply]
  simp only [truncf_apply, pay27_apply]
  rfl

/-- The values before their bias, at (r, e): the product of the normalised row r with row e of the value weights. -/
theorem pay29_apply (vw : Vec Ideal S256x256 .f32) (r : Fin 2048) (e : Fin 256) :
    k0_pay29 (F := Ideal) x0 nw nb vw (ix2 r e)
      = ∑ k : Fin 256,
          Cert.Spec.lnK (fun k => x0 (ix3 0 r k)) (fun k => nw (ix1 k)) (fun k => nb (ix1 k)) k * vw (ix2 e k) := by
  unfold k0_pay29
  simp only [matmul]
  rw [dot_eq, matmul_transposedRhs_zero_apply]
  simp only [truncf_apply, pay27_apply]

/-- The key tile at (r, e) is the specification's key of the normalised row r at output e. -/
theorem kTileK_apply (kw : Vec Ideal S256x256 .f32) (kb : Vec Ideal S256 .f32) (r : Fin 2048) (e : Fin 256) :
    kTileK (F := Ideal) x0 nw nb kw kb (ix2 r e)
      = Cert.Spec.lin (Cert.Spec.lnK (fun k => x0 (ix3 0 r k)) (fun k => nw (ix1 k)) (fun k => nb (ix1 k)))
          (fun e' k => kw (ix2 e' k)) (fun e' => kb (ix1 e')) e := by
  unfold kTileK k0_pay1
  simp only [shapeCast_self, truncf_apply]
  exact pay28_apply x0 nw nb kw kb r e

/-- The value tile at (r, e) is the specification's value of the normalised row r at output e. -/
theorem kTileV_apply (vw : Vec Ideal S256x256 .f32) (vb : Vec Ideal S256 .f32) (r : Fin 2048) (e : Fin 256) :
    kTileV (F := Ideal) x0 nw nb vw vb (ix2 r e)
      = Cert.Spec.lin (Cert.Spec.lnK (fun k => x0 (ix3 0 r k)) (fun k => nw (ix1 k)) (fun k => nb (ix1 k)))
          (fun e' k => vw (ix2 e' k)) (fun e' => vb (ix1 e')) e := by
  unfold kTileV k0_pay2
  simp only [shapeCast_self, truncf_apply, addf_apply, Cert.Lib.CastBroadcast.row_apply]
  rw [pay29_apply]
  rfl

end Cert.KernelIdeal.Hand

end
-- ==== Proof.KKeys.lean ====
/-
  A batch's key rows and value rows, as the kernel's tiles hold them, are the specification's.

  A point's key tile is the specification's key rows of its 2048 feature rows; a batch's 8192 key rows are its four
  tiles one under the other, row j in tile j / 2048 at row j % 2048, and 2048 (j / 2048) + j % 2048 = j; likewise the
  values.
-/
import proofs.«115225_j9758165696697_2_alg».proof.Proof.KBlocks
import proofs.«115225_j9758165696697_2_alg».proof.Proof.KTile
import proofs.«115225_j9758165696697_2_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.Rank3 Cert.Spec

variable (m : (ℓ : Loc nD τ sig) → Buf (Elt Ideal) ℓ)

/-- The specification's arguments read off the launch memory of core `c`: argument `i` of `@main` is the array at
    `main_arg i`. -/
def argsOfK (c : Dev nD) : Cert.Spec.Args where
  feat := m ((c.tc : Thread nD τ).loc main_arg0)
  noise := m ((c.tc : Thread nD τ).loc main_arg1)
  mu := m ((c.tc : Thread nD τ).loc main_arg2)
  ls := m ((c.tc : Thread nD τ).loc main_arg3)
  n1w := m ((c.tc : Thread nD τ).loc main_arg4)
  n1b := m ((c.tc : Thread nD τ).loc main_arg5)
  n2w := m ((c.tc : Thread nD τ).loc main_arg6)
  n2b := m ((c.tc : Thread nD τ).loc main_arg7)
  qw := m ((c.tc : Thread nD τ).loc main_arg8)
  qb := m ((c.tc : Thread nD τ).loc main_arg9)
  kw := m ((c.tc : Thread nD τ).loc main_arg10)
  kb := m ((c.tc : Thread nD τ).loc main_arg11)
  vw := m ((c.tc : Thread nD τ).loc main_arg12)
  vb := m ((c.tc : Thread nD τ).loc main_arg13)
  wih := m ((c.tc : Thread nD τ).loc main_arg14)
  whh := m ((c.tc : Thread nD τ).loc main_arg15)
  bih := m ((c.tc : Thread nD τ).loc main_arg16)
  bhh := m ((c.tc : Thread nD τ).loc main_arg17)

/-- The batch a grid point stands for. -/
def batchOf (t : Fin cfg0.N) : Fin 16 :=
  ⟨t.val / 4, by have hN : t.val < 64 := lt_of_lt_of_eq t.isLt (show cfg0.N = 64 from N_0); omega⟩

/-! ## Over variables: blocks that read the arguments give the specification's rows -/

/-- A key tile of blocks that read row `s` of batch `b` and the key map's arrays is the specification's key row. -/
theorem keys_of (a : Cert.Spec.Args) (x0 : Vec Ideal S1x2048x256 .f32) (nw nb : Vec Ideal S256 .f32)
    (kw : Vec Ideal S256x256 .f32) (kb : Vec Ideal S256 .f32) (r : Fin 2048) (e : Fin 256) (b : Fin 16) (s : Fin 8192)
    (h0 : ∀ k, x0 (ix3 (0 : Fin 1) r k) = a.feat (ix3 b s k)) (hnw : nw = a.n1w) (hnb : nb = a.n1b) (hkw : kw = a.kw)
    (hkb : kb = a.kb) : kTileK (F := Ideal) x0 nw nb kw kb (ix2 r e) = a.keys b s e := by
  subst hnw hnb hkw hkb
  rw [kTileK_apply, show (fun k => x0 (ix3 (0 : Fin 1) r k)) = fun k => a.feat (ix3 b s k) from funext h0]
  rfl

/-- A value tile of blocks that read row `s` of batch `b` and the value map's arrays is the specification's value row. -/
theorem vals_of (a : Cert.Spec.Args) (x0 : Vec Ideal S1x2048x256 .f32) (nw nb : Vec Ideal S256 .f32)
    (vw : Vec Ideal S256x256 .f32) (vb : Vec Ideal S256 .f32) (r : Fin 2048) (e : Fin 256) (b : Fin 16) (s : Fin 8192)
    (h0 : ∀ k, x0 (ix3 (0 : Fin 1) r k) = a.feat (ix3 b s k)) (hnw : nw = a.n1w) (hnb : nb = a.n1b) (hvw : vw = a.vw)
    (hvb : vb = a.vb) : kTileV (F := Ideal) x0 nw nb vw vb (ix2 r e) = a.vals b s e := by
  subst hnw hnb hvw hvb
  rw [kTileV_apply, show (fun k => x0 (ix3 (0 : Fin 1) r k)) = fun k => a.feat (ix3 b s k) from funext h0]
  rfl

/-! ## At the blocks of a grid point -/

/-- The key tile of point `t'`, at row `r`: the specification's key row 2048 (t' % 4) + r of batch t' / 4. -/
theorem Kat_apply (c : Dev nD) (t' : Fin cfg0.N) (r : Fin 2048) (e : Fin 256) (b : Fin 16) (s : Fin 8192)
    (hb : b.val = t'.val / 4) (hs : s.val = 2048 * (t'.val % 4) + r.val) :
    Kat m c t' (ix2 r e) = (argsOfK m c).keys b s e :=
  keys_of (argsOfK m c) (iblk m c 0 t') (iblk m c 2 t') (iblk m c 3 t') (iblk m c 4 t') (iblk m c 5 t') r e b s
    (fun k => iblk_feat_apply m c t' r k b s hb hs) (iblk_w2_eq m c t') (iblk_w3_eq m c t') (iblk_w4_eq m c t')
    (iblk_w5_eq m c t')

/-- The value tile of point `t'`, at row `r`: the specification's value row 2048 (t' % 4) + r of batch t' / 4. -/
theorem Vat_apply (c : Dev nD) (t' : Fin cfg0.N) (r : Fin 2048) (e : Fin 256) (b : Fin 16) (s : Fin 8192)
    (hb : b.val = t'.val / 4) (hs : s.val = 2048 * (t'.val % 4) + r.val) :
    Vat m c t' (ix2 r e) = (argsOfK m c).vals b s e :=
  vals_of (argsOfK m c) (iblk m c 0 t') (iblk m c 2 t') (iblk m c 3 t') (iblk m c 6 t') (iblk m c 7 t') r e b s
    (fun k => iblk_feat_apply m c t' r k b s hb hs) (iblk_w2_eq m c t') (iblk_w3_eq m c t') (iblk_w6_eq m c t')
    (iblk_w7_eq m c t')

/-- The keys of the whole batch of point `t` are the specification's: row j lies in tile j / 2048 at row j % 2048. -/
theorem Kfull_apply (c : Dev nD) (t : Fin cfg0.N) (j : Fin 8192) (e : Fin 256) (b : Fin 16) (hb : b.val = t.val / 4) :
    Kfull m c t (ix2 j e) = (argsOfK m c).keys b j e := by
  have hN : t.val < 64 := lt_of_lt_of_eq t.isLt (show cfg0.N = 64 from N_0)
  have hj : j.val < 8192 := j.isLt
  show Kat m c (tileAt t (ix2 j e)) (ix2 (⟨j.val % 2048, Nat.mod_lt _ (by norm_num)⟩ : Fin 2048) e) = _
  refine Kat_apply m c _ _ e b j ?_ ?_
  · show b.val = (t.val - t.val % 4 + j.val / 2048) / 4
    omega
  · show j.val = 2048 * ((t.val - t.val % 4 + j.val / 2048) % 4) + j.val % 2048
    omega

/-- The values of the whole batch of point `t` are the specification's. -/
theorem Vfull_apply (c : Dev nD) (t : Fin cfg0.N) (j : Fin 8192) (e : Fin 256) (b : Fin 16) (hb : b.val = t.val / 4) :
    Vfull m c t (ix2 j e) = (argsOfK m c).vals b j e := by
  have hN : t.val < 64 := lt_of_lt_of_eq t.isLt (show cfg0.N = 64 from N_0)
  have hj : j.val < 8192 := j.isLt
  show Vat m c (tileAt t (ix2 j e)) (ix2 (⟨j.val % 2048, Nat.mod_lt _ (by norm_num)⟩ : Fin 2048) e) = _
  refine Vat_apply m c _ _ e b j ?_ ?_
  · show b.val = (t.val - t.val % 4 + j.val / 2048) / 4
    omega
  · show j.val = 2048 * ((t.val - t.val % 4 + j.val / 2048) % 4) + j.val % 2048
    omega

end Cert.KernelIdeal.Hand

end
-- ==== Proof.KStepDefs.lean ====
/-
  One iteration of the kernel's slot attention, as a function of vectors.

  The ten slot rows are normalised (row mean, row variance, reciprocal square root, scale and shift), mapped to
  queries, multiplied against the 8192 key rows, soft-maxed over the ten slots for each key (column maximum,
  exponentials, column sum, quotient, a small constant), multiplied against the value rows, and mixed with the
  previous slots by a gated recurrent cell (two logistic gates and a tanh candidate, read from three column thirds
  of two [10,768] pre-activation matrices).  The operations are those of the printed kernel, in its order and with
  its constants; the float instance is left generic.
-/
import proofs.«115225_j9758165696697_2_alg».proof.KernelIdeal

noncomputable section

namespace Cert.KernelIdeal.Hand

open Idealize.ShloMosaic Idealize.SL.Sem
open Cert.KernelIdeal

variable {F : FTy → Type} [FloatOps F]
variable [Facts]
open Facts₀ Facts

/-- One iteration: slots s, normalisation scale and shift, query weights (bf16) and bias, the two gate weight matrices
    (bf16) and biases, the key rows and the value rows; the result is the new slots. -/
def kStep (s : FVec F S10x256 .f32) (n2w n2b : Vec F S256 .f32) (qw : FVec F S256x256 .bf16) (qb : Vec F S256 .f32)
    (wih whh : FVec F S768x256 .bf16) (bih bhh : Vec F S768 .f32) (eK eV : Vec F S8192x256 .bf16) :
    FVec F S10x256 .f32 :=
  have cst_32 : FVec F S10 .f32 := constant S10 .f32 0x00000000#32
  have v71 : FVec F S10 .f32 := multiReduction .add [1] S10 s 0x00000000#32 reduces_S10x256_S10 (.inl rfl) rfl
  have v72 : FVec F S10x1 .f32 := shapeCast S10x1 v71 shapeCasts_S10_S10x1
  have cst_33 : F .f32 := Scalar.ofBits .f32 0x43800000#32
  have v73 : FVec F S10x1 .f32 := broadcast S10x1 cst_33
  have v74 : FVec F S10x1 .f32 := divf v72 v73
  have v75 : FVec F S10x256 .f32 := broadcastTo S10x256 v74 broadcasts_S10x1_S10x256
  have v76 : FVec F S10x256 .f32 := subf s v75
  have v77 : FVec F S10x256 .f32 := mulf v76 v76
  have cst_34 : FVec F S10 .f32 := constant S10 .f32 0x00000000#32
  have v78 : FVec F S10 .f32 := multiReduction .add [1] S10 v77 0x00000000#32 reduces_S10x256_S10 (.inl rfl) rfl
  have v79 : FVec F S10x1 .f32 := shapeCast S10x1 v78 shapeCasts_S10_S10x1
  have cst_35 : F .f32 := Scalar.ofBits .f32 0x43800000#32
  have v80 : FVec F S10x1 .f32 := broadcast S10x1 cst_35
  have v81 : FVec F S10x1 .f32 := divf v79 v80
  have v82 : FVec F S10x256 .f32 := broadcastTo S10x256 v74 broadcasts_S10x1_S10x256
  have v83 : FVec F S10x256 .f32 := subf s v82
  have cst_36 : F .f32 := Scalar.ofBits .f32 0x3727C5AC#32
  have v84 : FVec F S10x1 .f32 := broadcast S10x1 cst_36
  have v85 : FVec F S10x1 .f32 := addf v81 v84
  have v86 : FVec F S10x1 .f32 := rsqrt v85
  have v87 : FVec F S10x256 .f32 := broadcastTo S10x256 v86 broadcasts_S10x1_S10x256
  have v88 : FVec F S10x256 .f32 := mulf v83 v87
  have v89 : FVec F S1x256 .f32 := shapeCast S1x256 n2w shapeCasts_S256_S1x256
  have v90 : FVec F S10x256 .f32 := broadcastTo S10x256 v89 broadcasts_S1x256_S10x256
  have v91 : FVec F S10x256 .f32 := mulf v88 v90
  have v92 : FVec F S1x256 .f32 := shapeCast S1x256 n2b shapeCasts_S256_S1x256
  have v93 : FVec F S10x256 .f32 := broadcastTo S10x256 v92 broadcasts_S1x256_S10x256
  have v94 : FVec F S10x256 .f32 := addf v91 v93
  have v95 : FVec F S10x256 .bf16 := truncf .bf16 v94 bitsLt_bf16_f32
  have cst_37 : FVec F S10x256 .f32 := constant S10x256 .f32 0x00000000#32
  have v96 : FVec F S10x256 .f32 := matmul dot_S10x256_S256x256_S10x256_1_1_0_0_n_n none v95 qw cst_37
  have v97 : FVec F S1x256 .f32 := shapeCast S1x256 qb shapeCasts_S256_S1x256
  have v98 : FVec F S10x256 .f32 := broadcastTo S10x256 v97 broadcasts_S1x256_S10x256
  have v99 : FVec F S10x256 .f32 := addf v96 v98
  have v100 : FVec F S10x256 .bf16 := truncf .bf16 v99 bitsLt_bf16_f32
  have cst_40 : FVec F S10x8192 .f32 := constant S10x8192 .f32 0x00000000#32
  have v102 : FVec F S10x8192 .f32 := matmul dot_S10x256_S8192x256_S10x8192_1_1_0_0_n_n none v100 eK cst_40
  have cst_41 : FVec F S8192 .f32 := constant S8192 .f32 0xFF800000#32
  have v103 : FVec F S8192 .f32 := multiReduction .maximumf [0] S8192 v102 0xFF800000#32 reduces_S10x8192_S8192 (.inl rfl) rfl
  have cst_42 : F .f32 := Scalar.ofBits .f32 0xFF800000#32
  have v104 : FVec F S8192 .f32 := broadcast S8192 cst_42
  have v105 : FVec F S8192 .f32 := maximumf v104 v103
  have v106 : FVec F S1x8192 .f32 := shapeCast S1x8192 v105 shapeCasts_S8192_S1x8192
  have v107 : FVec F S10x8192 .f32 := broadcastTo S10x8192 v106 broadcasts_S1x8192_S10x8192
  have v108 : FVec F S10x8192 .f32 := subf v102 v107
  have v109 : FVec F S10x8192 .f32 := exp v108
  have cst_43 : FVec F S8192 .f32 := constant S8192 .f32 0x00000000#32
  have v110 : FVec F S8192 .f32 := multiReduction .add [0] S8192 v109 0x00000000#32 reduces_S10x8192_S8192 (.inl rfl) rfl
  have v111 : FVec F S1x8192 .f32 := shapeCast S1x8192 v110 shapeCasts_S8192_S1x8192
  have v112 : FVec F S10x8192 .f32 := broadcastTo S10x8192 v111 broadcasts_S1x8192_S10x8192
  have v113 : FVec F S10x8192 .f32 := divf v109 v112
  have cst_44 : F .f32 := Scalar.ofBits .f32 0x33D6BF95#32
  have v114 : FVec F S10x8192 .f32 := broadcast S10x8192 cst_44
  have v115 : FVec F S10x8192 .f32 := addf v113 v114
  have v116 : FVec F S10x8192 .bf16 := truncf .bf16 v115 bitsLt_bf16_f32
  have cst_47 : FVec F S10x256 .f32 := constant S10x256 .f32 0x00000000#32
  have v118 : FVec F S10x256 .f32 := matmul dot_S10x8192_S8192x256_S10x256_1_0_0_1_n_n none v116 eV cst_47
  have v119 : FVec F S10x256 .bf16 := truncf .bf16 s bitsLt_bf16_f32
  have cst_48 : FVec F S10x768 .f32 := constant S10x768 .f32 0x00000000#32
  have v120 : FVec F S10x768 .f32 := matmul dot_S10x256_S768x256_S10x768_1_1_0_0_n_n none v119 wih cst_48
  have v121 : FVec F S1x768 .f32 := shapeCast S1x768 bih shapeCasts_S768_S1x768
  have v122 : FVec F S10x768 .f32 := broadcastTo S10x768 v121 broadcasts_S1x768_S10x768
  have v123 : FVec F S10x768 .f32 := addf v120 v122
  have v124 : FVec F S10x256 .bf16 := truncf .bf16 v118 bitsLt_bf16_f32
  have cst_49 : FVec F S10x768 .f32 := constant S10x768 .f32 0x00000000#32
  have v125 : FVec F S10x768 .f32 := matmul dot_S10x256_S768x256_S10x768_1_1_0_0_n_n none v124 whh cst_49
  have v126 : FVec F S1x768 .f32 := shapeCast S1x768 bhh shapeCasts_S768_S1x768
  have v127 : FVec F S10x768 .f32 := broadcastTo S10x768 v126 broadcasts_S1x768_S10x768
  have v128 : FVec F S10x768 .f32 := addf v125 v127
  have v129 : FVec F S10x256 .f32 := extractStridedSlice S10x256 ![0, 0] v123 slices_S10x768_o0_0_S10x256
  have v130 : FVec F S10x256 .f32 := extractStridedSlice S10x256 ![0, 256] v123 slices_S10x768_o0_256_S10x256
  have v131 : FVec F S10x256 .f32 := extractStridedSlice S10x256 ![0, 512] v123 slices_S10x768_o0_512_S10x256
  have v132 : FVec F S10x256 .f32 := extractStridedSlice S10x256 ![0, 0] v128 slices_S10x768_o0_0_S10x256
  have v133 : FVec F S10x256 .f32 := extractStridedSlice S10x256 ![0, 256] v128 slices_S10x768_o0_256_S10x256
  have v134 : FVec F S10x256 .f32 := extractStridedSlice S10x256 ![0, 512] v128 slices_S10x768_o0_512_S10x256
  have v135 : FVec F S10x256 .f32 := addf v129 v132
  have v136 : FVec F S10x256 .f32 := logistic v135
  have v137 : FVec F S10x256 .f32 := addf v130 v133
  have v138 : FVec F S10x256 .f32 := logistic v137
  have v139 : FVec F S10x256 .f32 := mulf v136 v134
  have v140 : FVec F S10x256 .f32 := addf v131 v139
  have v141 : FVec F S10x256 .f32 := tanh v140
  have cst_50 : F .f32 := Scalar.ofBits .f32 0x3F800000#32
  have v142 : FVec F S10x256 .f32 := broadcast S10x256 cst_50
  have v143 : FVec F S10x256 .f32 := subf v142 v138
  have v144 : FVec F S10x256 .f32 := mulf v143 v141
  have v145 : FVec F S10x256 .f32 := mulf v138 v118
  have v146 : FVec F S10x256 .f32 := addf v144 v145
  v146

end Cert.KernelIdeal.Hand

end
-- ==== Proof.KOut.lean ====
/-
  The stored result block is three iterations.

  The generated payloads cut the kernel's body by statement count, so one iteration's operations are spread over
  several payloads and one payload may straddle two iterations.  Each of the three iterations, written as the
  composition of payloads the skeleton stores, is the one-iteration function applied to the previous iteration's
  result, to the weights, and to the key rows and value rows read in that round: both sides are the same operations
  in the same order, so each equation holds by unfolding.  Composing the three gives the stored block as the initial
  slots iterated three times, between the two changes of shape [1,10,256] ↔ [10,256].
-/
import proofs.«115225_j9758165696697_2_alg».proof.Proof.KOutDefs
import proofs.«115225_j9758165696697_2_alg».proof.Proof.KStepDefs

noncomputable section

namespace Cert.KernelIdeal.Hand

open Idealize.ShloMosaic Cert.KernelIdeal Cert.KernelIdeal.Gen

variable {F : FTy → Type} [FloatOps F]

section rounds

variable (x1 : Vec F S1x10x256 .f32) (n2w n2b : Vec F S256 .f32) (qw : Vec F S256x256 .f32)
  (Q : FVec F S256x256 .bf16) (qb : Vec F S256 .f32)
  (WI WH : FVec F S768x256 .bf16) (bih bhh : Vec F S768 .f32) (eK eV : Vec F S8192x256 .bf16)

/-- The first iteration: from the initial slots (as a [10,256] matrix), the payloads that make up the slots after
    one round are the one-iteration function of the initial slots. -/
theorem round1_eq (k1 v1 : Vec F S8192x256 .bf16) :
    k0_pay15 (k0_pay10 (k0_pay8 n2w n2b qw x1) (k0_pay9 qb) k1 v1)
        (k0_pay13 WI WH bih bhh (k0_pay7 x1) (k0_pay8 n2w n2b qw x1) (k0_pay9 qb) k1 v1)
        (k0_pay14 WI WH bih bhh (k0_pay7 x1) (k0_pay8 n2w n2b qw x1) (k0_pay9 qb) k1 v1)
      = kStep (k0_pay7 x1) n2w n2b (k0_pay4 qw) qb WI WH bih bhh k1 v1 := rfl

/-- The second iteration: the slots after one round are a sum of two products (gate-weighted candidate and
    gate-weighted update); the payloads that make up the slots after two rounds are the one-iteration function of
    that sum. -/
theorem round2_eq (a b c : FVec F S10x256 .f32) (k2 v2 : Vec F S8192x256 .bf16) :
    k0_pay17 WI WH bih bhh (k0_pay15 a b c) (k0_pay16 n2w n2b Q qb a b c k2) v2
      = kStep (k0_pay15 a b c) n2w n2b Q qb WI WH bih bhh k2 v2 := rfl

/-- The third iteration and the final change of shape: the stored block is the one-iteration function of the slots
    after two rounds, reshaped to [1,10,256]. -/
theorem round3_eq (s : FVec F S10x256 .f32) (p : FVec F S10x8192 .f32) (v2 k3 v3 : Vec F S8192x256 .bf16) :
    k0_pay3
        (k0_pay19 n2w n2b Q qb (k0_pay18 WI WH bih bhh s p v2) k3 v3)
        (k0_pay22 WI bih (k0_pay17 WI WH bih bhh s p v2))
        (k0_pay23 WI bih (k0_pay17 WI WH bih bhh s p v2))
        (k0_pay24 n2w n2b Q qb WH bhh (k0_pay18 WI WH bih bhh s p v2) k3 v3)
        (k0_pay25 n2w n2b Q qb WH bhh (k0_pay18 WI WH bih bhh s p v2) k3 v3)
        (k0_pay26 n2w n2b Q qb WI WH bih bhh (k0_pay17 WI WH bih bhh s p v2) (k0_pay18 WI WH bih bhh s p v2) k3 v3)
      = shapeCast S1x10x256 (kStep (k0_pay17 WI WH bih bhh s p v2) n2w n2b Q qb WI WH bih bhh k3 v3)
          shapeCasts_S10x256_S1x10x256 := rfl

end rounds

/-- The stored result block is the initial slots, read as a [10,256] matrix, put through the one-iteration function
    three times — against the key rows and value rows read in the first, second and third round — and reshaped to
    [1,10,256]; the query map and the two gate maps enter rounded to bf16, as the body rounds them once at its start. -/
theorem kOut_eq (x1 : Vec F S1x10x256 .f32) (n2w n2b : Vec F S256 .f32) (qw : Vec F S256x256 .f32)
    (qb : Vec F S256 .f32) (wih whh : Vec F S768x256 .f32) (bih bhh : Vec F S768 .f32)
    (k1 v1 k2 v2 k3 v3 : Vec F S8192x256 .bf16) :
    kOut x1 n2w n2b qw qb wih whh bih bhh k1 v1 k2 v2 k3 v3
      = shapeCast S1x10x256
          (kStep
            (kStep
              (kStep (shapeCast S10x256 x1 shapeCasts_S1x10x256_S10x256) n2w n2b
                (truncf .bf16 qw bitsLt_bf16_f32) qb (truncf .bf16 wih bitsLt_bf16_f32)
                (truncf .bf16 whh bitsLt_bf16_f32) bih bhh k1 v1)
              n2w n2b (truncf .bf16 qw bitsLt_bf16_f32) qb (truncf .bf16 wih bitsLt_bf16_f32)
              (truncf .bf16 whh bitsLt_bf16_f32) bih bhh k2 v2)
            n2w n2b (truncf .bf16 qw bitsLt_bf16_f32) qb (truncf .bf16 wih bitsLt_bf16_f32)
            (truncf .bf16 whh bitsLt_bf16_f32) bih bhh k3 v3)
          shapeCasts_S10x256_S1x10x256 := by
  unfold kOut
  rw [round3_eq, round2_eq, round1_eq]
  rfl

end Cert.KernelIdeal.Hand

end
-- ==== Proof.KStepStages.lean ====
/-
  One iteration of the kernel's slot attention, cut into its stages.

  The iteration is the composition of: the normalisation of the slot rows; the query map (a product against the
  transposed weight matrix, plus a bias row); the scores against the key rows; the soft-max over the slots with its
  small constant; the product against the value rows; the two gate pre-activation maps; and the gated recurrent cell.
  Each stage is the same chain of operations the iteration holds, so the iteration is their composition by
  definition.
-/
import proofs.«115225_j9758165696697_2_alg».proof.Proof.KStepDefs

noncomputable section

namespace Cert.KernelIdeal.Hand

open Idealize.ShloMosaic Idealize.SL.Sem
open Cert.KernelIdeal

variable {F : FTy → Type} [FloatOps F]
variable [Facts]
open Facts₀ Facts

/-- The slot rows normalised: row mean, row variance, reciprocal square root, scale and shift. -/
def kNorm (s : FVec F S10x256 .f32) (n2w n2b : Vec F S256 .f32) : FVec F S10x256 .f32 :=
  have cst_32 : FVec F S10 .f32 := constant S10 .f32 0x00000000#32
  have v71 : FVec F S10 .f32 := multiReduction .add [1] S10 s 0x00000000#32 reduces_S10x256_S10 (.inl rfl) rfl
  have v72 : FVec F S10x1 .f32 := shapeCast S10x1 v71 shapeCasts_S10_S10x1
  have cst_33 : F .f32 := Scalar.ofBits .f32 0x43800000#32
  have v73 : FVec F S10x1 .f32 := broadcast S10x1 cst_33
  have v74 : FVec F S10x1 .f32 := divf v72 v73
  have v75 : FVec F S10x256 .f32 := broadcastTo S10x256 v74 broadcasts_S10x1_S10x256
  have v76 : FVec F S10x256 .f32 := subf s v75
  have v77 : FVec F S10x256 .f32 := mulf v76 v76
  have cst_34 : FVec F S10 .f32 := constant S10 .f32 0x00000000#32
  have v78 : FVec F S10 .f32 := multiReduction .add [1] S10 v77 0x00000000#32 reduces_S10x256_S10 (.inl rfl) rfl
  have v79 : FVec F S10x1 .f32 := shapeCast S10x1 v78 shapeCasts_S10_S10x1
  have cst_35 : F .f32 := Scalar.ofBits .f32 0x43800000#32
  have v80 : FVec F S10x1 .f32 := broadcast S10x1 cst_35
  have v81 : FVec F S10x1 .f32 := divf v79 v80
  have v82 : FVec F S10x256 .f32 := broadcastTo S10x256 v74 broadcasts_S10x1_S10x256
  have v83 : FVec F S10x256 .f32 := subf s v82
  have cst_36 : F .f32 := Scalar.ofBits .f32 0x3727C5AC#32
  have v84 : FVec F S10x1 .f32 := broadcast S10x1 cst_36
  have v85 : FVec F S10x1 .f32 := addf v81 v84
  have v86 : FVec F S10x1 .f32 := rsqrt v85
  have v87 : FVec F S10x256 .f32 := broadcastTo S10x256 v86 broadcasts_S10x1_S10x256
  have v88 : FVec F S10x256 .f32 := mulf v83 v87
  have v89 : FVec F S1x256 .f32 := shapeCast S1x256 n2w shapeCasts_S256_S1x256
  have v90 : FVec F S10x256 .f32 := broadcastTo S10x256 v89 broadcasts_S1x256_S10x256
  have v91 : FVec F S10x256 .f32 := mulf v88 v90
  have v92 : FVec F S1x256 .f32 := shapeCast S1x256 n2b shapeCasts_S256_S1x256
  have v93 : FVec F S10x256 .f32 := broadcastTo S10x256 v92 broadcasts_S1x256_S10x256
  have v94 : FVec F S10x256 .f32 := addf v91 v93
  v94

/-- A linear map to 256 outputs: the rows times the transposed weight matrix, plus the bias row. -/
def kQuery (x : FVec F S10x256 .f32) (qw : FVec F S256x256 .bf16) (qb : Vec F S256 .f32) : FVec F S10x256 .f32 :=
  have v95 : FVec F S10x256 .bf16 := truncf .bf16 x bitsLt_bf16_f32
  have cst_37 : FVec F S10x256 .f32 := constant S10x256 .f32 0x00000000#32
  have v96 : FVec F S10x256 .f32 := matmul dot_S10x256_S256x256_S10x256_1_1_0_0_n_n none v95 qw cst_37
  have v97 : FVec F S1x256 .f32 := shapeCast S1x256 qb shapeCasts_S256_S1x256
  have v98 : FVec F S10x256 .f32 := broadcastTo S10x256 v97 broadcasts_S1x256_S10x256
  have v99 : FVec F S10x256 .f32 := addf v96 v98
  v99

/-- The scores: the query rows times the transposed key rows. -/
def kScore (q : FVec F S10x256 .f32) (eK : Vec F S8192x256 .bf16) : FVec F S10x8192 .f32 :=
  have v100 : FVec F S10x256 .bf16 := truncf .bf16 q bitsLt_bf16_f32
  have cst_40 : FVec F S10x8192 .f32 := constant S10x8192 .f32 0x00000000#32
  have v102 : FVec F S10x8192 .f32 := matmul dot_S10x256_S8192x256_S10x8192_1_1_0_0_n_n none v100 eK cst_40
  v102

/-- The soft-max over the ten slots of each column of scores, plus the small constant. -/
def kAttn (sc : FVec F S10x8192 .f32) : FVec F S10x8192 .f32 :=
  have cst_41 : FVec F S8192 .f32 := constant S8192 .f32 0xFF800000#32
  have v103 : FVec F S8192 .f32 := multiReduction .maximumf [0] S8192 sc 0xFF800000#32 reduces_S10x8192_S8192 (.inl rfl) rfl
  have cst_42 : F .f32 := Scalar.ofBits .f32 0xFF800000#32
  have v104 : FVec F S8192 .f32 := broadcast S8192 cst_42
  have v105 : FVec F S8192 .f32 := maximumf v104 v103
  have v106 : FVec F S1x8192 .f32 := shapeCast S1x8192 v105 shapeCasts_S8192_S1x8192
  have v107 : FVec F S10x8192 .f32 := broadcastTo S10x8192 v106 broadcasts_S1x8192_S10x8192
  have v108 : FVec F S10x8192 .f32 := subf sc v107
  have v109 : FVec F S10x8192 .f32 := exp v108
  have cst_43 : FVec F S8192 .f32 := constant S8192 .f32 0x00000000#32
  have v110 : FVec F S8192 .f32 := multiReduction .add [0] S8192 v109 0x00000000#32 reduces_S10x8192_S8192 (.inl rfl) rfl
  have v111 : FVec F S1x8192 .f32 := shapeCast S1x8192 v110 shapeCasts_S8192_S1x8192
  have v112 : FVec F S10x8192 .f32 := broadcastTo S10x8192 v111 broadcasts_S1x8192_S10x8192
  have v113 : FVec F S10x8192 .f32 := divf v109 v112
  have cst_44 : F .f32 := Scalar.ofBits .f32 0x33D6BF95#32
  have v114 : FVec F S10x8192 .f32 := broadcast S10x8192 cst_44
  have v115 : FVec F S10x8192 .f32 := addf v113 v114
  v115

/-- The updates: the attention rows times the value rows. -/
def kUpd (a : FVec F S10x8192 .f32) (eV : Vec F S8192x256 .bf16) : FVec F S10x256 .f32 :=
  have v116 : FVec F S10x8192 .bf16 := truncf .bf16 a bitsLt_bf16_f32
  have cst_47 : FVec F S10x256 .f32 := constant S10x256 .f32 0x00000000#32
  have v118 : FVec F S10x256 .f32 := matmul dot_S10x8192_S8192x256_S10x256_1_0_0_1_n_n none v116 eV cst_47
  v118

/-- A linear map to the 768 gate pre-activations: the rows times the transposed weight matrix, plus the bias row. -/
def kGate (x : FVec F S10x256 .f32) (w : FVec F S768x256 .bf16) (b : Vec F S768 .f32) : FVec F S10x768 .f32 :=
  have v119 : FVec F S10x256 .bf16 := truncf .bf16 x bitsLt_bf16_f32
  have cst_48 : FVec F S10x768 .f32 := constant S10x768 .f32 0x00000000#32
  have v120 : FVec F S10x768 .f32 := matmul dot_S10x256_S768x256_S10x768_1_1_0_0_n_n none v119 w cst_48
  have v121 : FVec F S1x768 .f32 := shapeCast S1x768 b shapeCasts_S768_S1x768
  have v122 : FVec F S10x768 .f32 := broadcastTo S10x768 v121 broadcasts_S1x768_S10x768
  have v123 : FVec F S10x768 .f32 := addf v120 v122
  v123

/-- The gated recurrent cell: two logistic gates and a tanh candidate read from the three column thirds of the two
    pre-activation matrices, mixed with the updates. -/
def kCell (gx gh : FVec F S10x768 .f32) (u : FVec F S10x256 .f32) : FVec F S10x256 .f32 :=
  have v129 : FVec F S10x256 .f32 := extractStridedSlice S10x256 ![0, 0] gx slices_S10x768_o0_0_S10x256
  have v130 : FVec F S10x256 .f32 := extractStridedSlice S10x256 ![0, 256] gx slices_S10x768_o0_256_S10x256
  have v131 : FVec F S10x256 .f32 := extractStridedSlice S10x256 ![0, 512] gx slices_S10x768_o0_512_S10x256
  have v132 : FVec F S10x256 .f32 := extractStridedSlice S10x256 ![0, 0] gh slices_S10x768_o0_0_S10x256
  have v133 : FVec F S10x256 .f32 := extractStridedSlice S10x256 ![0, 256] gh slices_S10x768_o0_256_S10x256
  have v134 : FVec F S10x256 .f32 := extractStridedSlice S10x256 ![0, 512] gh slices_S10x768_o0_512_S10x256
  have v135 : FVec F S10x256 .f32 := addf v129 v132
  have v136 : FVec F S10x256 .f32 := logistic v135
  have v137 : FVec F S10x256 .f32 := addf v130 v133
  have v138 : FVec F S10x256 .f32 := logistic v137
  have v139 : FVec F S10x256 .f32 := mulf v136 v134
  have v140 : FVec F S10x256 .f32 := addf v131 v139
  have v141 : FVec F S10x256 .f32 := tanh v140
  have cst_50 : F .f32 := Scalar.ofBits .f32 0x3F800000#32
  have v142 : FVec F S10x256 .f32 := broadcast S10x256 cst_50
  have v143 : FVec F S10x256 .f32 := subf v142 v138
  have v144 : FVec F S10x256 .f32 := mulf v143 v141
  have v145 : FVec F S10x256 .f32 := mulf v138 u
  have v146 : FVec F S10x256 .f32 := addf v144 v145
  v146

/-- The iteration is the composition of its stages. -/
theorem kStep_eq_stages (s : FVec F S10x256 .f32) (n2w n2b : Vec F S256 .f32) (qw : FVec F S256x256 .bf16) (qb : Vec F S256 .f32)
    (wih whh : FVec F S768x256 .bf16) (bih bhh : Vec F S768 .f32) (eK eV : Vec F S8192x256 .bf16) :
    kStep s n2w n2b qw qb wih whh bih bhh eK eV
      = kCell (kGate s wih bih) (kGate (kUpd (kAttn (kScore (kQuery (kNorm s n2w n2b) qw qb) eK)) eV) whh bhh)
          (kUpd (kAttn (kScore (kQuery (kNorm s n2w n2b) qw qb) eK)) eV) := rfl

end Cert.KernelIdeal.Hand

end
-- ==== Proof.KStepColReduce.lean ====
/-
  A matrix reduced down its columns or along its rows, read at a column or a row.

  Over an [a, b] matrix a reduction along axis 0 leaves one value per column: the sum of the column's a entries for
  add, and for maximumf the fold of max over them from the accumulator's value. A sum along axis 1 leaves the sum of
  each row's b entries.
-/
import Idealize.ShloMosaic.PureOps.Ideal.Laws
import Idealize.ShloMosaic.Lib.ValueIdx

noncomputable section

namespace Cert.KernelIdeal.Hand.ColReduce

open Idealize.ShloMosaic Idealize.ShloMosaic.ValueIdx
open scoped BigOperators

/-- Column j with the row k put back is the entry (k, j). -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-- A sum along axis 0 of an [a, b] matrix, at column j, is the sum of that column's entries. -/
theorem colSum_apply {a b : ℕ} (X : FVec Ideal ⟨2, ![a, b]⟩ .f32)
    (h : (⟨2, ![a, b]⟩ : Shape).Reduces [0] (⟨1, ![b]⟩ : Shape)) (hφ : FTy.f32 = FTy.f32 ∨ FTy.f32 = FTy.bf16)
    (hacc : (0x00000000#32 : BitVec 32) = 0x00000000#32) (j : Fin b) :
    multiReduction .add [0] ⟨1, ![b]⟩ X 0x00000000#32 h hφ hacc (ix1 j) = ∑ k : Fin a, X (ix2 k j) :=
  (Ideal.multiReduction_add_single X 0x00000000#32 h hφ hacc (ix1 j)).trans
    (Finset.sum_congr rfl fun k _ => congrArg X (lift_col h j k))

/-- A maximum along axis 0 of an [a, b] matrix, at column j, is the fold of max over that column's entries from the
    accumulator's value. -/
theorem colMax_apply {a b : ℕ} (X : FVec Ideal ⟨2, ![a, b]⟩ .f32)
    (h : (⟨2, ![a, b]⟩ : Shape).Reduces [0] (⟨1, ![b]⟩ : Shape)) (hφ : FTy.f32 = FTy.f32 ∨ FTy.f32 = FTy.bf16)
    (hacc : (0xFF800000#32 : BitVec 32) = 0xFF800000#32) (j : Fin b) :
    multiReduction .maximumf [0] ⟨1, ![b]⟩ X 0xFF800000#32 h hφ hacc (ix1 j)
      = (Finset.univ : Finset (Fin a)).fold max (Ideal.ofBits .f32 0xFF800000#32) (fun k => X (ix2 k j)) :=
  (Ideal.multiReduction_maximumf_single X 0xFF800000#32 h hφ hacc (ix1 j)).trans
    (congrArg (fun f => Finset.fold max (Ideal.ofBits .f32 0xFF800000#32) f (Finset.univ : Finset (Fin a)))
      (funext fun k => congrArg X (lift_col h j k)))

/-- Row p with the column k put back is the entry (p, k). -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along axis 1 of an [a, b] matrix, at row p, is the sum of that row's entries. -/
theorem rowSum_apply {a b : ℕ} (X : FVec Ideal ⟨2, ![a, b]⟩ .f32)
    (h : (⟨2, ![a, b]⟩ : Shape).Reduces [1] (⟨1, ![a]⟩ : Shape)) (hφ : FTy.f32 = FTy.f32 ∨ FTy.f32 = FTy.bf16)
    (hacc : (0x00000000#32 : BitVec 32) = 0x00000000#32) (p : Fin a) :
    multiReduction .add [1] ⟨1, ![a]⟩ X 0x00000000#32 h hφ hacc (ix1 p) = ∑ k : Fin b, X (ix2 p k) :=
  (Ideal.multiReduction_add_single X 0x00000000#32 h hφ hacc (ix1 p)).trans
    (Finset.sum_congr rfl fun k _ => congrArg X (lift_row h p k))

end Cert.KernelIdeal.Hand.ColReduce

end
-- ==== Proof.KStepNorm.lean ====
/-
  The kernel's normalisation of the slot rows, read at an entry on the extended reals.

  At (n, d) the normalised matrix holds (x d - mean x) * rsqrt (var x + eps) * w d + b d for the row x = s[n, ·]:
  the row sum over the word for 256 is the mean, laid down the columns; the sum of squared deviations over the same
  word is the variance; the scale and the shift are rows laid across the ten slots.
-/
import proofs.«115225_j9758165696697_2_alg».proof.Proof.KStepStages
import proofs.«115225_j9758165696697_2_alg».proof.Proof.Spec
import proofs.«115225_j9758165696697_2_alg».proof.Proof.KStepColReduce
import proofs.«115225_j9758165696697_2_alg».proof.Proof.LibCastBroadcast

noncomputable section

namespace Cert.KernelIdeal.Hand

open Idealize.ShloMosaic Idealize.SL.Sem Idealize.ShloMosaic.ValueIdx
open Cert.KernelIdeal
open scoped BigOperators

variable [Facts]
open Facts₀ Facts

/-- A reciprocal square root taken entry by entry. -/
theorem rsqrt_apply {s : Shape} {φ : FTy} (a : FVec Ideal s φ) (i : s.Idx) : rsqrt a i = Ideal.rsqrt (a i) := rfl

/-- The normalised slots at an entry. -/
theorem kNorm_apply (s : FVec Ideal S10x256 .f32) (n2w n2b : Vec Ideal S256 .f32) (n : Fin 10) (d : Fin 256) :
    kNorm (F := Ideal) s n2w n2b (ix2 n d)
      = Cert.Spec.lnK (fun k => s (ix2 n k)) (fun k => n2w (ix1 k)) (fun k => n2b (ix1 k)) d := by
  unfold kNorm Cert.Spec.lnK Cert.Spec.var Cert.Spec.mean
  simp only [addf_apply, mulf_apply, subf_apply, divf_apply, rsqrt_apply, broadcast_apply,
    Cert.Lib.CastBroadcast.broadcastTo_a1_ab_apply, Cert.Lib.CastBroadcast.shapeCast_a_a1_apply,
    Cert.Lib.CastBroadcast.row_apply, Ideal.ofBits_def]
  rw [ColReduce.rowSum_apply s, ColReduce.rowSum_apply]
  simp only [mulf_apply, subf_apply, divf_apply, broadcast_apply,
    Cert.Lib.CastBroadcast.broadcastTo_a1_ab_apply, Cert.Lib.CastBroadcast.shapeCast_a_a1_apply, Ideal.ofBits_def]
  rw [ColReduce.rowSum_apply s]

end Cert.KernelIdeal.Hand

end
-- ==== Proof.LibMatmulPlain.lean ====
/-
  A plain matrix product at the exact instance, read at an entry.

  For an `A × K` left operand and a `K × B` right operand contracted over the shared axis, accumulated into the zero
  matrix, the entry at `(a, b)` is the sum over `k` of `l[a,k] · r[k,b]`: on the extended reals the product is the
  exact sum, with no rounding and no order of accumulation left in it.
-/
import Idealize.ShloMosaic.Lib.ValueIdx
import Idealize.ShloMosaic.PureOps.Ideal.Laws

noncomputable section

namespace Cert.Lib.MatmulPlain

open Idealize.ShloMosaic Idealize.ShloMosaic.ValueIdx

variable {A K B : ℕ} {φ₁ φ₂ : FTy}

theorem lhs_row (j : (⟨2, ![A, B]⟩ : Shape).Idx) (q : (DotDims.plain A K B).contr.Idx) :
    ((DotDims.plain A K B).lhsIdx j q 0).val = (j 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.mpr rfl)]
  rfl

theorem lhs_col (j : (⟨2, ![A, B]⟩ : Shape).Idx) (q : (DotDims.plain A K B).contr.Idx) :
    ((DotDims.plain A K B).lhsIdx j q 1).val = (q ⟨0, Nat.one_pos⟩).val :=
  (DotDims.plain A K B).lhsIdx_val_of_single rfl j q

theorem rhs_row (j : (⟨2, ![A, B]⟩ : Shape).Idx) (q : (DotDims.plain A K B).contr.Idx) :
    ((DotDims.plain A K B).rhsIdx j q 0).val = (q ⟨0, Nat.one_pos⟩).val :=
  (DotDims.plain A K B).rhsIdx_val_of_single rfl j q

theorem rhs_col (j : (⟨2, ![A, B]⟩ : Shape).Idx) (q : (DotDims.plain A K B).contr.Idx) :
    ((DotDims.plain A K B).rhsIdx j q 1).val = (j 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.mpr rfl)]
  rfl

/-- The `(a, b)` entry of an `A × K` by `K × B` product accumulated into zero is `∑ k, l[a,k] · r[k,b]`. -/
theorem matmul_plain_zero_apply (prec : Option ContractPrecision) (l : FVec Ideal ⟨2, ![A, K]⟩ φ₁)
    (r : FVec Ideal ⟨2, ![K, B]⟩ φ₂) (a : Fin A) (b : Fin B) :
    FloatOps.matmul (DotDims.plain A K B) prec l r (constant ⟨2, ![A, B]⟩ .f32 0x00000000#32) (ix2 a b)
      = ∑ k : Fin K, l (ix2 a k) * r (ix2 k b) := by
  rw [Ideal.matmul_constant_zero_apply, ← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun x => Fin.ext (by
      match x with
      | ⟨0, _⟩ => exact lhs_row _ _
      | ⟨1, _⟩ => exact (lhs_col _ _).trans hk)
  have er : (DotDims.plain A K B).rhsIdx (ix2 a b) ((contrEquiv1 (DotDims.plain A K B) K rfl rfl).symm k) = ix2 k b :=
    funext fun x => Fin.ext (by
      match x with
      | ⟨0, _⟩ => exact (rhs_row _ _).trans hk
      | ⟨1, _⟩ => exact rhs_col _ _)
  rw [el, er]

end Cert.Lib.MatmulPlain

end
-- ==== Proof.KStepLin.lean ====
/-
  The kernel's matrix products and linear maps of one iteration, read at an entry on the extended reals.

  A product against a matrix contracted on its last axis (rows against rows) has, at (a, b), the sum over k of
  l[a,k] * r[b,k]; accumulated into the zero matrix nothing else is added. With the bias row added this is one output
  of a linear map. The product of the attention rows with the value rows is the plain one, the sum over j of
  l[a,j] * r[j,b].
-/
import proofs.«115225_j9758165696697_2_alg».proof.Proof.KStepStages
import proofs.«115225_j9758165696697_2_alg».proof.Proof.Spec
import proofs.«115225_j9758165696697_2_alg».proof.Proof.LibDotTransposedRhs
import proofs.«115225_j9758165696697_2_alg».proof.Proof.LibMatmulPlain
import proofs.«115225_j9758165696697_2_alg».proof.Proof.LibCastBroadcast

noncomputable section

namespace Cert.KernelIdeal.Hand

open Idealize.ShloMosaic Idealize.SL.Sem Idealize.ShloMosaic.ValueIdx
open Cert.KernelIdeal
open scoped BigOperators

variable [Facts]
open Facts₀ Facts

/-- The (a, b) entry of an M × K by N × K product (both contracted on the last axis) accumulated into zero is
    the sum over k of l[a,k] * r[b,k]. -/
theorem matmul_transposedRhs_zero_apply {M K N : ℕ} {φ₁ φ₂ : FTy} (prec : Option ContractPrecision)
    (l : FVec Ideal ⟨2, ![M, K]⟩ φ₁) (r : FVec Ideal ⟨2, ![N, K]⟩ φ₂) (a : Fin M) (b : Fin N) :
    FloatOps.matmul (DotDims.transposedRhs M K N) prec l r (constant ⟨2, ![M, N]⟩ .f32 0x00000000#32) (ix2 a b)
      = ∑ k : Fin K, l (ix2 a k) * r (ix2 b k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun x => Fin.ext (by
      match x with
      | ⟨0, _⟩ => exact Cert.Lib.DotTransposedRhs.lhs_row _ _
      | ⟨1, _⟩ => exact (Cert.Lib.DotTransposedRhs.lhs_col _ _).trans hk)
  have er : (DotDims.transposedRhs M K N).rhsIdx (ix2 a b) ((contrEquiv1 (DotDims.transposedRhs M K N) K rfl rfl).symm k) = ix2 b k :=
    funext fun x => Fin.ext (by
      match x with
      | ⟨0, _⟩ => exact Cert.Lib.DotTransposedRhs.rhs_row _ _
      | ⟨1, _⟩ => exact (Cert.Lib.DotTransposedRhs.rhs_col _ _).trans hk)
  rw [el, er]

theorem dot_query_eq : dot_S10x256_S256x256_S10x256_1_1_0_0_n_n = DotDims.transposedRhs 10 256 256 := rfl
theorem dot_score_eq : dot_S10x256_S8192x256_S10x8192_1_1_0_0_n_n = DotDims.transposedRhs 10 256 8192 := rfl
theorem dot_gate_eq : dot_S10x256_S768x256_S10x768_1_1_0_0_n_n = DotDims.transposedRhs 10 256 768 := rfl
theorem dot_upd_eq : dot_S10x8192_S8192x256_S10x256_1_0_0_1_n_n = DotDims.plain 10 8192 256 := rfl

/-- The query map at an entry is one output of the linear map. -/
theorem kQuery_apply (x : FVec Ideal S10x256 .f32) (qw : FVec Ideal S256x256 .bf16) (qb : Vec Ideal S256 .f32)
    (n : Fin 10) (e : Fin 256) :
    kQuery (F := Ideal) x qw qb (ix2 n e)
      = Cert.Spec.lin (fun k => x (ix2 n k)) (fun e' k => qw (ix2 e' k)) (fun e' => qb (ix1 e')) e := by
  unfold kQuery Cert.Spec.lin
  simp only [addf_apply, matmul, dot_query_eq]
  rw [matmul_transposedRhs_zero_apply, Cert.Lib.CastBroadcast.row_apply]
  rfl

/-- A gate pre-activation map at an entry is one output of the linear map. -/
theorem kGate_apply (x : FVec Ideal S10x256 .f32) (w : FVec Ideal S768x256 .bf16) (b : Vec Ideal S768 .f32)
    (n : Fin 10) (q : Fin 768) :
    kGate (F := Ideal) x w b (ix2 n q)
      = Cert.Spec.lin (fun k => x (ix2 n k)) (fun q' k => w (ix2 q' k)) (fun q' => b (ix1 q')) q := by
  unfold kGate Cert.Spec.lin
  simp only [addf_apply, matmul, dot_gate_eq]
  rw [matmul_transposedRhs_zero_apply, Cert.Lib.CastBroadcast.row_apply]
  rfl

/-- A score is the product of a query row with a key row. -/
theorem kScore_apply (q : FVec Ideal S10x256 .f32) (eK : Vec Ideal S8192x256 .bf16) (n : Fin 10) (j : Fin 8192) :
    kScore (F := Ideal) q eK (ix2 n j) = ∑ d : Fin 256, q (ix2 n d) * eK (ix2 j d) := by
  unfold kScore
  simp only [matmul, dot_score_eq]
  rw [matmul_transposedRhs_zero_apply]
  rfl

/-- An update entry is the product of an attention row with a column of the value rows. -/
theorem kUpd_apply (a : FVec Ideal S10x8192 .f32) (eV : Vec Ideal S8192x256 .bf16) (n : Fin 10) (d : Fin 256) :
    kUpd (F := Ideal) a eV (ix2 n d) = ∑ j : Fin 8192, a (ix2 n j) * eV (ix2 j d) := by
  unfold kUpd
  simp only [matmul, dot_upd_eq]
  rw [Cert.Lib.MatmulPlain.matmul_plain_zero_apply]
  rfl

end Cert.KernelIdeal.Hand

end
-- ==== Proof.KStepSoftmax.lean ====
/-
  The kernel's soft-max over the slots, read at an entry on the extended reals.

  For each key column j the maximum of the ten scores is taken from minus infinity and once more against minus
  infinity; the exponentials of the scores less that maximum are summed down the column; each is divided by the sum,
  and the small constant is added.
-/
import proofs.«115225_j9758165696697_2_alg».proof.Proof.KStepStages
import proofs.«115225_j9758165696697_2_alg».proof.Proof.Spec
import proofs.«115225_j9758165696697_2_alg».proof.Proof.KStepColReduce
import proofs.«115225_j9758165696697_2_alg».proof.Proof.LibCastBroadcast

noncomputable section

namespace Cert.KernelIdeal.Hand

open Idealize.ShloMosaic Idealize.SL.Sem Idealize.ShloMosaic.ValueIdx
open Cert.KernelIdeal
open scoped BigOperators

variable [Facts]
open Facts₀ Facts

/-- An exponential taken entry by entry. -/
theorem exp_apply {s : Shape} {φ : FTy} (a : FVec Ideal s φ) (i : s.Idx) : exp a i = Ideal.exp (a i) := rfl

/-- The attention weights at an entry. -/
theorem kAttn_apply (sc : FVec Ideal S10x8192 .f32) (n : Fin 10) (j : Fin 8192) :
    kAttn (F := Ideal) sc (ix2 n j) = Cert.Spec.attn (fun n' j' => sc (ix2 n' j')) n j := by
  unfold kAttn Cert.Spec.attn Cert.Spec.expo Cert.Spec.colMax
  simp only [addf_apply, divf_apply, subf_apply, exp_apply, maximumf_apply, broadcast_apply,
    Cert.Lib.CastBroadcast.row_apply, Ideal.ofBits_def]
  rw [ColReduce.colMax_apply sc, ColReduce.colSum_apply]
  simp only [subf_apply, exp_apply, maximumf_apply, broadcast_apply,
    Cert.Lib.CastBroadcast.row_apply, Ideal.ofBits_def]
  rw [ColReduce.colMax_apply sc]

end Cert.KernelIdeal.Hand

end
-- ==== Proof.KStepCell.lean ====
/-
  The kernel's gated recurrent cell, read at an entry on the extended reals.

  The two [10,768] pre-activation matrices are cut into three column thirds each; the first thirds give the reset
  gate, the second the update gate z, the third (the hidden side scaled by the reset gate) the tanh candidate; the
  new slot entry is (1 - z) * candidate + z * update.
-/
import proofs.«115225_j9758165696697_2_alg».proof.Proof.KStepStages
import proofs.«115225_j9758165696697_2_alg».proof.Proof.Spec
import Idealize.ShloMosaic.Lib.ValueLayout

noncomputable section

namespace Cert.KernelIdeal.Hand

open Idealize.ShloMosaic Idealize.SL.Sem Idealize.ShloMosaic.ValueIdx
open Cert.KernelIdeal
open scoped BigOperators

variable [Facts]
open Facts₀ Facts

/-- A logistic taken entry by entry. -/
theorem logistic_apply {s : Shape} {φ : FTy} (a : FVec Ideal s φ) (i : s.Idx) : logistic a i = Ideal.logistic (a i) := rfl

/-- A hyperbolic tangent taken entry by entry. -/
theorem tanh_apply {s : Shape} {φ : FTy} (a : FVec Ideal s φ) (i : s.Idx) : tanh a i = Ideal.tanh (a i) := rfl

/-- The first column third of a [10,768] matrix. -/
theorem third0_apply (X : FVec Ideal S10x768 .f32) (h : S10x768.Slices ![0, 0] S10x256) (n : Fin 10) (d : Fin 256) :
    extractStridedSlice S10x256 ![0, 0] X h (ix2 n d) = X (ix2 n (Cert.Spec.third0 d)) :=
  slice2_axis1_apply 0 X h n d (Cert.Spec.third0 d) (Nat.zero_add _).symm

/-- The second column third. -/
theorem third1_apply (X : FVec Ideal S10x768 .f32) (h : S10x768.Slices ![0, 256] S10x256) (n : Fin 10) (d : Fin 256) :
    extractStridedSlice S10x256 ![0, 256] X h (ix2 n d) = X (ix2 n (Cert.Spec.third1 d)) :=
  slice2_axis1_apply 256 X h n d (Cert.Spec.third1 d) rfl

/-- The last column third. -/
theorem third2_apply (X : FVec Ideal S10x768 .f32) (h : S10x768.Slices ![0, 512] S10x256) (n : Fin 10) (d : Fin 256) :
    extractStridedSlice S10x256 ![0, 512] X h (ix2 n d) = X (ix2 n (Cert.Spec.third2 d)) :=
  slice2_axis1_apply 512 X h n d (Cert.Spec.third2 d) rfl

/-- The cell at an entry. -/
theorem kCell_apply (gx gh : FVec Ideal S10x768 .f32) (u : FVec Ideal S10x256 .f32) (n : Fin 10) (d : Fin 256) :
    kCell (F := Ideal) gx gh u (ix2 n d)
      = Cert.Spec.cell (fun q => gx (ix2 n q)) (fun q => gh (ix2 n q)) (u (ix2 n d)) d := by
  unfold kCell Cert.Spec.cell
  simp only [addf_apply, mulf_apply, subf_apply, logistic_apply, tanh_apply, broadcast_apply,
    third0_apply, third1_apply, third2_apply, Ideal.ofBits_def]

end Cert.KernelIdeal.Hand

end
-- ==== Proof.KStep.lean ====
/-
  One iteration of the kernel's slot attention is one iteration of the specification.

  Each stage of the kernel's iteration, read at an entry, is the matching piece of the specification: the normalised
  slots, their queries, the scores against the key rows, the soft-max over the slots, the updates against the value
  rows, the two gate pre-activation maps, and the cell. Composing them gives the specification's step at (n, d).
-/
import proofs.«115225_j9758165696697_2_alg».proof.Proof.KStepNorm
import proofs.«115225_j9758165696697_2_alg».proof.Proof.KStepLin
import proofs.«115225_j9758165696697_2_alg».proof.Proof.KStepSoftmax
import proofs.«115225_j9758165696697_2_alg».proof.Proof.KStepCell

noncomputable section

namespace Cert.KernelIdeal.Hand

open Idealize.ShloMosaic Idealize.SL.Sem Idealize.ShloMosaic.ValueIdx
open Cert.KernelIdeal
open scoped BigOperators

variable [Facts]
open Facts₀ Facts

/-- The iteration's weights, read as functions of coordinates. -/
abbrev kW (n2w n2b : Vec Ideal S256 .f32) (qw : FVec Ideal S256x256 .bf16) (qb : Vec Ideal S256 .f32)
    (wih whh : FVec Ideal S768x256 .bf16) (bih bhh : Vec Ideal S768 .f32) : Cert.Spec.Weights :=
  ⟨fun k => n2w (ix1 k), fun k => n2b (ix1 k), fun e k => qw (ix2 e k), fun e => qb (ix1 e),
    fun q k => wih (ix2 q k), fun q k => whh (ix2 q k), fun q => bih (ix1 q), fun q => bhh (ix1 q)⟩

variable (s : FVec Ideal S10x256 .f32) (n2w n2b : Vec Ideal S256 .f32) (qw : FVec Ideal S256x256 .bf16)
  (qb : Vec Ideal S256 .f32) (wih whh : FVec Ideal S768x256 .bf16) (bih bhh : Vec Ideal S768 .f32)
  (eK eV : Vec Ideal S8192x256 .bf16)

/-- The kernel's scores are the specification's. -/
theorem kScore_spec :
    (fun (n : Fin 10) (j : Fin 8192) => kScore (F := Ideal) (kQuery (kNorm s n2w n2b) qw qb) eK (ix2 n j))
      = Cert.Spec.score (kW n2w n2b qw qb wih whh bih bhh) (fun j e => eK (ix2 j e)) (fun n d => s (ix2 n d)) := by
  funext n j
  unfold Cert.Spec.score Cert.Spec.query
  rw [kScore_apply]
  refine Finset.sum_congr rfl fun e _ => ?_
  rw [kQuery_apply]
  have hn : (fun k => kNorm (F := Ideal) s n2w n2b (ix2 n k))
      = Cert.Spec.lnK (fun k => s (ix2 n k)) (fun k => n2w (ix1 k)) (fun k => n2b (ix1 k)) :=
    funext fun k => kNorm_apply s n2w n2b n k
  rw [hn]

/-- The kernel's updates are the specification's. -/
theorem kUpd_spec (n : Fin 10) (d : Fin 256) :
    kUpd (F := Ideal) (kAttn (kScore (kQuery (kNorm s n2w n2b) qw qb) eK)) eV (ix2 n d)
      = Cert.Spec.update (kW n2w n2b qw qb wih whh bih bhh) (fun j e => eK (ix2 j e)) (fun j e => eV (ix2 j e))
          (fun n d => s (ix2 n d)) n d := by
  unfold Cert.Spec.update
  rw [kUpd_apply]
  refine Finset.sum_congr rfl fun j _ => ?_
  rw [kAttn_apply, kScore_spec s n2w n2b qw qb wih whh bih bhh eK]

/-- One iteration of the kernel at (n, d) is the specification's step there, of the weights, key rows, value rows and
    slots read as functions of coordinates. -/
theorem kStep_apply (n : Fin 10) (d : Fin 256) :
    kStep (F := Ideal) s n2w n2b qw qb wih whh bih bhh eK eV (ix2 n d)
      = Cert.Spec.step ⟨fun k => n2w (ix1 k), fun k => n2b (ix1 k), fun e k => qw (ix2 e k), fun e => qb (ix1 e),
          fun q k => wih (ix2 q k), fun q k => whh (ix2 q k), fun q => bih (ix1 q), fun q => bhh (ix1 q)⟩
          (fun j e => eK (ix2 j e)) (fun j e => eV (ix2 j e)) (fun n' d' => s (ix2 n' d')) n d := by
  rw [kStep_eq_stages, kCell_apply]
  unfold Cert.Spec.step
  have hgx : (fun q => kGate (F := Ideal) s wih bih (ix2 n q))
      = fun q => Cert.Spec.lin (fun k => s (ix2 n k)) (fun q k => wih (ix2 q k)) (fun q => bih (ix1 q)) q :=
    funext fun q => kGate_apply s wih bih n q
  have hu : (fun k => kUpd (F := Ideal) (kAttn (kScore (kQuery (kNorm s n2w n2b) qw qb) eK)) eV (ix2 n k))
      = Cert.Spec.update (kW n2w n2b qw qb wih whh bih bhh) (fun j e => eK (ix2 j e)) (fun j e => eV (ix2 j e))
          (fun n d => s (ix2 n d)) n :=
    funext fun k => kUpd_spec s n2w n2b qw qb wih whh bih bhh eK eV n k
  have hgh : (fun q => kGate (F := Ideal) (kUpd (kAttn (kScore (kQuery (kNorm s n2w n2b) qw qb) eK)) eV) whh bhh (ix2 n q))
      = fun q => Cert.Spec.lin (Cert.Spec.update (kW n2w n2b qw qb wih whh bih bhh) (fun j e => eK (ix2 j e))
          (fun j e => eV (ix2 j e)) (fun n d => s (ix2 n d)) n) (fun q k => whh (ix2 q k)) (fun q => bhh (ix1 q)) q :=
    funext fun q => by rw [kGate_apply, hu]
  rw [hgx, hgh, kUpd_spec s n2w n2b qw qb wih whh bih bhh eK eV]

end Cert.KernelIdeal.Hand

end
-- ==== Proof.KOutValue.lean ====
/-
  The stored result block, read at an index, is three iterations of slot attention on the extended reals.

  At the ideal instance a change of float format is the identity, so the rounded query and gate maps read as the
  maps themselves; the change of shape between [1,10,256] and [10,256] only renames the index (0, n, d) ↔ (n, d);
  and each application of the one-iteration function, read at an index, is one step of the specification on the
  slots read by coordinates.  Three applications compose to the specification's three iterations.
-/
import proofs.«115225_j9758165696697_2_alg».proof.Proof.KOut
import proofs.«115225_j9758165696697_2_alg».proof.Proof.KStep
import proofs.«115225_j9758165696697_2_alg».proof.Proof.Spec
import Idealize.ShloMosaic.Lib.ValueLayout

noncomputable section

namespace Cert.KernelIdeal.Hand

open Idealize.ShloMosaic Idealize.ShloMosaic.ValueIdx Cert.KernelIdeal Cert.KernelIdeal.Gen

/-- The stored result block at (0, n, d), when every round reads the same key rows and value rows, is the
    specification's three iterations from the initial slots, at (n, d). -/
theorem kOut_apply (x1 : Vec Ideal S1x10x256 .f32) (n2w n2b : Vec Ideal S256 .f32) (qw : Vec Ideal S256x256 .f32)
    (qb : Vec Ideal S256 .f32) (wih whh : Vec Ideal S768x256 .f32) (bih bhh : Vec Ideal S768 .f32)
    (eK eV : Vec Ideal S8192x256 .bf16) (n : Fin 10) (d : Fin 256) :
    kOut (F := Ideal) x1 n2w n2b qw qb wih whh bih bhh eK eV eK eV eK eV (ix3 0 n d)
      = Cert.Spec.iter3
          ⟨fun k => n2w (ix1 k), fun k => n2b (ix1 k), fun e k => qw (ix2 e k), fun e => qb (ix1 e), fun q k => wih (ix2 q k), fun q k => whh (ix2 q k), fun q => bih (ix1 q), fun q => bhh (ix1 q)⟩
          (fun j e => eK (ix2 j e)) (fun j e => eV (ix2 j e)) (fun n' d' => x1 (ix3 0 n' d')) n d := by
  rw [kOut_eq, shapeCast_ab_1ab_apply]
  simp only [kStep_apply, truncf_apply, shapeCast_1ab_ab_apply]
  rfl

end Cert.KernelIdeal.Hand

end
-- ==== Proof.KValue.lean ====
/-
  The kernel's output block at a grid point is the specification's result for the point's batch.

  The slot block is the batch's initial slots, mu + exp (log_sigma) * noise; the weight blocks are the weight arrays;
  the batch's key rows and value rows are the specification's.  So the three iterations the body applies to its blocks
  are the specification's three iterations on the batch.
-/
import proofs.«115225_j9758165696697_2_alg».proof.Proof.KKeys
import proofs.«115225_j9758165696697_2_alg».proof.Proof.KOutValue

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.Rank3 Cert.Spec

variable (m : (ℓ : Loc nD τ sig) → Buf (Elt Ideal) ℓ)

/-- The body's three iterations on blocks that read batch `b`'s initial slots, keys and values and the iteration's
    weight arrays are the specification's result for batch `b`. -/
theorem out_of (a : Cert.Spec.Args) (x1 : Vec Ideal S1x10x256 .f32) (n2w n2b : Vec Ideal S256 .f32)
    (qw : Vec Ideal S256x256 .f32) (qb : Vec Ideal S256 .f32) (wih whh : Vec Ideal S768x256 .f32)
    (bih bhh : Vec Ideal S768 .f32) (eK eV : Vec Ideal S8192x256 .bf16) (b : Fin 16)
    (hx1 : ∀ n d, x1 (ix3 (0 : Fin 1) n d) = a.slots0 b n d) (h1 : n2w = a.n2w) (h2 : n2b = a.n2b) (h3 : qw = a.qw)
    (h4 : qb = a.qb) (h5 : wih = a.wih) (h6 : whh = a.whh) (h7 : bih = a.bih) (h8 : bhh = a.bhh)
    (hK : ∀ j e, eK (ix2 j e) = a.keys b j e) (hV : ∀ j e, eV (ix2 j e) = a.vals b j e) (n : Fin 10) (d : Fin 256) :
    kOut (F := Ideal) x1 n2w n2b qw qb wih whh bih bhh eK eV eK eV eK eV (ix3 (0 : Fin 1) n d) = a.out b n d := by
  subst h1 h2 h3 h4 h5 h6 h7 h8
  rw [kOut_apply,
    show (fun j e => eK (ix2 j e)) = a.keys b from funext fun j => funext fun e => hK j e,
    show (fun j e => eV (ix2 j e)) = a.vals b from funext fun j => funext fun e => hV j e,
    show (fun n' d' => x1 (ix3 (0 : Fin 1) n' d')) = a.slots0 b from funext fun n' => funext fun d' => hx1 n' d']
  rfl

/-- The slot block of point `t` is the specification's initial slots of batch t / 4: mu + exp (log_sigma) * noise. -/
theorem slots_apply (c : Dev nD) (t : Fin cfg0.N) (n : Fin 10) (d : Fin 256) (b : Fin 16) (hb : b.val = t.val / 4) :
    (iblk m c 1 t : FVec Ideal S1x10x256 .f32) (ix3 (0 : Fin 1) n d) = (argsOfK m c).slots0 b n d := by
  rw [iblk_slots_apply m c t n d b hb, V_slots, addf_apply, mulf_apply, bcast_11c_abc_apply, bcast_11c_abc_apply,
    hostExp_apply]
  rfl

/-- THE OUTPUT BLOCK of point `t`, at (0, n, d), is the specification's result for batch t / 4 at (n, d). -/
theorem outAt_apply (c : Dev nD) (t : Fin cfg0.N) (n : Fin 10) (d : Fin 256) :
    outAt m c t (ix3 (0 : Fin 1) n d) = (argsOfK m c).out (batchOf t) n d :=
  out_of (argsOfK m c) (iblk m c 1 t) (iblk m c 8 t) (iblk m c 9 t) (iblk m c 10 t) (iblk m c 11 t) (iblk m c 12 t)
    (iblk m c 13 t) (iblk m c 14 t) (iblk m c 15 t) (Kfull m c t) (Vfull m c t) (batchOf t)
    (fun n' d' => slots_apply m c t n' d' (batchOf t) rfl) (iblk_w8_eq m c t) (iblk_w9_eq m c t) (iblk_w10_eq m c t)
    (iblk_w11_eq m c t) (iblk_w12_eq m c t) (iblk_w13_eq m c t) (iblk_w14_eq m c t) (iblk_w15_eq m c t)
    (fun j e => Kfull_apply m c t j e (batchOf t) rfl) (fun j e => Vfull_apply m c t j e (batchOf t) rfl) n d

end Cert.KernelIdeal.Hand

end
-- ==== Proof.KResult.lean ====
/-
  The kernel's result array at the exact instance.

  The output block at a batch's last tile is the specification's result for that batch (the blocks read the argument
  arrays, the batch's key and value rows are the specification's); the result array is assembled from those blocks; so
  the run ends with the result array at the specification's result of the eighteen argument arrays, and with the
  argument arrays as they began.
-/
import proofs.«115225_j9758165696697_2_alg».proof.Proof.KResultOf
import proofs.«115225_j9758165696697_2_alg».proof.Proof.KValue
import proofs.«115225_j9758165696697_2_alg».proof.Proof.KBody

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The kernel's result array: at (b, n, d), the specification's result for batch b of the argument arrays. -/
def kResult (c : Dev nD) : Buf (Elt Ideal) ((c.tc : Thread nD τ).loc main_v5) :=
  resultOf (F := Ideal) (fun b n d => (argsOfK m c).out b n d)

/-- The result array read at an entry. -/
theorem kResult_apply (c : Dev nD) (b : Fin 16) (n : Fin 10) (d : Fin 256) :
    (kResult m c : S16x10x256.Idx → EReal) (ix3 b n d) = (argsOfK m c).out b n d := rfl

/-- The output block at a batch's last tile is the specification's result for the batch, whichever way the batch is named. -/
theorem outAt_batch (c : Dev nD) (t : Fin cfg0.N) (b : Fin 16) (hb : b.val = t.val / 4) (n : Fin 10) (d : Fin 256) :
    outAt m c t (ix3 (0 : Fin 1) n d) = (argsOfK m c).out b n d :=
  (outAt_apply m c t n d).trans (congrArg (fun b' => (argsOfK m c).out b' n d) (Fin.ext hb.symm))

set_option maxHeartbeats 1600000 in
/-- THE VALUE RUN: every weakly fair execution of @main terminates, the result array ends at the specification's
    result of the argument arrays, and the argument arrays end as they began. -/
theorem run_value :
    θ_run defs (onTc (τ := τ) (main (F := Ideal))) ⟨m, fun _ => 0, ρ⟩ (fun r => ∀ c : Dev nD,
      r.2.mem ((c.tc : Thread nD τ).loc main_v5) = kResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  value_of m ρ (fun c b n d => (argsOfK m c).out b n d) (fun c t _ b hb n d => outAt_batch m c t b hb n d) (run_main m ρ)

end Cert.KernelIdeal.Hand

end
-- ==== Proof.RefStepDefs.lean ====
/-
  One iteration of the reference's slot attention, as a function of arrays.

  The host operations that take the slots, the keys, the values and the iteration's weight arrays to the next
  slots, composed in the printed order and split into named stages: the row mean, the centred rows, the normalised
  rows, the queries, the scores, the exponentials, the attention weights, the updates, the two rows of gate
  pre-activations, the update gate and the new slots.  Nothing is proved here; every stage is a closed term of
  host operations over its parameters.
-/
import proofs.«115225_j9758165696697_2_alg».proof.ReferenceIdeal

set_option maxRecDepth 8192

noncomputable section

namespace Cert.RefValue

open Idealize.ShloMosaic Cert.ReferenceIdeal

variable {F : FTy → Type} [FloatOps F] [Facts]
open Facts₀ Facts

/-- The row means (one per batch and slot): the row sums over the word 256. -/
def refMean (S : (⟨S16x10x256, .f32⟩ : BufTy).Contents (Elt F)) : (⟨S16x10x1, .f32⟩ : BufTy).Contents (Elt F) :=
  Host.divf (broadcastInDim S16x10x1 ![0, 1] bcast_S16x10_S16x10x1_0_1 (Host.reduceAdd S (constant S_ .f32 0x00000000#32) reducesTo_S16x10x256_S16x10_d2 h_S_)) (broadcastInDim S16x10x1 ![] bcast_S_S16x10x1 (constant S_ .f32 0x43800000#32))

/-- The rows less their means. -/
def refCentered (S : (⟨S16x10x256, .f32⟩ : BufTy).Contents (Elt F)) : (⟨S16x10x256, .f32⟩ : BufTy).Contents (Elt F) :=
  subf S (broadcastInDim S16x10x256 ![0, 1, 2] bcast_S16x10x1_S16x10x256_0_1_2 (refMean S))

/-- The square roots of the row variances plus the small constant. -/
def refStd (S : (⟨S16x10x256, .f32⟩ : BufTy).Contents (Elt F)) : (⟨S16x10x1, .f32⟩ : BufTy).Contents (Elt F) :=
  Host.sqrt (addf (Host.divf (broadcastInDim S16x10x1 ![0, 1] bcast_S16x10_S16x10x1_0_1 (Host.reduceAdd (mulf (refCentered S) (refCentered S)) (constant S_ .f32 0x00000000#32) reducesTo_S16x10x256_S16x10_d2 h_S_)) (broadcastInDim S16x10x1 ![] bcast_S_S16x10x1 (constant S_ .f32 0x43800000#32))) (broadcastInDim S16x10x1 ![] bcast_S_S16x10x1 (constant S_ .f32 0x3727C5AC#32)))

/-- The normalised rows: centred, over the root, times the scale, plus the shift. -/
def refNormed (S : (⟨S16x10x256, .f32⟩ : BufTy).Contents (Elt F)) (n2w n2b : (⟨S256, .f32⟩ : BufTy).Contents (Elt F)) : (⟨S16x10x256, .f32⟩ : BufTy).Contents (Elt F) :=
  addf (mulf (Host.divf (subf S (broadcastInDim S16x10x256 ![0, 1, 2] bcast_S16x10x1_S16x10x256_0_1_2 (refMean S))) (broadcastInDim S16x10x256 ![0, 1, 2] bcast_S16x10x1_S16x10x256_0_1_2 (refStd S))) (broadcastInDim S16x10x256 ![0, 1, 2] bcast_S1x1x256_S16x10x256_0_1_2 (broadcastInDim S1x1x256 ![2] bcast_S256_S1x1x256_2 n2w))) (broadcastInDim S16x10x256 ![0, 1, 2] bcast_S1x1x256_S16x10x256_0_1_2 (broadcastInDim S1x1x256 ![2] bcast_S256_S1x1x256_2 n2b))

/-- The queries: the normalised rows through the query map. -/
def refQuery (S : (⟨S16x10x256, .f32⟩ : BufTy).Contents (Elt F)) (n2w n2b : (⟨S256, .f32⟩ : BufTy).Contents (Elt F)) (qw : (⟨S256x256, .f32⟩ : BufTy).Contents (Elt F)) (qb : (⟨S256, .f32⟩ : BufTy).Contents (Elt F)) : (⟨S16x10x256, .f32⟩ : BufTy).Contents (Elt F) :=
  addf (Host.dotGeneral dot_S16x10x256_S256x256_S16x10x256_2_1_01_0_n_n none (refNormed S n2w n2b) qw) (broadcastInDim S16x10x256 ![0, 1, 2] bcast_S1x1x256_S16x10x256_0_1_2 (broadcastInDim S1x1x256 ![2] bcast_S256_S1x1x256_2 qb))

/-- The scores: queries against the batch's key rows. -/
def refScores (S : (⟨S16x10x256, .f32⟩ : BufTy).Contents (Elt F)) (Kb : (⟨S16x8192x256, .f32⟩ : BufTy).Contents (Elt F)) (n2w n2b : (⟨S256, .f32⟩ : BufTy).Contents (Elt F)) (qw : (⟨S256x256, .f32⟩ : BufTy).Contents (Elt F)) (qb : (⟨S256, .f32⟩ : BufTy).Contents (Elt F)) : (⟨S16x10x8192, .f32⟩ : BufTy).Contents (Elt F) :=
  Host.dotGeneral dot_S16x10x256_S16x8192x256_S16x10x8192_2_2_1_1_0_0 none (refQuery S n2w n2b qw qb) Kb

/-- The exponentials of the scores less their maxima over the slots. -/
def refExp (sc : (⟨S16x10x8192, .f32⟩ : BufTy).Contents (Elt F)) : (⟨S16x10x8192, .f32⟩ : BufTy).Contents (Elt F) :=
  Host.exp (subf sc (broadcastInDim S16x10x8192 ![0, 1, 2] bcast_S16x1x8192_S16x10x8192_0_1_2 (broadcastInDim S16x1x8192 ![0, 2] bcast_S16x8192_S16x1x8192_0_2 (maximumf (broadcastInDim S16x8192 ![] bcast_S_S16x8192 (constant S_ .f32 0xFF800000#32)) (Host.reduce FloatOps.maximumf sc (constant S_ .f32 0xFF800000#32) reducesTo_S16x10x8192_S16x8192_d1 h_S_)))))

/-- The attention weights: the exponentials over their sums across the slots, plus the small constant. -/
def refAttn (ex : (⟨S16x10x8192, .f32⟩ : BufTy).Contents (Elt F)) : (⟨S16x10x8192, .f32⟩ : BufTy).Contents (Elt F) :=
  addf (Host.divf ex (broadcastInDim S16x10x8192 ![0, 1, 2] bcast_S16x1x8192_S16x10x8192_0_1_2 (broadcastInDim S16x1x8192 ![0, 2] bcast_S16x8192_S16x1x8192_0_2 (Host.reduceAdd ex (constant S_ .f32 0x00000000#32) reducesTo_S16x10x8192_S16x8192_d1 h_S_)))) (broadcastInDim S16x10x8192 ![] bcast_S_S16x10x8192 (constant S_ .f32 0x33D6BF95#32))

/-- The updates: attention weights against the batch's value rows. -/
def refUpdate (S : (⟨S16x10x256, .f32⟩ : BufTy).Contents (Elt F)) (Kb Vb : (⟨S16x8192x256, .f32⟩ : BufTy).Contents (Elt F)) (n2w n2b : (⟨S256, .f32⟩ : BufTy).Contents (Elt F)) (qw : (⟨S256x256, .f32⟩ : BufTy).Contents (Elt F)) (qb : (⟨S256, .f32⟩ : BufTy).Contents (Elt F)) : (⟨S16x10x256, .f32⟩ : BufTy).Contents (Elt F) :=
  Host.dotGeneral dot_S16x10x8192_S16x8192x256_S16x10x256_2_1_1_2_0_0 none (refAttn (refExp (refScores S Kb n2w n2b qw qb))) Vb

/-- A row of 768 gate pre-activations: the rows through a gate map, plus its bias. -/
def refGates (X : (⟨S16x10x256, .f32⟩ : BufTy).Contents (Elt F)) (w : (⟨S768x256, .f32⟩ : BufTy).Contents (Elt F)) (bias : (⟨S768, .f32⟩ : BufTy).Contents (Elt F)) : (⟨S16x10x768, .f32⟩ : BufTy).Contents (Elt F) :=
  addf (Host.dotGeneral dot_S16x10x256_S768x256_S16x10x768_2_1_01_0_n_n none X w) (broadcastInDim S16x10x768 ![0, 1, 2] bcast_S1x1x768_S16x10x768_0_1_2 (broadcastInDim S1x1x768 ![2] bcast_S768_S1x1x768_2 bias))

/-- The update gate: the expanded logistic of the middle thirds' sum. -/
def refZ (gx gh : (⟨S16x10x768, .f32⟩ : BufTy).Contents (Elt F)) : (⟨S16x10x256, .f32⟩ : BufTy).Contents (Elt F) :=
  Host.divf (broadcastInDim S16x10x256 ![] bcast_S_S16x10x256 (constant S_ .f32 0x3F800000#32)) (addf (broadcastInDim S16x10x256 ![] bcast_S_S16x10x256 (constant S_ .f32 0x3F800000#32)) (Host.exp (Host.negf (addf (extractStridedSlice S16x10x256 ![0, 0, 256] gx slices_S16x10x768_S16x10x256_0_0_256) (extractStridedSlice S16x10x256 ![0, 0, 256] gh slices_S16x10x768_S16x10x256_0_0_256)))))

/-- The gated cell: (1 - z) * tanh (third2 gx + r * third2 gh) + z * u, with r the expanded logistic of the first
    thirds' sum. -/
def refCell (gx gh : (⟨S16x10x768, .f32⟩ : BufTy).Contents (Elt F)) (u : (⟨S16x10x256, .f32⟩ : BufTy).Contents (Elt F)) : (⟨S16x10x256, .f32⟩ : BufTy).Contents (Elt F) :=
  addf (mulf (subf (broadcastInDim S16x10x256 ![] bcast_S_S16x10x256 (constant S_ .f32 0x3F800000#32)) (refZ gx gh)) (Host.tanh (addf (extractStridedSlice S16x10x256 ![0, 0, 512] gx slices_S16x10x768_S16x10x256_0_0_512) (mulf (Host.divf (broadcastInDim S16x10x256 ![] bcast_S_S16x10x256 (constant S_ .f32 0x3F800000#32)) (addf (broadcastInDim S16x10x256 ![] bcast_S_S16x10x256 (constant S_ .f32 0x3F800000#32)) (Host.exp (Host.negf (addf (extractStridedSlice S16x10x256 ![0, 0, 0] gx slices_S16x10x768_S16x10x256_0_0_0) (extractStridedSlice S16x10x256 ![0, 0, 0] gh slices_S16x10x768_S16x10x256_0_0_0)))))) (extractStridedSlice S16x10x256 ![0, 0, 512] gh slices_S16x10x768_S16x10x256_0_0_512))))) (mulf (refZ gx gh) u)

/-- One iteration: the next slots from the slots, the keys, the values and the weight arrays. -/
def refStep (S : (⟨S16x10x256, .f32⟩ : BufTy).Contents (Elt F)) (Kb Vb : (⟨S16x8192x256, .f32⟩ : BufTy).Contents (Elt F)) (n2w n2b : (⟨S256, .f32⟩ : BufTy).Contents (Elt F)) (qw : (⟨S256x256, .f32⟩ : BufTy).Contents (Elt F)) (qb : (⟨S256, .f32⟩ : BufTy).Contents (Elt F)) (wih whh : (⟨S768x256, .f32⟩ : BufTy).Contents (Elt F)) (bih bhh : (⟨S768, .f32⟩ : BufTy).Contents (Elt F)) : (⟨S16x10x256, .f32⟩ : BufTy).Contents (Elt F) :=
  refCell (refGates S wih bih) (refGates (refUpdate S Kb Vb n2w n2b qw qb) whh bhh) (refUpdate S Kb Vb n2w n2b qw qb)

end Cert.RefValue

end
-- ==== Proof.RefAssemble.lean ====
/-
  The reference program's result as three iterations of one step.

  The run leaves the result buffer at one composed term of the argument arrays.  That term is the iteration's step
  applied three times to the initial slots, each time against the same key rows, value rows and weight arrays: the
  operations of each iteration are, stage by stage and in the printed order, the step's.
-/
import proofs.«115225_j9758165696697_2_alg».proof.Proof.Gen.ReferenceIdeal.Run
import proofs.«115225_j9758165696697_2_alg».proof.Proof.RefStepDefs
import Idealize.ShloMosaic.PureOps.Ideal

set_option maxRecDepth 8192

noncomputable section

namespace Cert.RefValue

open Cert.ReferenceIdeal Cert.ReferenceIdeal.Gen Cert.ReferenceIdeal.Value Idealize.ShloMosaic Idealize.ShloMosaic.TcCoe
  Idealize.SL.Sem Idealize.ShloMosaic.StableHlo

variable {F : FTy → Type} [FloatOps F]

/-- The result buffer's composed term of the arguments, as the run states it. -/
def refOut (V0 : Valuation τ sig (Elt F)) : (Proc.devRef .tc main_v273 : DevRef τ sig).ty.Contents (Elt F) :=
  addf (mulf (subf (broadcastInDim S16x10x256 ![] bcast_S_S16x10x256 (constant S_ .f32 0x3F800000#32)) (res_main_v265 V0)) (Host.tanh (addf (extractStridedSlice S16x10x256 ![0, 0, 512] (res_main_v241 V0) slices_S16x10x768_S16x10x256_0_0_512) (mulf (Host.divf (broadcastInDim S16x10x256 ![] bcast_S_S16x10x256 (constant S_ .f32 0x3F800000#32)) (addf (broadcastInDim S16x10x256 ![] bcast_S_S16x10x256 (constant S_ .f32 0x3F800000#32)) (Host.exp (Host.negf (addf (extractStridedSlice S16x10x256 ![0, 0, 0] (res_main_v241 V0) slices_S16x10x768_S16x10x256_0_0_0) (extractStridedSlice S16x10x256 ![0, 0, 0] (res_main_v245 V0) slices_S16x10x768_S16x10x256_0_0_0)))))) (extractStridedSlice S16x10x256 ![0, 0, 512] (res_main_v245 V0) slices_S16x10x768_S16x10x256_0_0_512))))) (mulf (res_main_v265 V0) (res_main_v237 V0))

/-- One step from the slots `S`, against the prologue's key and value rows and the iteration's weight arrays. -/
def stepOf (V0 : Valuation τ sig (Elt F)) (S : (⟨S16x10x256, .f32⟩ : BufTy).Contents (Elt F)) :
    (⟨S16x10x256, .f32⟩ : BufTy).Contents (Elt F) :=
  refStep S (res_main_v32 V0) (res_main_v36 V0) (V0 (Proc.devRef .tc main_arg6)) (V0 (Proc.devRef .tc main_arg7))
    (V0 (Proc.devRef .tc main_arg8)) (V0 (Proc.devRef .tc main_arg9)) (V0 (Proc.devRef .tc main_arg14))
    (V0 (Proc.devRef .tc main_arg15)) (V0 (Proc.devRef .tc main_arg16)) (V0 (Proc.devRef .tc main_arg17))

/-- The first iteration's operations are the step's, from the initial slots. -/
theorem iter1_eq (V0 : Valuation τ sig (Elt F)) : res_main_v115 V0 = stepOf V0 (res_main_v28 V0) := rfl

/-- The second iteration's, from the first's slots. -/
theorem iter2_eq (V0 : Valuation τ sig (Elt F)) : res_main_v194 V0 = stepOf V0 (res_main_v115 V0) := rfl

/-- The third iteration's, from the second's slots. -/
theorem iter3_eq (V0 : Valuation τ sig (Elt F)) : refOut V0 = stepOf V0 (res_main_v194 V0) := rfl

/-- The result is three steps from the initial slots. -/
theorem refOut_eq (V0 : Valuation τ sig (Elt F)) :
    refOut V0 = stepOf V0 (stepOf V0 (stepOf V0 (res_main_v28 V0))) := by
  rw [iter3_eq, iter2_eq, iter1_eq]

set_option maxRecDepth 8192 in
/-- The run restated: every weakly fair execution of `@main` ends with the result buffer at `refOut` of the launch
    contents and every argument array as it was. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v273) = refOut (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  Value.run m ρ

end Cert.RefValue

end
-- ==== Proof.RefArgs.lean ====
/-
  The reference program's eighteen argument arrays, gathered as the specification's arguments.
-/
import proofs.«115225_j9758165696697_2_alg».proof.Proof.Gen.ReferenceIdeal.Run
import proofs.«115225_j9758165696697_2_alg».proof.Proof.Spec

noncomputable section

namespace Cert.RefValue

open Cert.ReferenceIdeal Cert.ReferenceIdeal.Gen Idealize.ShloMosaic Idealize.ShloMosaic.TcCoe Idealize.SL.Sem
  Idealize.ShloMosaic.StableHlo

/-- The specification's arguments read off a valuation of the reference's buffers: argument `i` of `@main` is the
    array the valuation holds at `main_arg i`. -/
def argsOf (V0 : Valuation τ sig (Elt Ideal)) : Cert.Spec.Args where
  feat := V0 (Proc.devRef .tc main_arg0)
  noise := V0 (Proc.devRef .tc main_arg1)
  mu := V0 (Proc.devRef .tc main_arg2)
  ls := V0 (Proc.devRef .tc main_arg3)
  n1w := V0 (Proc.devRef .tc main_arg4)
  n1b := V0 (Proc.devRef .tc main_arg5)
  n2w := V0 (Proc.devRef .tc main_arg6)
  n2b := V0 (Proc.devRef .tc main_arg7)
  qw := V0 (Proc.devRef .tc main_arg8)
  qb := V0 (Proc.devRef .tc main_arg9)
  kw := V0 (Proc.devRef .tc main_arg10)
  kb := V0 (Proc.devRef .tc main_arg11)
  vw := V0 (Proc.devRef .tc main_arg12)
  vb := V0 (Proc.devRef .tc main_arg13)
  wih := V0 (Proc.devRef .tc main_arg14)
  whh := V0 (Proc.devRef .tc main_arg15)
  bih := V0 (Proc.devRef .tc main_arg16)
  bhh := V0 (Proc.devRef .tc main_arg17)

end Cert.RefValue

end
-- ==== Proof.RefPrologue.lean ====
/-
  The reference program's prologue, read at an entry: the normalised feature rows, the key rows, the value rows and the
  initial slots are the specification's functions of the argument arrays.

  The host normalises a feature row as (x - mean) / sqrt (var + eps) * w + b, with each sum started at the zero word;
  the specification's form multiplies by the reciprocal square root, and the two agree on every extended real.  The key
  and value rows are the normalised row against the rows of a weight matrix, plus a bias; the initial slots are
  mu + exp (log_sigma) * noise with mu and log_sigma repeated over the batches and the slots.
-/
import proofs.«115225_j9758165696697_2_alg».proof.Proof.Gen.ReferenceIdeal.Run
import proofs.«115225_j9758165696697_2_alg».proof.Proof.Spec
import proofs.«115225_j9758165696697_2_alg».proof.Proof.SpecLaws
import proofs.«115225_j9758165696697_2_alg».proof.Proof.RefArgs
import proofs.«115225_j9758165696697_2_alg».proof.Proof.LibRank3

noncomputable section

open scoped BigOperators

namespace Cert.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Lib.Rank3 Cert.Spec

variable (V0 : Valuation τ sig (Elt Ideal))

/-- Row `s` of batch `b` of the feature array. -/
abbrev featRow (b : Fin 16) (s : Fin 8192) : Fin 256 → EReal := fun k => (argsOf V0).feat (ix3 b s k)

/-- The row means: the row's sum (from the zero word) over the word 256. -/
theorem v3_apply (b : Fin 16) (s : Fin 8192) (u : Fin 1) :
    res_main_v3 V0 (ix3 b s u) = mean (featRow V0 b s) := by
  unfold res_main_v3
  rw [hostDivf_apply, bcast_ab_ab1_apply, hostSumLast_apply, broadcastInDim_scalar_apply, constant_apply, constant_apply,
    zero_word, zero_add]
  rfl

/-- The centred rows. -/
theorem v5_apply (b : Fin 16) (s : Fin 8192) (k : Fin 256) :
    res_main_v5 V0 (ix3 b s k) = featRow V0 b s k - mean (featRow V0 b s) := by
  unfold res_main_v5
  rw [subf_apply, bcast_ab1_abc_apply, v3_apply]
  rfl

/-- The normalised feature rows, in the host's form. -/
theorem v23_lnR (b : Fin 16) (s : Fin 8192) (k : Fin 256) :
    res_main_v23 V0 (ix3 b s k)
      = lnR (featRow V0 b s) (fun k' => (argsOf V0).n1w (ix1 k')) (fun k' => (argsOf V0).n1b (ix1 k')) k := by
  unfold res_main_v23
  rw [addf_apply, mulf_apply, hostDivf_apply, subf_apply, bcast_ab1_abc_apply, v3_apply, bcast_ab1_abc_apply,
    hostSqrt_apply, addf_apply, hostDivf_apply, bcast_ab_ab1_apply, hostSumLast_apply, broadcastInDim_scalar_apply,
    broadcastInDim_scalar_apply, constant_apply, constant_apply, constant_apply, zero_word, zero_add, bcast_row_apply,
    bcast_row_apply]
  simp only [mulf_apply, v5_apply]
  rfl

/-- The normalised feature rows are the specification's. -/
theorem v23_apply (b : Fin 16) (s : Fin 8192) (k : Fin 256) :
    res_main_v23 V0 (ix3 b s k) = (argsOf V0).normed b s k := by
  rw [v23_lnR, lnR_eq_lnK]
  rfl

/-- The printed dimension numbers of the two row-by-matrix products are the rows-against-rows ones. -/
theorem dot_prologue_eq :
    dot_S16x8192x256_S256x256_S16x8192x256_2_1_01_0_n_n
      = rowsDims (a := 16) (b := 8192) (K := 256) (N := 256) dot_S16x8192x256_S256x256_S16x8192x256_2_1_01_0_n_n_wf := rfl

/-- The key rows. -/
theorem v32_apply (b : Fin 16) (s : Fin 8192) (e : Fin 256) :
    res_main_v32 V0 (ix3 b s e) = (argsOf V0).keys b s e := by
  unfold res_main_v32
  rw [addf_apply, bcast_row_apply]
  simp only [Host.dotGeneral]
  rw [dot_prologue_eq, dot_rows_apply]
  simp only [v23_apply]
  rfl

/-- The value rows. -/
theorem v36_apply (b : Fin 16) (s : Fin 8192) (e : Fin 256) :
    res_main_v36 V0 (ix3 b s e) = (argsOf V0).vals b s e := by
  unfold res_main_v36
  rw [addf_apply, bcast_row_apply]
  simp only [Host.dotGeneral]
  rw [dot_prologue_eq, dot_rows_apply]
  simp only [v23_apply]
  rfl

/-- The initial slots: mu + exp (log_sigma) * noise. -/
theorem v28_apply (b : Fin 16) (n : Fin 10) (d : Fin 256) :
    res_main_v28 V0 (ix3 b n d) = (argsOf V0).slots0 b n d := by
  unfold res_main_v28
  rw [addf_apply, mulf_apply, bcast_11c_abc_apply, bcast_11c_abc_apply, hostExp_apply]
  rfl

end Cert.RefValue

end
-- ==== Proof.Rank3Read.lean ====
/-
  Host operations on rank-3 arrays, read at an entry, on the extended reals.

  For an [a, b, c] array: the sum over the last axis and the sum and the maximum over the middle axis, read at the two
  remaining coordinates; the keepdims broadcasts [a,b] → [a,b,1] → [a,b,c] and [a,c] → [a,1,c] → [a,b,c], and a vector
  [c] → [1,1,c] → [a,b,c]; a slice of the last axis; and three products: rows against a matrix contracted on its last
  axis, a batched product of rows against rows (both contracted on their last axis), and a batched plain product.
-/
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember

noncomputable section

namespace Cert.Rank3

open Idealize.ShloMosaic Idealize.ShloMosaic.ValueIdx

variable {α : Type} {a b c : ℕ}

/-! ## Reductions -/

/-- Entry (p, q) with the last coordinate k put back is (p, q, k). -/
theorem lift_last (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext x; apply Fin.ext
  fin_cases x <;> rfl

/-- Entry (p, r) with the middle coordinate k put back is (p, k, r). -/
theorem lift_mid (h : (⟨3, ![a, b, c]⟩ : Shape).Reduces [1] (⟨2, ![a, c]⟩ : Shape)) (p : Fin a) (r : Fin c)
    (k : Fin ((⟨3, ![a, b, c]⟩ : Shape).size 1)) : h.lift (ix2 p r) k = ix3 p (⟨k.val, k.isLt⟩ : Fin b) r := by
  funext x; apply Fin.ext
  fin_cases x <;> rfl

theorem reduces_last (h' : (⟨3, ![a, b, c]⟩ : Shape).ReducesTo [2] (⟨2, ![a, b]⟩ : Shape)) :
    (⟨3, ![a, b, c]⟩ : Shape).Reduces [2] (⟨2, ![a, b]⟩ : Shape) := ⟨h'.1, Nat.two_pos, h'.2⟩

theorem reduces_mid (h' : (⟨3, ![a, b, c]⟩ : Shape).ReducesTo [1] (⟨2, ![a, c]⟩ : Shape)) :
    (⟨3, ![a, b, c]⟩ : Shape).Reduces [1] (⟨2, ![a, c]⟩ : Shape) := ⟨h'.1, Nat.two_pos, h'.2⟩

/-- The host's sum over the last axis, at (p, q): the initial value plus the sum of the row's entries. -/
theorem hostSumLast_apply (X : FVec Ideal ⟨3, ![a, b, c]⟩ .f32) (init : FVec Ideal ⟨0, ![]⟩ .f32)
    (h' : (⟨3, ![a, b, c]⟩ : Shape).ReducesTo [2] (⟨2, ![a, b]⟩ : Shape)) (hu : 0 < (⟨0, ![]⟩ : Shape).numel)
    (p : Fin a) (q : Fin b) :
    Host.reduceAdd X init h' hu (ix2 p q) = init ix0 + ∑ k : Fin c, X (ix3 p q k) := by
  have h := reduces_last h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_last h p q k))

/-- The host's sum over the middle axis, at (p, r): the initial value plus the sum of the column's entries. -/
theorem hostSumMid_apply (X : FVec Ideal ⟨3, ![a, b, c]⟩ .f32) (init : FVec Ideal ⟨0, ![]⟩ .f32)
    (h' : (⟨3, ![a, b, c]⟩ : Shape).ReducesTo [1] (⟨2, ![a, c]⟩ : Shape)) (hu : 0 < (⟨0, ![]⟩ : Shape).numel)
    (p : Fin a) (r : Fin c) :
    Host.reduceAdd X init h' hu (ix2 p r) = init ix0 + ∑ k : Fin b, X (ix3 p k r) := by
  have h := reduces_mid h'
  have hi : init (Shape.Idx.first hu) = init ix0 := congrArg init (eq_ix0 _)
  rw [hostReduceAdd_apply, Ideal.hostReduceAdd_single h' h, hi]
  exact congrArg (init ix0 + ·) (Finset.sum_congr rfl fun k _ => congrArg X (lift_mid h p r k))

/-- The host's reduce with a maximum body over the middle axis, at (p, r): the fold of max over the column's entries from
    the initial value. -/
theorem hostMaxMid_apply (X : FVec Ideal ⟨3, ![a, b, c]⟩ .f32) (init : FVec Ideal ⟨0, ![]⟩ .f32)
    (h' : (⟨3, ![a, b, c]⟩ : Shape).ReducesTo [1] (⟨2, ![a, c]⟩ : Shape)) (hu : 0 < (⟨0, ![]⟩ : Shape).numel)
    (p : Fin a) (r : Fin c) :
    Host.reduce FloatOps.maximumf X init h' hu (ix2 p r)
      = (Finset.univ : Finset (Fin b)).fold max (init ix0) (fun k => X (ix3 p k r)) := by
  have h := reduces_mid h'
  rw [Host.reduce_eq_fold_single FloatOps.maximumf X init h' h hu]
  have hi : init (Shape.Idx.first hu) = init ix0 := congrArg init (eq_ix0 _)
  rw [hi]
  exact congrArg (fun f => Finset.fold max (init ix0) f (Finset.univ : Finset (Fin b)))
    (funext fun k => congrArg X (lift_mid h p r k))

/-! ## Broadcasts -/

/-- [a, b] placed on the first two axes of [a, b, 1]. -/
theorem bcast_ab_ab1 (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply _ h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] repeated along the last axis of [a, b, c]. -/
theorem bcast_ab1_abc (v : (⟨3, ![a, b, 1]⟩ : Shape).Idx → α)
    (h : (⟨3, ![a, b, 1]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p q (0 : Fin 1)) := by
  refine broadcastInDim_apply _ h v (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, c] placed on the outer axes of [a, 1, c]. -/
theorem bcast_ac_a1c (v : (⟨2, ![a, c]⟩ : Shape).Idx → α)
    (h : (⟨2, ![a, c]⟩ : Shape).BroadcastsInDim ⟨3, ![a, 1, c]⟩ ![0, 2]) (p : Fin a) (u : Fin 1) (r : Fin c) :
    broadcastInDim ⟨3, ![a, 1, c]⟩ ![0, 2] h v (ix3 p u r) = v (ix2 p r) := by
  refine broadcastInDim_apply _ h v (ix3 p u r) (ix2 p r) fun ax => ?_
  match ax with
  | ⟨0, _⟩ =>
    show p.val = if a = 1 then 0 else p.val
    split
    · have := p.isLt; omega
    · rfl
  | ⟨1, _⟩ =>
    show r.val = if c = 1 then 0 else r.val
    split
    · have := r.isLt; omega
    · rfl

/-- [a, 1, c] repeated along the middle axis of [a, b, c]. -/
theorem bcast_a1c_abc (v : (⟨3, ![a, 1, c]⟩ : Shape).Idx → α)
    (h : (⟨3, ![a, 1, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 p (0 : Fin 1) r) := by
  refine broadcastInDim_apply _ h v (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A vector [c] placed on the last axis of [1, 1, c]. -/
theorem bcast_c_11c (v : (⟨1, ![c]⟩ : Shape).Idx → α)
    (h : (⟨1, ![c]⟩ : Shape).BroadcastsInDim ⟨3, ![1, 1, c]⟩ ![2]) (u w : Fin 1) (r : Fin c) :
    broadcastInDim ⟨3, ![1, 1, c]⟩ ![2] h v (ix3 u w r) = v (ix1 r) := by
  refine broadcastInDim_apply _ h v (ix3 u w r) (ix1 r) fun ax => ?_
  match ax with
  | ⟨0, _⟩ =>
    show r.val = if c = 1 then 0 else r.val
    split
    · have := r.isLt; omega
    · rfl

/-- [1, 1, c] repeated along the first two axes of [a, b, c]. -/
theorem bcast_11c_abc (v : (⟨3, ![1, 1, c]⟩ : Shape).Idx → α)
    (h : (⟨3, ![1, 1, c]⟩ : Shape).BroadcastsInDim ⟨3, ![a, b, c]⟩ ![0, 1, 2]) (p : Fin a) (q : Fin b) (r : Fin c) :
    broadcastInDim ⟨3, ![a, b, c]⟩ ![0, 1, 2] h v (ix3 p q r) = v (ix3 (0 : Fin 1) (0 : Fin 1) r) := by
  refine broadcastInDim_apply _ h v (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- A vector [c] repeated over [a, b, c] through [1, 1, c]. -/
theorem bcast_c_abc (v : (⟨1, ![c]⟩ : Shape).Idx → α)
    (h₁ : (⟨1, ![c]⟩ : Shape).BroadcastsInDim ⟨3, ![1, 1, c]⟩ ![2])
    (h₂ : (⟨3, ![1, 1, c]⟩ : Shape).BroadcastsInDim ⟨3, ![a, b, c]⟩ ![0, 1, 2]) (p : Fin a) (q : Fin b) (r : Fin c) :
    broadcastInDim ⟨3, ![a, b, c]⟩ ![0, 1, 2] h₂ (broadcastInDim ⟨3, ![1, 1, c]⟩ ![2] h₁ v) (ix3 p q r) = v (ix1 r) :=
  (bcast_11c_abc _ h₂ p q r).trans (bcast_c_11c v h₁ 0 0 r)

/-! ## A slice of the last axis -/

/-- The block of [a, b, c] that starts at column o of the last axis, of width c', read at (p, q, r), is the array at
    (p, q, o + r). -/
theorem sliceLast_apply {c' : ℕ} (o : ℕ) (x : (⟨3, ![a, b, c]⟩ : Shape).Idx → α)
    (h : (⟨3, ![a, b, c]⟩ : Shape).Slices ![0, 0, o] ⟨3, ![a, b, c']⟩) (p : Fin a) (q : Fin b) (r : Fin c')
    (t : Fin c) (ht : t.val = o + r.val) :
    extractStridedSlice ⟨3, ![a, b, c']⟩ ![0, 0, o] x h (ix3 p q r) = x (ix3 p q t) := by
  refine extractStridedSlice_apply _ x h (ix3 p q r) (ix3 p q t) fun ax => ?_
  match ax with
  | ⟨0, _⟩ => exact (Nat.zero_add _).symm
  | ⟨1, _⟩ => exact (Nat.zero_add _).symm
  | ⟨2, _⟩ => exact ht

end Cert.Rank3

end
-- ==== Proof.Rank3Dot.lean ====
/-
  Host products on rank-3 arrays, read at an entry, on the extended reals.

  Rows [a, b, k] against a matrix [n, k] contracted on its last axis: the entry (p, q, e) is Σ_k l[p,q,k] · r[e,k].
  A batched product of rows [a, b, k] against rows [a, m, k], both contracted on their last axis: the entry (p, q, j) is
  Σ_k l[p,q,k] · r[p,j,k].  On the extended reals the product is the exact sum.
-/
import Idealize.ShloMosaic.PureOps.Ideal.Laws
import Idealize.ShloMosaic.Lib.ValueIdx

noncomputable section

namespace Cert.Rank3

open Idealize.ShloMosaic Idealize.ShloMosaic.ValueIdx

variable {a b k n m : ℕ} {φ₁ φ₂ : FTy}

/-- Rows against a matrix contracted on its last axis. -/
theorem dotRowsMatT_apply
    (w : DotDims.WF ⟨3, ![a, b, k]⟩ ⟨2, ![n, k]⟩ ⟨3, ![a, b, n]⟩ [2] [1] [0, 1] [0] [] [])
    (prec : Option ContractPrecision) (L : FVec Ideal ⟨3, ![a, b, k]⟩ φ₁) (R : FVec Ideal ⟨2, ![n, k]⟩ φ₂)
    (p : Fin a) (q : Fin b) (e : Fin n) :
    Host.dotGeneral (⟨[2], [1], [0, 1], [0], [], [], w⟩ : DotDims _ _ _) prec L R (ix3 p q e)
      = ∑ c : Fin k, L (ix3 p q c) * R (ix2 e c) := by
  show FloatOps.dotGeneral _ prec _ L R (ix3 p q e) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![a, b, k]⟩ ⟨2, ![n, k]⟩ ⟨3, ![a, b, n]⟩) k rfl rfl c
  have l3 : (⟨[2], [1], [0, 1], [0], [], [], w⟩ : DotDims ⟨3, ![a, b, k]⟩ ⟨2, ![n, k]⟩ ⟨3, ![a, b, n]⟩).lhsIdx (ix3 p q e)
      ((contrEquiv1 _ k rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![a, b, k]⟩ ⟨2, ![n, k]⟩ ⟨3, ![a, b, n]⟩).rhsIdx (ix3 p q e)
      ((contrEquiv1 _ k rfl rfl).symm c) = ix2 e c := by
    funext ax; apply Fin.ext
    match ax with
    | ⟨0, _⟩ => simp [DotDims.rhsIdx]; rfl
    | ⟨1, _⟩ => simp [DotDims.rhsIdx]; exact c3
  rw [l3, r3]

/-- A batched product of rows against rows, both contracted on their last axis. -/
theorem dotBatchRowsRows_apply
    (w : DotDims.WF ⟨3, ![a, b, k]⟩ ⟨3, ![a, m, k]⟩ ⟨3, ![a, b, m]⟩ [2] [2] [1] [1] [0] [0])
    (prec : Option ContractPrecision) (L : FVec Ideal ⟨3, ![a, b, k]⟩ φ₁) (R : FVec Ideal ⟨3, ![a, m, k]⟩ φ₂)
    (p : Fin a) (q : Fin b) (j : Fin m) :
    Host.dotGeneral (⟨[2], [2], [1], [1], [0], [0], w⟩ : DotDims _ _ _) prec L R (ix3 p q j)
      = ∑ c : Fin k, L (ix3 p q c) * R (ix3 p j c) := by
  show FloatOps.dotGeneral _ prec _ L R (ix3 p q j) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![a, b, k]⟩ ⟨3, ![a, m, k]⟩ ⟨3, ![a, b, m]⟩) k rfl rfl c
  have l3 : (⟨[2], [2], [1], [1], [0], [0], w⟩ : DotDims ⟨3, ![a, b, k]⟩ ⟨3, ![a, m, k]⟩ ⟨3, ![a, b, m]⟩).lhsIdx (ix3 p q j)
      ((contrEquiv1 _ k rfl rfl).symm c) = ix3 p q c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![a, b, k]⟩ ⟨3, ![a, m, k]⟩ ⟨3, ![a, b, m]⟩).rhsIdx (ix3 p q j)
      ((contrEquiv1 _ k rfl rfl).symm c) = ix3 p j c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

end Cert.Rank3

end
-- ==== Proof.RefStepNorm.lean ====
/-
  The reference's normalised slots and queries, read at an entry.

  The row mean is the specification's mean of the row; the centred row, the root of the variance plus the small
  constant, and the normalised row follow; the quotient-by-root form of the normalisation is the reciprocal-root form
  (the variance plus the constant is positive); and the query map is the specification's linear map.
-/
import proofs.«115225_j9758165696697_2_alg».proof.Proof.RefStepDefs
import proofs.«115225_j9758165696697_2_alg».proof.Proof.Rank3Read
import proofs.«115225_j9758165696697_2_alg».proof.Proof.Rank3Dot
import proofs.«115225_j9758165696697_2_alg».proof.Proof.SpecLaws

noncomputable section

open scoped BigOperators

namespace Cert.RefValue

open Idealize.ShloMosaic Idealize.ShloMosaic.ValueIdx Cert.ReferenceIdeal Cert.Rank3

variable [Facts]
open Facts₀ Facts

/-- The row mean, at (b, n, ·): the specification's mean of row (b, n). -/
theorem refMean_apply (S : FVec Ideal S16x10x256 .f32) (b : Fin 16) (n : Fin 10) (u : Fin 1) :
    refMean (F := Ideal) S (ix3 b n u) = Spec.mean (fun k => S (ix3 b n k)) := by
  unfold refMean
  rw [hostDivf_apply, bcast_ab_ab1, hostSumLast_apply, broadcastInDim_scalar_apply, constant_apply, constant_apply,
    Spec.zero_word, zero_add]
  rfl

/-- The centred row, at (b, n, d). -/
theorem refCentered_apply (S : FVec Ideal S16x10x256 .f32) (b : Fin 16) (n : Fin 10) (d : Fin 256) :
    refCentered (F := Ideal) S (ix3 b n d) = S (ix3 b n d) - Spec.mean (fun k => S (ix3 b n k)) := by
  unfold refCentered
  rw [subf_apply, bcast_ab1_abc, refMean_apply]

/-- The root of the variance plus the small constant, at (b, n, ·). -/
theorem refStd_apply (S : FVec Ideal S16x10x256 .f32) (b : Fin 16) (n : Fin 10) (u : Fin 1) :
    refStd (F := Ideal) S (ix3 b n u) = Ideal.sqrt (Spec.var (fun k => S (ix3 b n k)) + Spec.epsLn) := by
  unfold refStd
  show Ideal.sqrt _ = _
  congr 1
  rw [addf_apply, hostDivf_apply, bcast_ab_ab1, hostSumLast_apply, broadcastInDim_scalar_apply,
    broadcastInDim_scalar_apply, constant_apply, constant_apply, constant_apply, Spec.zero_word, zero_add]
  simp only [mulf_apply, refCentered_apply]
  rfl

/-- The normalised row, at (b, n, d): the quotient-by-root form of the specification's normalisation. -/
theorem refNormed_apply (S : FVec Ideal S16x10x256 .f32) (n2w n2b : FVec Ideal S256 .f32) (b : Fin 16) (n : Fin 10)
    (d : Fin 256) :
    refNormed (F := Ideal) S n2w n2b (ix3 b n d)
      = Spec.lnR (fun k => S (ix3 b n k)) (fun k => n2w (ix1 k)) (fun k => n2b (ix1 k)) d := by
  unfold refNormed
  rw [addf_apply, mulf_apply, hostDivf_apply, subf_apply, bcast_ab1_abc, bcast_ab1_abc, refMean_apply, refStd_apply,
    bcast_c_abc, bcast_c_abc]
  rfl

/-- The query, at (b, n, e): the specification's linear map of the normalised row. -/
theorem refQuery_apply (S : FVec Ideal S16x10x256 .f32) (n2w n2b : FVec Ideal S256 .f32) (qw : FVec Ideal S256x256 .f32)
    (qb : FVec Ideal S256 .f32) (b : Fin 16) (n : Fin 10) (e : Fin 256) :
    refQuery (F := Ideal) S n2w n2b qw qb (ix3 b n e)
      = Spec.lin (Spec.lnK (fun k => S (ix3 b n k)) (fun k => n2w (ix1 k)) (fun k => n2b (ix1 k)))
          (fun e' k => qw (ix2 e' k)) (fun e' => qb (ix1 e')) e := by
  unfold refQuery
  rw [addf_apply, bcast_c_abc, dot_S16x10x256_S256x256_S16x10x256_2_1_01_0_n_n, dotRowsMatT_apply]
  simp only [refNormed_apply, Spec.lnR_eq_lnK]
  rfl

end Cert.RefValue

end
-- ==== Proof.RefStepAttn.lean ====
/-
  The reference's scores, soft-max over the slots, and updates, read at an entry.

  The scores are the specification's; the exponentials of the scores less their column maxima and the attention weights
  (the quotient by the column sums, plus the small constant) are the specification's functions of a score array; the
  updates are the attention-weighted sums of the value rows.
-/
import proofs.«115225_j9758165696697_2_alg».proof.Proof.RefStepNorm
import Idealize.ShloMosaic.Lib.StackMember

noncomputable section

open scoped BigOperators

namespace Cert.RefValue

open Idealize.ShloMosaic Idealize.ShloMosaic.ValueIdx Cert.ReferenceIdeal Cert.Rank3

variable [Facts]
open Facts₀ Facts

/-- The iteration's weights read off the arrays. -/
abbrev wts (n2w n2b : FVec Ideal S256 .f32) (qw : FVec Ideal S256x256 .f32) (qb : FVec Ideal S256 .f32)
    (wih whh : FVec Ideal S768x256 .f32) (bih bhh : FVec Ideal S768 .f32) : Spec.Weights :=
  ⟨fun k => n2w (ix1 k), fun k => n2b (ix1 k), fun e k => qw (ix2 e k), fun e => qb (ix1 e), fun q k => wih (ix2 q k),
    fun q k => whh (ix2 q k), fun q => bih (ix1 q), fun q => bhh (ix1 q)⟩

/-- The scores of batch b are the specification's scores of the batch's slots against the batch's keys. -/
theorem refScores_apply (S : FVec Ideal S16x10x256 .f32) (Kb : FVec Ideal S16x8192x256 .f32) (n2w n2b : FVec Ideal S256 .f32)
    (qw : FVec Ideal S256x256 .f32) (qb : FVec Ideal S256 .f32) (wih whh : FVec Ideal S768x256 .f32)
    (bih bhh : FVec Ideal S768 .f32) (b : Fin 16) (n : Fin 10) (j : Fin 8192) :
    refScores (F := Ideal) S Kb n2w n2b qw qb (ix3 b n j)
      = Spec.score (wts n2w n2b qw qb wih whh bih bhh) (fun j' e => Kb (ix3 b j' e)) (fun n' d' => S (ix3 b n' d')) n j := by
  unfold refScores
  rw [dot_S16x10x256_S16x8192x256_S16x10x8192_2_2_1_1_0_0, dotBatchRowsRows_apply]
  simp only [refQuery_apply]
  rfl

/-- The exponentials, at (b, n, j): the specification's, of the batch's score array. -/
theorem refExp_apply (sc : FVec Ideal S16x10x8192 .f32) (b : Fin 16) (n : Fin 10) (j : Fin 8192) :
    refExp (F := Ideal) sc (ix3 b n j) = Spec.expo (fun n' j' => sc (ix3 b n' j')) n j := by
  unfold refExp
  show Ideal.exp (sc (ix3 b n j) - _) = _
  rw [bcast_a1c_abc, bcast_ac_a1c, maximumf_apply, broadcastInDim_scalar_apply, constant_apply, hostMaxMid_apply,
    constant_apply]
  rfl

/-- The attention weights, at (b, n, j): the exponential over the column's sum, plus the small constant. -/
theorem refAttn_apply (ex : FVec Ideal S16x10x8192 .f32) (b : Fin 16) (n : Fin 10) (j : Fin 8192) :
    refAttn (F := Ideal) ex (ix3 b n j)
      = Ideal.div (ex (ix3 b n j)) (∑ n' : Fin 10, ex (ix3 b n' j)) + Spec.epsAt := by
  unfold refAttn
  rw [addf_apply, hostDivf_apply, bcast_a1c_abc, bcast_ac_a1c, hostSumMid_apply, broadcastInDim_scalar_apply,
    constant_apply, constant_apply, Spec.zero_word, zero_add]

/-- The updates of batch b are the specification's updates. -/
theorem refUpdate_apply (S : FVec Ideal S16x10x256 .f32) (Kb Vb : FVec Ideal S16x8192x256 .f32) (n2w n2b : FVec Ideal S256 .f32)
    (qw : FVec Ideal S256x256 .f32) (qb : FVec Ideal S256 .f32) (wih whh : FVec Ideal S768x256 .f32)
    (bih bhh : FVec Ideal S768 .f32) (b : Fin 16) (n : Fin 10) (d : Fin 256) :
    refUpdate (F := Ideal) S Kb Vb n2w n2b qw qb (ix3 b n d)
      = Spec.update (wts n2w n2b qw qb wih whh bih bhh) (fun j' e => Kb (ix3 b j' e)) (fun j' e => Vb (ix3 b j' e))
          (fun n' d' => S (ix3 b n' d')) n d := by
  have hsc : (fun n' j' => refScores (F := Ideal) S Kb n2w n2b qw qb (ix3 b n' j'))
      = Spec.score (wts n2w n2b qw qb wih whh bih bhh) (fun j' e => Kb (ix3 b j' e)) (fun n' d' => S (ix3 b n' d')) :=
    funext fun n' => funext fun j' => refScores_apply S Kb n2w n2b qw qb wih whh bih bhh b n' j'
  unfold refUpdate
  rw [dot_S16x10x8192_S16x8192x256_S16x10x256_2_1_1_2_0_0, StackMember.dotGeneral_stack_apply]
  unfold Spec.update
  refine Finset.sum_congr rfl fun j _ => ?_
  rw [refAttn_apply]
  simp only [refExp_apply, hsc]
  rfl

end Cert.RefValue

end
-- ==== Proof.LibColRowSigmoid.lean ====
/-
  General facts about no program in particular (this file imports only the library and can be copied unchanged).
  shapeCast_col_row_apply: a column [n,1] shape-cast to a row [1,n], read at (u,k), is the column's entry (k,v) — both sit
  at position k of the row-major order (the column-to-row form missing from Lib/ValueLayout). one_word: on the extended
  reals the f32 word 0x3F800000 is the number one. sigmoid_expanded: the host's spelling of the sigmoid,
  hostDivf 1 (addf 1 (exp (hostNegf x))) with the ones written as that word, is Ideal.logistic x, the function a kernel's
  logistic operation denotes.
-/
import Idealize.ShloMosaic.PureOps.Ideal
import Idealize.ShloMosaic.Lib.Pipeline.Value
import Idealize.ShloMosaic.Lib.ValueIdx
import Idealize.ShloMosaic.Lib.ValueLayout

noncomputable section

namespace Cert.Bridge.Layout

open Idealize.ShloMosaic Idealize.ShloMosaic.ValueIdx

variable {α : Type}

/-- A column `[n, 1]` cast to a row `[1, n]` reads, at `(u, k)`, the column's entry `(k, v)`: both are at row-major
    position `k`. -/
theorem shapeCast_col_row_apply {n : ℕ} (x : (⟨2, ![n, 1]⟩ : Shape).Idx → α) (h : (⟨2, ![n, 1]⟩ : Shape).ShapeCasts ⟨2, ![1, n]⟩)
    (u v : Fin 1) (k : Fin n) : shapeCast ⟨2, ![1, n]⟩ x h (ix2 u k) = x (ix2 k v) :=
  shapeCast_apply x h _ _ (by
    have hu : u.val = 0 := by omega
    have hv : v.val = 0 := by omega
    rw [Shape.rowMajor_val_two, Shape.rowMajor_val_two]
    show k.val * 1 + v.val = u.val * n + k.val
    rw [hu, hv, Nat.zero_mul, Nat.zero_add, Nat.mul_one, Nat.add_zero])

/-- The float word `0x3F800000` is the number one. -/
theorem one_word : Ideal.ofBits .f32 0x3F800000#32 = 1 := by
  simp [Ideal.ofBits, Ideal.ieee, -EReal.coe_mul]; norm_num

/-- The host's spelling of the sigmoid — one over one plus the exponential of the negated argument, the ones being the
    float word for one — is the logistic function. -/
theorem sigmoid_expanded (x : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf x)))
      = Ideal.logistic x := by
  rw [Ideal.ofBits_def, one_word]
  rfl

end Cert.Bridge.Layout

end
-- ==== Proof.RefStep.lean ====
/-
  The reference's gated cell and one whole iteration, read at an entry.

  A row of gate pre-activations is the specification's linear map; the host's expanded sigmoid is the logistic
  function; the three column blocks of a row of 768 are its three thirds; so the cell is the specification's cell, and
  one iteration of the reference is the specification's step on the batch's slots, keys and values.
-/
import proofs.«115225_j9758165696697_2_alg».proof.Proof.RefStepAttn
import proofs.«115225_j9758165696697_2_alg».proof.Proof.LibColRowSigmoid

noncomputable section

open scoped BigOperators

namespace Cert.RefValue

open Idealize.ShloMosaic Idealize.ShloMosaic.ValueIdx Cert.ReferenceIdeal Cert.Rank3

variable [Facts]
open Facts₀ Facts

theorem hostExp_apply {s : Shape} {φ : FTy} (x : FVec Ideal s φ) (i : s.Idx) : Host.exp x i = Ideal.exp (x i) := rfl
theorem hostNegf_apply {s : Shape} {φ : FTy} (x : FVec Ideal s φ) (i : s.Idx) : Host.negf x i = -(x i) := rfl
theorem hostTanh_apply {s : Shape} {φ : FTy} (x : FVec Ideal s φ) (i : s.Idx) : Host.tanh x i = Ideal.tanh (x i) := rfl

/-- One over one plus the exponential of the negated argument, the ones being the word for one, is the logistic
    function. -/
theorem logistic_word (x : EReal) : Ideal.div Spec.one (Spec.one + Ideal.exp (-x)) = Ideal.logistic x :=
  Cert.Bridge.Layout.sigmoid_expanded x

/-- A row of gate pre-activations, at (b, n, q): the specification's linear map of row (b, n). -/
theorem refGates_apply (X : FVec Ideal S16x10x256 .f32) (w : FVec Ideal S768x256 .f32) (bias : FVec Ideal S768 .f32)
    (b : Fin 16) (n : Fin 10) (q : Fin 768) :
    refGates (F := Ideal) X w bias (ix3 b n q)
      = Spec.lin (fun k => X (ix3 b n k)) (fun q' k => w (ix2 q' k)) (fun q' => bias (ix1 q')) q := by
  unfold refGates
  rw [addf_apply, bcast_c_abc, dot_S16x10x256_S768x256_S16x10x768_2_1_01_0_n_n, dotRowsMatT_apply]
  rfl

/-- The update gate, at (b, n, d): the logistic of the middle thirds' sum. -/
theorem refZ_apply (gx gh : FVec Ideal S16x10x768 .f32) (b : Fin 16) (n : Fin 10) (d : Fin 256) :
    refZ (F := Ideal) gx gh (ix3 b n d)
      = Ideal.logistic (gx (ix3 b n (Spec.third1 d)) + gh (ix3 b n (Spec.third1 d))) := by
  unfold refZ
  simp only [hostDivf_apply, addf_apply, hostExp_apply, hostNegf_apply]
  rw [broadcastInDim_scalar_apply, constant_apply, sliceLast_apply 256 gx _ b n d (Spec.third1 d) rfl,
    sliceLast_apply 256 gh _ b n d (Spec.third1 d) rfl]
  exact logistic_word _

/-- The cell, at (b, n, d): the specification's cell of the two rows of pre-activations and the update's entry. -/
theorem refCell_apply (gx gh : FVec Ideal S16x10x768 .f32) (u : FVec Ideal S16x10x256 .f32) (b : Fin 16) (n : Fin 10)
    (d : Fin 256) :
    refCell (F := Ideal) gx gh u (ix3 b n d)
      = Spec.cell (fun q => gx (ix3 b n q)) (fun q => gh (ix3 b n q)) (u (ix3 b n d)) d := by
  unfold refCell
  simp only [hostDivf_apply, addf_apply, mulf_apply, subf_apply, hostExp_apply, hostNegf_apply, hostTanh_apply, refZ_apply]
  rw [broadcastInDim_scalar_apply, constant_apply,
    sliceLast_apply 0 gx _ b n d (Spec.third0 d) (Nat.zero_add _).symm,
    sliceLast_apply 0 gh _ b n d (Spec.third0 d) (Nat.zero_add _).symm,
    sliceLast_apply 512 gx _ b n d (Spec.third2 d) rfl,
    sliceLast_apply 512 gh _ b n d (Spec.third2 d) rfl, logistic_word]
  rfl

/-- One iteration of the reference, at (b, n, d): the specification's step on batch b. -/
theorem refStep_apply (S : FVec Ideal S16x10x256 .f32) (Kb Vb : FVec Ideal S16x8192x256 .f32) (n2w n2b : FVec Ideal S256 .f32)
    (qw : FVec Ideal S256x256 .f32) (qb : FVec Ideal S256 .f32) (wih whh : FVec Ideal S768x256 .f32)
    (bih bhh : FVec Ideal S768 .f32) (b : Fin 16) (n : Fin 10) (d : Fin 256) :
    refStep (F := Ideal) S Kb Vb n2w n2b qw qb wih whh bih bhh (ix3 b n d)
      = Spec.step ⟨fun k => n2w (ix1 k), fun k => n2b (ix1 k), fun e k => qw (ix2 e k), fun e => qb (ix1 e),
            fun q k => wih (ix2 q k), fun q k => whh (ix2 q k), fun q => bih (ix1 q), fun q => bhh (ix1 q)⟩
          (fun j e => Kb (ix3 b j e)) (fun j e => Vb (ix3 b j e)) (fun n' d' => S (ix3 b n' d')) n d := by
  unfold refStep
  rw [refCell_apply]
  simp only [refGates_apply, refUpdate_apply S Kb Vb n2w n2b qw qb wih whh bih bhh]
  rfl

end Cert.RefValue

end
-- ==== Proof.RefResult.lean ====
/-
  The reference program's result, read at an entry, is the specification's function of the argument arrays.

  The result is three steps from the initial slots.  One step at batch `b` is the specification's step on that batch's
  key rows, value rows and slot rows; the prologue's arrays are the specification's keys, values and initial slots; so
  the three steps are the specification's three iterations.
-/
import proofs.«115225_j9758165696697_2_alg».proof.Proof.RefAssemble
import proofs.«115225_j9758165696697_2_alg».proof.Proof.RefPrologue
import proofs.«115225_j9758165696697_2_alg».proof.Proof.RefStep

noncomputable section

namespace Cert.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx Cert.Spec

variable (V0 : Valuation τ sig (Elt Ideal))

/-- One step read at an entry: the specification's step on batch `b`'s rows of the slots. -/
theorem stepOf_apply (S : (⟨S16x10x256, .f32⟩ : BufTy).Contents (Elt Ideal)) (b : Fin 16) (n : Fin 10) (d : Fin 256) :
    stepOf V0 S (ix3 b n d)
      = step (argsOf V0).weights ((argsOf V0).keys b) ((argsOf V0).vals b) (fun n' d' => S (ix3 b n' d')) n d := by
  have hK : (fun j e => res_main_v32 V0 (ix3 b j e)) = (argsOf V0).keys b :=
    funext fun j => funext fun e => v32_apply V0 b j e
  have hV : (fun j e => res_main_v36 V0 (ix3 b j e)) = (argsOf V0).vals b :=
    funext fun j => funext fun e => v36_apply V0 b j e
  unfold stepOf
  rw [refStep_apply, hK, hV]
  rfl

/-- The result at an entry is the specification's function of the arguments. -/
theorem refOut_apply (b : Fin 16) (n : Fin 10) (d : Fin 256) : refOut V0 (ix3 b n d) = (argsOf V0).out b n d := by
  have h0 : (fun n' d' => res_main_v28 V0 (ix3 b n' d')) = (argsOf V0).slots0 b :=
    funext fun n' => funext fun d' => v28_apply V0 b n' d'
  have h1 : (fun n' d' => stepOf V0 (res_main_v28 V0) (ix3 b n' d'))
      = step (argsOf V0).weights ((argsOf V0).keys b) ((argsOf V0).vals b) ((argsOf V0).slots0 b) :=
    funext fun n' => funext fun d' => by rw [stepOf_apply, h0]
  have h2 : (fun n' d' => stepOf V0 (stepOf V0 (res_main_v28 V0)) (ix3 b n' d'))
      = step (argsOf V0).weights ((argsOf V0).keys b) ((argsOf V0).vals b)
          (step (argsOf V0).weights ((argsOf V0).keys b) ((argsOf V0).vals b) ((argsOf V0).slots0 b)) :=
    funext fun n' => funext fun d' => by rw [stepOf_apply, h1]
  rw [refOut_eq, stepOf_apply, h2]
  rfl

end Cert.RefValue

end
-- ==== Proof.ClaimArgs.lean ====
/-
  Two records of the specification's eighteen argument arrays are equal when they are equal array by array.
-/
import proofs.«115225_j9758165696697_2_alg».proof.Proof.Spec

noncomputable section

namespace Cert.Proof.Claims

/-- Argument records with equal fields are equal. -/
theorem args_ext (a b : Cert.Spec.Args)
    (h : a.feat = b.feat ∧ a.noise = b.noise ∧ a.mu = b.mu ∧ a.ls = b.ls ∧ a.n1w = b.n1w ∧ a.n1b = b.n1b ∧
      a.n2w = b.n2w ∧ a.n2b = b.n2b ∧ a.qw = b.qw ∧ a.qb = b.qb ∧ a.kw = b.kw ∧ a.kb = b.kb ∧
      a.vw = b.vw ∧ a.vb = b.vb ∧ a.wih = b.wih ∧ a.whh = b.whh ∧ a.bih = b.bih ∧ a.bhh = b.bhh) : a = b := by
  cases a; cases b
  simpa only [Cert.Spec.Args.mk.injEq] using h

end Cert.Proof.Claims

end
-- ==== Proof.ClaimAlgebraic.lean ====
/-
  At the exact instance the idealized kernel and the reference end with equal result arrays.

  Both results are the specification's function of the eighteen argument arrays: three iterations of slot attention
  from the initial slots against each batch's key and value rows.  The kernel's run leaves its result array at that
  function of its own arguments; the reference's run leaves its result at the same function of its arguments; and the
  two memories agree on the arguments, array by array.
-/
import proofs.«115225_j9758165696697_2_alg».proof.Defs
import proofs.«115225_j9758165696697_2_alg».proof.Proof.Gen.KernelIdeal
import proofs.«115225_j9758165696697_2_alg».proof.Proof.Gen.ReferenceIdeal
import proofs.«115225_j9758165696697_2_alg».proof.Proof.Gen.Pre_finite_inputs
import proofs.«115225_j9758165696697_2_alg».proof.Proof.KResult
import proofs.«115225_j9758165696697_2_alg».proof.Proof.RefResult
import proofs.«115225_j9758165696697_2_alg».proof.Proof.ClaimArgs

noncomputable section

namespace Cert.Proof.Claims

open Idealize.ShloMosaic Idealize.ShloMosaic.TcCoe Idealize.SL.Sem Idealize.ShloMosaic.StableHlo
  Idealize.ShloMosaic.ValueIdx

/-- The reference's result of arguments that agree with the kernel's is the kernel's result. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.RefValue.argsOf (launchContents m' c) = Cert.KernelIdeal.Hand.argsOfK m c) :
    Cert.RefValue.refOut (launchContents m' c) = Cert.KernelIdeal.Hand.kResult m c := by
  funext j
  obtain ⟨b, n, d, rfl⟩ : ∃ (b : Fin 16) (n : Fin 10) (d : Fin 256), j = ix3 b n d := ⟨j 0, j 1, j 2, eq_ix3 j⟩
  rw [Cert.RefValue.refOut_apply, h]
  rfl

/-- Both programs run, end with equal results, and leave their arguments unchanged. -/
theorem algebraic : Cert.algebraic_KernelIdeal_ReferenceIdeal := by
  intro m ρ m' ρ' _ hagree
  refine ⟨fun c => Cert.KernelIdeal.Hand.kResult m c, Cert.KernelIdeal.Hand.run_value m ρ, ?_⟩
  refine (θ_run Cert.ReferenceIdeal.defs _ _).mono (fun _ h c => ⟨(h c).1.trans ?_, (h c).2⟩)
    (Cert.RefValue.run_refOut m' ρ')
  exact result_eq m m' c (args_ext _ _ (hagree c))

end Cert.Proof.Claims

end
-- ==== Proof.lean ====
/-
  The kernel and its reference compute one function: slot attention over sixteen batches.

  Each batch's 8192 feature rows are layer-normalised and mapped linearly to key rows and value rows; ten slot rows,
  started at mu + exp(log_sigma) * noise, are updated three times, each update normalising the slots, mapping them to
  queries, scoring them against the keys, soft-maxing the scores over the slots, summing the value rows under those
  weights, and mixing the sums into the slots through a gated recurrent cell.

  Five claims are proved.  Each of the three programs — the kernel as printed at bit patterns, the kernel read on the
  extended reals, the reference read on the extended reals — terminates without a fault and leaves its eighteen argument
  arrays unchanged.  The reading on the extended reals rewrote no operation of the kernel, so nothing is to be
  preserved.  And on the extended reals the two programs, started from memories that agree on the arguments, end with
  equal result arrays: the kernel's grid of (batch, chunk) points fills two scratch arrays with the batch's key and value
  rows and, at the batch's last chunk, runs the three iterations; index by index that is the specification's function of
  the arguments, which the reference's straight-line program also is.  The only laws of the extended reals used are
  commutativity and associativity of sum and product and a * rsqrt v = a / sqrt v, so no finiteness of the inputs is
  needed.
-/
import proofs.«115225_j9758165696697_2_alg».proof.Defs
import proofs.«115225_j9758165696697_2_alg».proof.Proof.Gen.Kernel
import proofs.«115225_j9758165696697_2_alg».proof.Proof.Gen.Kernel.Skeleton
import proofs.«115225_j9758165696697_2_alg».proof.Proof.Gen.Kernel.Launch
import proofs.«115225_j9758165696697_2_alg».proof.Proof.Gen.Kernel.Points
import proofs.«115225_j9758165696697_2_alg».proof.Proof.Gen.Kernel.Frame
import proofs.«115225_j9758165696697_2_alg».proof.Proof.Gen.KernelIdeal
import proofs.«115225_j9758165696697_2_alg».proof.Proof.Gen.KernelIdeal.Skeleton
import proofs.«115225_j9758165696697_2_alg».proof.Proof.Gen.KernelIdeal.Launch
import proofs.«115225_j9758165696697_2_alg».proof.Proof.Gen.KernelIdeal.Points
import proofs.«115225_j9758165696697_2_alg».proof.Proof.Gen.KernelIdeal.Frame
import proofs.«115225_j9758165696697_2_alg».proof.Proof.Gen.ReferenceIdeal
import proofs.«115225_j9758165696697_2_alg».proof.Proof.Gen.Pre_finite_inputs
import proofs.«115225_j9758165696697_2_alg».proof.Proof.ClaimFrameBits
import proofs.«115225_j9758165696697_2_alg».proof.Proof.ClaimFrameIdeal
import proofs.«115225_j9758165696697_2_alg».proof.Proof.ClaimFrameRef
import proofs.«115225_j9758165696697_2_alg».proof.Proof.ClaimAlgebraic
import Idealize.ShloMosaic.Adequacy
import Idealize.ShloMosaic.Init

noncomputable section

namespace Cert.Proof

open Idealize.ShloMosaic Idealize.SL.Sem Cert.Kernel

/-- The idealization rewrote no operation: there is nothing to preserve. -/
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, preserves, Claims.algebraic⟩

end Cert.Proof

end
